-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S128 .f32) (main_arg15 : FVec F S128x64 .f32) (main_arg16 : FVec F S64 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg15
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg11 : FVec F S256x128 .f32) (main_arg12 : FVec F S128 .f32) (main_arg13 : FVec F S128x128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_v63 main_v67

def fn_part2 {F : FTy → Type} [FloatOps F] (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128x64 .f32) (main_arg16 : FVec F S64 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128x64 .f32) (main_arg16 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S50000x128 .f32) (main_arg1 : FVec F S128x128 .f32) (main_arg2 : FVec F S128 .f32) (main_arg3 : FVec F S256x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128x64 .f32) (main_arg16 : FVec F S64 .f32) (main_arg17 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S2000x128 : Shape := ⟨2, ![2000, 128]⟩
abbrev S800000x128 : Shape := ⟨2, ![800000, 128]⟩
abbrev S50000x1 : Shape := ⟨2, ![50000, 1]⟩
abbrev S2000 : Shape := ⟨1, ![2000]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 103
  | .vmem => 53
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S2x800000, .i32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S128x128, .f32⟩
  | .hbm, ⟨76, _⟩ => ⟨S1x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S128x128, .f32⟩
  | .hbm, ⟨97, _⟩ => ⟨S128x128, .f32⟩
  | .hbm, ⟨98, _⟩ => ⟨S1x128, .f32⟩
  | .hbm, ⟨99, _⟩ => ⟨S50000x128, .f32⟩
  | .hbm, ⟨100, _⟩ => ⟨S1x128, .f32⟩
  | .hbm, ⟨101, _⟩ => ⟨S1x64, .f32⟩
  | .hbm, ⟨102, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S128x128, .f32⟩
  | .local _ .vmem, ⟨48, _⟩ => ⟨S1x128, .f32⟩
  | .local _ .vmem, ⟨49, _⟩ => ⟨S128x64, .f32⟩
  | .local _ .vmem, ⟨50, _⟩ => ⟨S1x64, .f32⟩
  | .local _ .vmem, ⟨51, _⟩ => ⟨S2000x64, .f32⟩
  | .local _ .vmem, ⟨52, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_c_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg5_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem5_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem5_1 : DmaSem sig := 52

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S2000x128_S2000x128 : S2000x128.ShapeCasts S2000x128
  shapeCasts_S128x128_S128x128 : S128x128.ShapeCasts S128x128
  reduces_S2000x128_S2000 : S2000x128.Reduces [1] S2000
  shapeCasts_S2000_S2000x1 : S2000.ShapeCasts S2000x1
  broadcasts_S2000x1_S2000x128 : S2000x1.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S50000x64.size a
  hwx6_5 : ∀ i : grid6.Coords, EltTy.bits .f32 = 32 ∨ (Rect.block (s := S50000x64) S2000x64.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v30) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v49) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v68) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v68) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg15) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v70) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v71) S2000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S50000x64 : Shape := ⟨2, ![50000, 64]⟩
abbrev S1x64 : Shape := ⟨2, ![1, 64]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S256x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128x64, .f32⟩
  | 16 => ⟨S64, .f32⟩
  | 17 => ⟨S2x800000, .i32⟩
  | 18 => ⟨S1x800000, .i32⟩
  | 19 => ⟨S800000, .i32⟩
  | 20 => ⟨S1x800000, .i32⟩
  | 21 => ⟨S800000, .i32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x128, .f32⟩
  | 53 => ⟨S50000x128, .f32⟩
  | 54 => ⟨S50000x256, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S50000x1, .f32⟩
  | 67 => ⟨S_, .f32⟩
  | 68 => ⟨S50000x1, .f32⟩
  | 69 => ⟨S50000x1, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S_, .f32⟩
  | 96 => ⟨S800000, .f32⟩
  | 97 => ⟨S_, .f32⟩
  | 98 => ⟨S50000, .f32⟩
  | 99 => ⟨S800000x1, .i32⟩
  | 100 => ⟨S50000, .f32⟩
  | 101 => ⟨S_, .f32⟩
  | 102 => ⟨S50000, .f32⟩
  | 103 => ⟨S50000, .f32⟩
  | 104 => ⟨S50000x1, .f32⟩
  | 105 => ⟨S50000x128, .f32⟩
  | 106 => ⟨S50000x128, .f32⟩
  | 107 => ⟨S50000x256, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S_, .f32⟩
  | 117 => ⟨S50000, .f32⟩
  | 118 => ⟨S50000x1, .f32⟩
  | 119 => ⟨S50000x1, .f32⟩
  | 120 => ⟨S_, .f32⟩
  | 121 => ⟨S50000x1, .f32⟩
  | 122 => ⟨S50000x1, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S50000x256, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S_, .f32⟩
  | 42 => ⟨S50000, .f32⟩
  | 43 => ⟨S50000x1, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S50000x64, .f32⟩
  | 58 => ⟨S1x64, .f32⟩
  | 59 => ⟨S50000x64, .f32⟩
  | 60 => ⟨S50000x64, .f32⟩
  | 61 => ⟨S_, .f32⟩
  | 62 => ⟨S50000, .f32⟩
  | 63 => ⟨S_, .f32⟩
  | 64 => ⟨S50000, .f32⟩
  | 65 => ⟨S50000, .f32⟩
  | 66 => ⟨S50000x1, .f32⟩
  | 67 => ⟨S50000x64, .f32⟩
  | 68 => ⟨S50000x64, .f32⟩
  | 69 => ⟨S50000x64, .f32⟩
  | 70 => ⟨S_, .f32⟩
  | 71 => ⟨S50000, .f32⟩
  | 72 => ⟨S50000x1, .f32⟩
  | 73 => ⟨S50000x1, .f32⟩
  | 74 => ⟨S50000x64, .f32⟩
  | 75 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_cst : Ref sig .tc := ⟨.hbm, 26, rfl⟩
abbrev main_call0_v0 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call1_cst : Ref sig .tc := ⟨.hbm, 59, rfl⟩
abbrev main_call1_v0 : Ref sig .tc := ⟨.hbm, 60, rfl⟩
abbrev main_v33 : Ref sig .tc := ⟨.hbm, 61, rfl⟩
abbrev main_call2_v0 : Ref sig .tc := ⟨.hbm, 62, rfl⟩
abbrev main_call2_cst : Ref sig .tc := ⟨.hbm, 63, rfl⟩
abbrev main_call2_v1 : Ref sig .tc := ⟨.hbm, 64, rfl⟩
abbrev main_call2_v2 : Ref sig .tc := ⟨.hbm, 65, rfl⟩
abbrev main_v34 : Ref sig .tc := ⟨.hbm, 66, rfl⟩
abbrev main_cst_4 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_call3_cst : Ref sig .tc := ⟨.hbm, 72, rfl⟩
abbrev main_call3_v0 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_call4_cst : Ref sig .tc := ⟨.hbm, 79, rfl⟩
abbrev main_call4_v0 : Ref sig .tc := ⟨.hbm, 80, rfl⟩
abbrev main_v44 : Ref sig .tc := ⟨.hbm, 81, rfl⟩
abbrev main_c_5 : Ref sig .tc := ⟨.hbm, 82, rfl⟩
abbrev main_v45 : Ref sig .tc := ⟨.hbm, 83, rfl⟩
abbrev main_v46 : Ref sig .tc := ⟨.hbm, 84, rfl⟩
abbrev main_c_6 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_7 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_8 : Ref sig .tc := ⟨.hbm, 95, rfl⟩
abbrev main_v55 : Ref sig .tc := ⟨.hbm, 96, rfl⟩
abbrev main_cst_9 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_10 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_call5_cst : Ref sig .tc := ⟨.hbm, 112, rfl⟩
abbrev main_call5_v0 : Ref sig .tc := ⟨.hbm, 113, rfl⟩
abbrev main_v69 : Ref sig .tc := ⟨.hbm, 114, rfl⟩
abbrev main_call6_v0 : Ref sig .tc := ⟨.hbm, 115, rfl⟩
abbrev main_call6_cst : Ref sig .tc := ⟨.hbm, 116, rfl⟩
abbrev main_call6_v1 : Ref sig .tc := ⟨.hbm, 117, rfl⟩
abbrev main_call6_v2 : Ref sig .tc := ⟨.hbm, 118, rfl⟩
abbrev main_v70 : Ref sig .tc := ⟨.hbm, 119, rfl⟩
abbrev main_cst_11 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_call7_cst : Ref sig .tc := ⟨.hbm, 125, rfl⟩
abbrev main_call7_v0 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_call8_cst : Ref sig .tc := ⟨.hbm, 132, rfl⟩
abbrev main_call8_v0 : Ref sig .tc := ⟨.hbm, 133, rfl⟩
abbrev main_v80 : Ref sig .tc := ⟨.hbm, 134, rfl⟩
abbrev main_c_12 : Ref sig .tc := ⟨.hbm, 135, rfl⟩
abbrev main_v81 : Ref sig .tc := ⟨.hbm, 136, rfl⟩
abbrev main_v82 : Ref sig .tc := ⟨.hbm, 137, rfl⟩
abbrev main_c_13 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_14 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_15 : Ref sig .tc := ⟨.hbm, 148, rfl⟩
abbrev main_v91 : Ref sig .tc := ⟨.hbm, 149, rfl⟩
abbrev main_cst_16 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_17 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_call9_cst : Ref sig .tc := ⟨.hbm, 165, rfl⟩
abbrev main_call9_v0 : Ref sig .tc := ⟨.hbm, 166, rfl⟩
abbrev main_v105 : Ref sig .tc := ⟨.hbm, 167, rfl⟩
abbrev main_call10_v0 : Ref sig .tc := ⟨.hbm, 168, rfl⟩
abbrev main_call10_cst : Ref sig .tc := ⟨.hbm, 169, rfl⟩
abbrev main_call10_v1 : Ref sig .tc := ⟨.hbm, 170, rfl⟩
abbrev main_call10_v2 : Ref sig .tc := ⟨.hbm, 171, rfl⟩
abbrev main_v106 : Ref sig .tc := ⟨.hbm, 172, rfl⟩
abbrev main_cst_18 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_call11_cst : Ref sig .tc := ⟨.hbm, 178, rfl⟩
abbrev main_call11_v0 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_call12_cst : Ref sig .tc := ⟨.hbm, 189, rfl⟩
abbrev main_call12_v0 : Ref sig .tc := ⟨.hbm, 190, rfl⟩
abbrev main_call12_cst_0 : Ref sig .tc := ⟨.hbm, 191, rfl⟩
abbrev main_call12_v1 : Ref sig .tc := ⟨.hbm, 192, rfl⟩
abbrev main_call12_v2 : Ref sig .tc := ⟨.hbm, 193, rfl⟩
abbrev main_call12_v3 : Ref sig .tc := ⟨.hbm, 194, rfl⟩
abbrev main_call12_v4 : Ref sig .tc := ⟨.hbm, 195, rfl⟩
abbrev main_call12_v5 : Ref sig .tc := ⟨.hbm, 196, rfl⟩
abbrev main_call12_v6 : Ref sig .tc := ⟨.hbm, 197, rfl⟩
abbrev main_call12_cst_1 : Ref sig .tc := ⟨.hbm, 198, rfl⟩
abbrev main_call12_v7 : Ref sig .tc := ⟨.hbm, 199, rfl⟩
abbrev main_call12_v8 : Ref sig .tc := ⟨.hbm, 200, rfl⟩
abbrev main_call12_v9 : Ref sig .tc := ⟨.hbm, 201, rfl⟩
abbrev main_call12_v10 : Ref sig .tc := ⟨.hbm, 202, rfl⟩
abbrev main_v120 : Ref sig .tc := ⟨.hbm, 203, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  reducesTo_S50000x128_S50000_d1 : S50000x128.ReducesTo [1] S50000
  h_S_ : 0 < S_.numel
  bcast_S_S50000x1 : S_.BroadcastsInDim S50000x1 (![] : Fin 0 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its result named: @main is seven kernel regions among stretches of host
  operations; every weakly fair execution terminates, and the final state holds every unscoped buffer at the last
  boundary's contents — in particular the result buffer, which is what the value proof reads — and the arguments as
  launched.
-/
import proofs.«137334_j6425271075235_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    argument arrays as launched. -/
theorem run_result : θ_run defs (onTc (τ := τ) (main (F := F))) ⟨m, fun _ => 0, ρ⟩ (fun r => ∀ c : Dev nD,
      r.2.mem ((c.tc : Thread nD τ).loc main_v71) = W14 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v71 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c)⟩)

end Cert.KernelIdeal.RunValue

end
-- ==== Proof.Rows.lean ====
/-
  The mathematics both programs compute, one row at a time, over the extended reals.

  Every dense stage of the network acts on each row (node) of its input independently:
    * a linear layer followed by a rectifier:  y_j = max (∑_k x_k W_kj + b_j) 0;
    * the layer that mixes a node's own features with its neighbourhood mean, then rescales the row to unit
      Euclidean length:  y_j = max (∑_k x_k Wx_kj + ∑_k a_k Wa_kj + b_j) 0,  out_j = y_j / max (√(∑_l y_l²)) ε;
    * the head: two affine maps followed by the logarithm of the softmax of the row,
      out_j = (y_j - m) - log (∑_l exp (y_l - m)) with m the row's maximum.
  A stage on an array of n rows applies its row function to every row; this is stated once for any n, so that the same
  definition reads a block of rows and the whole array.
-/
import Idealize.ShloMosaic.Lib.ValueIdx
import Idealize.ShloMosaic.PureOps.Ideal.Laws

noncomputable section

namespace Cert.Rows

open Idealize.ShloMosaic Idealize.ShloMosaic.ValueIdx

/-- An array of `n` rows and `d` columns of extended reals. -/
abbrev Arr (n d : Nat) := (⟨2, ![n, d]⟩ : Shape).Idx → EReal

/-- Row `r` of an array. -/
def rowOf {n d : Nat} (X : Arr n d) (r : Fin n) : Fin d → EReal := fun k => X (ix2 r k)

/-- An array as a matrix of entries. -/
def matOf {a b : Nat} (W : Arr a b) : Fin a → Fin b → EReal := fun k j => W (ix2 k j)

/-- The affine image of a row: (x W + b)_j. -/
def affRow {K N : Nat} (x : Fin K → EReal) (W : Fin K → Fin N → EReal) (b : Fin N → EReal) (j : Fin N) : EReal :=
  (∑ k, x k * W k j) + b j

/-- A linear layer and a rectifier: max (x W + b)_j 0. -/
def linRow {K N : Nat} (x : Fin K → EReal) (W : Fin K → Fin N → EReal) (b : Fin N → EReal) (j : Fin N) : EReal :=
  max (affRow x W b j) 0

/-- The rectified mix of a node's features `x` and its neighbourhood mean `a`: max (x Wx + a Wa + b)_j 0. -/
def mixRow {K N : Nat} (x a : Fin K → EReal) (Wx Wa : Fin K → Fin N → EReal) (b : Fin N → EReal) (j : Fin N) : EReal :=
  max (((∑ k, x k * Wx k j) + (∑ k, a k * Wa k j)) + b j) 0

/-- A row divided by its Euclidean length, the length bounded below by `ε`. -/
def unitRow {N : Nat} (y : Fin N → EReal) (ε : EReal) (j : Fin N) : EReal :=
  Ideal.div (y j) (max (Ideal.sqrt (∑ l, y l * y l)) ε)

/-- The greatest entry of a row (the lattice's bottom for the empty row). -/
def rowMax {N : Nat} (y : Fin N → EReal) : EReal := (Finset.univ : Finset (Fin N)).fold max ⊥ y

/-- The logarithm of the softmax of a row, computed after subtracting the row's maximum. -/
def lsmRow {N : Nat} (y : Fin N → EReal) (j : Fin N) : EReal :=
  (y j - rowMax y) - Ideal.log (∑ l, Ideal.exp (y l - rowMax y))

/-! ## The stages on arrays of `n` rows -/

/-- The linear layer with rectifier on every row; the bias is a one-row array. -/
def linArr {n K N : Nat} (X : Arr n K) (W : Arr K N) (B : Arr 1 N) : Arr n N :=
  fun i => linRow (rowOf X (i 0)) (matOf W) (rowOf B 0) (i 1)

/-- The mixing layer followed by the rescaling to unit length, on every row. -/
def mixUnitArr {n K N : Nat} (X A : Arr n K) (Wx Wa : Arr K N) (B : Arr 1 N) (ε : EReal) : Arr n N :=
  fun i => unitRow (mixRow (rowOf X (i 0)) (rowOf A (i 0)) (matOf Wx) (matOf Wa) (rowOf B 0)) ε (i 1)

/-- The head on every row: two affine maps, then the logarithm of the softmax. -/
def headArr {n K M N : Nat} (H : Arr n K) (W1 : Arr K M) (B1 : Arr 1 M) (W2 : Arr M N) (B2 : Arr 1 N) : Arr n N :=
  fun i => lsmRow (affRow (affRow (rowOf H (i 0)) (matOf W1) (rowOf B1 0)) (matOf W2) (rowOf B2 0)) (i 1)

/-! ## Row locality: a stage's value at a row depends on that row of its row-wise inputs and on the entries of the rest -/

theorem linArr_congr {n n' K N : Nat} (X : Arr n K) (X' : Arr n' K) (W W' : Arr K N) (B B' : Arr 1 N)
    (r : Fin n) (r' : Fin n') (j : Fin N)
    (hX : ∀ k : Fin K, X (ix2 r k) = X' (ix2 r' k)) (hW : ∀ (k : Fin K) (l : Fin N), W (ix2 k l) = W' (ix2 k l))
    (hB : ∀ l : Fin N, B (ix2 0 l) = B' (ix2 0 l)) :
    linArr X W B (ix2 r j) = linArr X' W' B' (ix2 r' j) := by
  have e1 : rowOf X r = rowOf X' r' := funext hX
  have e2 : matOf W = matOf W' := funext fun k => funext fun l => hW k l
  have e3 : rowOf B 0 = rowOf B' 0 := funext hB
  show linRow (rowOf X r) (matOf W) (rowOf B 0) j = linRow (rowOf X' r') (matOf W') (rowOf B' 0) j
  rw [e1, e2, e3]

theorem mixUnitArr_congr {n n' K N : Nat} (X A : Arr n K) (X' A' : Arr n' K) (Wx Wa Wx' Wa' : Arr K N) (B B' : Arr 1 N) (ε : EReal)
    (r : Fin n) (r' : Fin n') (j : Fin N)
    (hX : ∀ k : Fin K, X (ix2 r k) = X' (ix2 r' k)) (hA : ∀ k : Fin K, A (ix2 r k) = A' (ix2 r' k))
    (hWx : ∀ (k : Fin K) (l : Fin N), Wx (ix2 k l) = Wx' (ix2 k l)) (hWa : ∀ (k : Fin K) (l : Fin N), Wa (ix2 k l) = Wa' (ix2 k l))
    (hB : ∀ l : Fin N, B (ix2 0 l) = B' (ix2 0 l)) :
    mixUnitArr X A Wx Wa B ε (ix2 r j) = mixUnitArr X' A' Wx' Wa' B' ε (ix2 r' j) := by
  have e1 : rowOf X r = rowOf X' r' := funext hX
  have e2 : rowOf A r = rowOf A' r' := funext hA
  have e3 : matOf Wx = matOf Wx' := funext fun k => funext fun l => hWx k l
  have e4 : matOf Wa = matOf Wa' := funext fun k => funext fun l => hWa k l
  have e5 : rowOf B 0 = rowOf B' 0 := funext hB
  show unitRow (mixRow (rowOf X r) (rowOf A r) (matOf Wx) (matOf Wa) (rowOf B 0)) ε j
    = unitRow (mixRow (rowOf X' r') (rowOf A' r') (matOf Wx') (matOf Wa') (rowOf B' 0)) ε j
  rw [e1, e2, e3, e4, e5]

theorem headArr_congr {n n' K M N : Nat} (H : Arr n K) (H' : Arr n' K) (W1 W1' : Arr K M) (B1 B1' : Arr 1 M) (W2 W2' : Arr M N) (B2 B2' : Arr 1 N)
    (r : Fin n) (r' : Fin n') (j : Fin N)
    (hH : ∀ k : Fin K, H (ix2 r k) = H' (ix2 r' k)) (hW1 : ∀ (k : Fin K) (l : Fin M), W1 (ix2 k l) = W1' (ix2 k l))
    (hB1 : ∀ l : Fin M, B1 (ix2 0 l) = B1' (ix2 0 l)) (hW2 : ∀ (k : Fin M) (l : Fin N), W2 (ix2 k l) = W2' (ix2 k l))
    (hB2 : ∀ l : Fin N, B2 (ix2 0 l) = B2' (ix2 0 l)) :
    headArr H W1 B1 W2 B2 (ix2 r j) = headArr H' W1' B1' W2' B2' (ix2 r' j) := by
  have e1 : rowOf H r = rowOf H' r' := funext hH
  have e2 : matOf W1 = matOf W1' := funext fun k => funext fun l => hW1 k l
  have e3 : rowOf B1 0 = rowOf B1' 0 := funext hB1
  have e4 : matOf W2 = matOf W2' := funext fun k => funext fun l => hW2 k l
  have e5 : rowOf B2 0 = rowOf B2' 0 := funext hB2
  show lsmRow (affRow (affRow (rowOf H r) (matOf W1) (rowOf B1 0)) (matOf W2) (rowOf B2 0)) j
    = lsmRow (affRow (affRow (rowOf H' r') (matOf W1') (rowOf B1' 0)) (matOf W2') (rowOf B2' 0)) j
  rw [e1, e2, e3, e4, e5]

end Cert.Rows

end
-- ==== Proof.Regions.lean ====
/-
  What each kernel region leaves in its output array, as one function of the arrays the region finds at entry.

  A region's grid has 25 points; point t works on rows [2000 t, 2000 t + 2000) of the row-wise inputs (a block of 2000
  whole rows), reads the weight and bias arrays whole, and writes back the same rows of the output. Every stage is local
  to a row, so the block a point writes back is the restriction to its rows of ONE function of the whole input arrays;
  the 25 blocks tile the output array, so after the region the output array is that function.
-/
import proofs.«137334_j6425271075235_1_alg».proof.Proof.Gen.KernelIdeal.Frame
import proofs.«137334_j6425271075235_1_alg».proof.Proof.Rows
import Idealize.ShloMosaic.Lib.Pipeline.Value

set_option maxRecDepth 16384

noncomputable section

namespace Cert.Regions

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem rowlt0 (t : Fin cfg0.N) (p : Fin 2000) : 2000 * t.val + p.val < 50000 := by
  have ht : t.val < 25 := t.isLt
  have hp := p.isLt
  omega

theorem blk0_0 (c : Dev nD) (t : Fin cfg0.N) (p : Fin 2000) (k : Fin 128) :
    iblk0 V c 0 t (ix2 p k) = V c (Pipeline.arrRef spec0 0) (ix2 ⟨2000 * t.val + p.val, rowlt0 t p⟩ k) := by
  show V c (Pipeline.arrRef spec0 0) (((cfg0.win 0).blk t).view.emb (ix2 p k)) = _
  have e := idx0 t
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

theorem blk0_1 (c : Dev nD) (t : Fin cfg0.N) (k : Fin 128) (l : Fin 128) :
    iblk0 V c 1 t (ix2 k l) = V c (Pipeline.arrRef spec0 1) (ix2 k l) := by
  show V c (Pipeline.arrRef spec0 1) (((cfg0.win 1).blk t).view.emb (ix2 k l)) = _
  have e := idx0 t
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * l.val = l.val; omega

theorem blk0_2 (c : Dev nD) (t : Fin cfg0.N) (l : Fin 128) :
    iblk0 V c 2 t (ix2 0 l) = V c (Pipeline.arrRef spec0 2) (ix2 0 l) := by
  show V c (Pipeline.arrRef spec0 2) (((cfg0.win 2).blk t).view.emb (ix2 0 l)) = _
  have e := idx0 t
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * l.val = l.val; omega

set_option maxHeartbeats 4000000 in
/-- What point t writes back is its rows of the stage applied to the whole arrays. -/
theorem flushed0 (hpay : ∀ (v0 : Vec Ideal S2000x128 .f32) (v2 : Vec Ideal S128x128 .f32) (v5 : Vec Ideal S1x128 .f32), (k0_pay1 (F := Ideal) v0 v2 v5 : Rows.Arr 2000 128) = Rows.linArr v0 v2 v5)
    (c : Dev nD) (t : Fin cfg0.N) :
    (dat0 V c).flushed 3 t = ((cfg0.win 3).blk t).view.read (Elt Ideal)
      (Rows.linArr (n := 50000) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  rw [hpay]
  funext y
  obtain ⟨p, q, rfl⟩ : ∃ (p : Fin 2000) (q : Fin 128), y = ix2 p q := ⟨y 0, y 1, eq_ix2 y⟩
  have e := idx0 t
  have hemb : ((cfg0.win 3).blk t).view.emb (ix2 p q) = ix2 (⟨2000 * t.val + p.val, rowlt0 t p⟩ : Fin 50000) q := by
    funext a; apply Fin.ext
    match a with
    | ⟨0, _⟩ => show win0_3.index t (0 : Fin 2) * 2000 + 1 * p.val = 2000 * t.val + p.val; omega
    | ⟨1, _⟩ => show win0_3.index t (1 : Fin 2) * 128 + 1 * q.val = q.val; omega
  show Rows.linArr (iblk0 V c 0 t) (iblk0 V c 1 t) (iblk0 V c 2 t) (ix2 p q)
    = Rows.linArr (n := 50000) (V c (Pipeline.arrRef spec0 0)) (V c (Pipeline.arrRef spec0 1)) (V c (Pipeline.arrRef spec0 2)) (((cfg0.win 3).blk t).view.emb (ix2 p q))
  rw [hemb]
  exact Rows.linArr_congr (iblk0 V c 0 t) (V c (Pipeline.arrRef spec0 0)) (iblk0 V c 1 t) (V c (Pipeline.arrRef spec0 1)) (iblk0 V c 2 t) (V c (Pipeline.arrRef spec0 2)) p (⟨2000 * t.val + p.val, rowlt0 t p⟩ : Fin 50000) q (fun k => blk0_0 V c t p k) (fun k l => blk0_1 V c t k l) (fun l => blk0_2 V c t l)

theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v13).slice (win0_3.rect t)).set ↔ _
  rw [View.set_slice_whole, Rect.mem_set_unit]
  exact Iff.rfl

/-- The 25 blocks tile the output array: row r is in the block of point r / 2000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 2000, by show (i 0).val / 2000 < 25; omega⟩, flush0_3 _, ?_⟩
  rw [mem_blk0]
  have e := idx0 ⟨(i 0).val / 2000, by show (i 0).val / 2000 < 25; omega⟩
  have e0 := e.2.2.2.2.2.2.1
  have e1 := e.2.2.2.2.2.2.2
  intro a
  match a with
  | ⟨0, _⟩ => show win0_3.index _ (0 : Fin 2) * 2000 ≤ (i 0).val ∧ (i 0).val < win0_3.index _ (0 : Fin 2) * 2000 + 2000; rw [e0]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e1]; omega

/-- After region 0 its output array holds the stage of the arrays the region found. -/
theorem value0 (hpay : ∀ (v0 : Vec Ideal S2000x128 .f32) (v2 : Vec Ideal S128x128 .f32) (v5 : Vec Ideal S1x128 .f32), (k0_pay1 (F := Ideal) v0 v2 v5 : Rows.Arr 2000 128) = Rows.linArr v0 v2 v5) (c : Dev nD) :
    (dat0 V c).arrAt 3 cfg0.N
      = Rows.linArr (n := 50000) (V c (Pipeline.arrRef spec0 0)) (V c (Pipeline.arrRef spec0 1)) (V c (Pipeline.arrRef spec0 2)) :=
  (dat0 V c).arrAt_eq_of_cover 3 _ (fun t _ => flushed0 V hpay c t) cover0

/-! ## Region 1 -/

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem rowlt1 (t : Fin cfg1.N) (p : Fin 2000) : 2000 * t.val + p.val < 50000 := by
  have ht : t.val < 25 := t.isLt
  have hp := p.isLt
  omega

theorem blk1_0 (c : Dev nD) (t : Fin cfg1.N) (p : Fin 2000) (k : Fin 128) :
    iblk1 V c 0 t (ix2 p k) = V c (Pipeline.arrRef spec1 0) (ix2 ⟨2000 * t.val + p.val, rowlt1 t p⟩ k) := by
  show V c (Pipeline.arrRef spec1 0) (((cfg1.win 0).blk t).view.emb (ix2 p k)) = _
  have e := idx1 t
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

theorem blk1_1 (c : Dev nD) (t : Fin cfg1.N) (p : Fin 2000) (k : Fin 128) :
    iblk1 V c 1 t (ix2 p k) = V c (Pipeline.arrRef spec1 1) (ix2 ⟨2000 * t.val + p.val, rowlt1 t p⟩ k) := by
  show V c (Pipeline.arrRef spec1 1) (((cfg1.win 1).blk t).view.emb (ix2 p k)) = _
  have e := idx1 t
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

theorem blk1_2 (c : Dev nD) (t : Fin cfg1.N) (k : Fin 128) (l : Fin 128) :
    iblk1 V c 2 t (ix2 k l) = V c (Pipeline.arrRef spec1 2) (ix2 k l) := by
  show V c (Pipeline.arrRef spec1 2) (((cfg1.win 2).blk t).view.emb (ix2 k l)) = _
  have e := idx1 t
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * l.val = l.val; omega

theorem blk1_3 (c : Dev nD) (t : Fin cfg1.N) (k : Fin 128) (l : Fin 128) :
    iblk1 V c 3 t (ix2 k l) = V c (Pipeline.arrRef spec1 3) (ix2 k l) := by
  show V c (Pipeline.arrRef spec1 3) (((cfg1.win 3).blk t).view.emb (ix2 k l)) = _
  have e := idx1 t
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * l.val = l.val; omega

theorem blk1_4 (c : Dev nD) (t : Fin cfg1.N) (l : Fin 128) :
    iblk1 V c 4 t (ix2 0 l) = V c (Pipeline.arrRef spec1 4) (ix2 0 l) := by
  show V c (Pipeline.arrRef spec1 4) (((cfg1.win 4).blk t).view.emb (ix2 0 l)) = _
  have e := idx1 t
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * l.val = l.val; omega

set_option maxHeartbeats 4000000 in
/-- What point t writes back is its rows of the stage applied to the whole arrays. -/
theorem flushed1 (hpay : ∀ (v0 : Vec Ideal S2000x128 .f32) (v2 : Vec Ideal S2000x128 .f32) (v5 : Vec Ideal S128x128 .f32) (v8 : Vec Ideal S128x128 .f32) (v14 : Vec Ideal S1x128 .f32), (k1_pay1 (F := Ideal) v0 v2 v5 v8 v14 : Rows.Arr 2000 128) = Rows.mixUnitArr v0 v2 v5 v8 v14 (Ideal.ofBits .f32 0x2B8CBCCC#32))
    (c : Dev nD) (t : Fin cfg1.N) :
    (dat1 V c).flushed 5 t = ((cfg1.win 5).blk t).view.read (Elt Ideal)
      (Rows.mixUnitArr (n := 50000) (V c (Pipeline.arrRef spec1 0)) (V c (Pipeline.arrRef spec1 1)) (V c (Pipeline.arrRef spec1 2)) (V c (Pipeline.arrRef spec1 3)) (V c (Pipeline.arrRef spec1 4)) (Ideal.ofBits .f32 0x2B8CBCCC#32)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  rw [hpay]
  funext y
  obtain ⟨p, q, rfl⟩ : ∃ (p : Fin 2000) (q : Fin 128), y = ix2 p q := ⟨y 0, y 1, eq_ix2 y⟩
  have e := idx1 t
  have hemb : ((cfg1.win 5).blk t).view.emb (ix2 p q) = ix2 (⟨2000 * t.val + p.val, rowlt1 t p⟩ : Fin 50000) q := by
    funext a; apply Fin.ext
    match a with
    | ⟨0, _⟩ => show win1_5.index t (0 : Fin 2) * 2000 + 1 * p.val = 2000 * t.val + p.val; omega
    | ⟨1, _⟩ => show win1_5.index t (1 : Fin 2) * 128 + 1 * q.val = q.val; omega
  show Rows.mixUnitArr (iblk1 V c 0 t) (iblk1 V c 1 t) (iblk1 V c 2 t) (iblk1 V c 3 t) (iblk1 V c 4 t) (Ideal.ofBits .f32 0x2B8CBCCC#32) (ix2 p q)
    = Rows.mixUnitArr (n := 50000) (V c (Pipeline.arrRef spec1 0)) (V c (Pipeline.arrRef spec1 1)) (V c (Pipeline.arrRef spec1 2)) (V c (Pipeline.arrRef spec1 3)) (V c (Pipeline.arrRef spec1 4)) (Ideal.ofBits .f32 0x2B8CBCCC#32) (((cfg1.win 5).blk t).view.emb (ix2 p q))
  rw [hemb]
  exact Rows.mixUnitArr_congr (iblk1 V c 0 t) (iblk1 V c 1 t) (V c (Pipeline.arrRef spec1 0)) (V c (Pipeline.arrRef spec1 1)) (iblk1 V c 2 t) (iblk1 V c 3 t) (V c (Pipeline.arrRef spec1 2)) (V c (Pipeline.arrRef spec1 3)) (iblk1 V c 4 t) (V c (Pipeline.arrRef spec1 4)) (Ideal.ofBits .f32 0x2B8CBCCC#32) p (⟨2000 * t.val + p.val, rowlt1 t p⟩ : Fin 50000) q (fun k => blk1_0 V c t p k) (fun k => blk1_1 V c t p k) (fun k l => blk1_2 V c t k l) (fun k l => blk1_3 V c t k l) (fun l => blk1_4 V c t l)

theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v30).slice (win1_5.rect t)).set ↔ _
  rw [View.set_slice_whole, Rect.mem_set_unit]
  exact Iff.rfl

/-- The 25 blocks tile the output array: row r is in the block of point r / 2000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 2000, by show (i 0).val / 2000 < 25; omega⟩, flush1_5 _, ?_⟩
  rw [mem_blk1]
  have e := idx1 ⟨(i 0).val / 2000, by show (i 0).val / 2000 < 25; omega⟩
  have e0 := e.2.2.2.2.2.2.2.2.2.2.1
  have e1 := e.2.2.2.2.2.2.2.2.2.2.2
  intro a
  match a with
  | ⟨0, _⟩ => show win1_5.index _ (0 : Fin 2) * 2000 ≤ (i 0).val ∧ (i 0).val < win1_5.index _ (0 : Fin 2) * 2000 + 2000; rw [e0]; show (i 0).val / 2000 * 2000 ≤ (i 0).val ∧ (i 0).val < (i 0).val / 2000 * 2000 + 2000; omega
  | ⟨1, _⟩ => show win1_5.index _ (1 : Fin 2) * 128 ≤ (i 1).val ∧ (i 1).val < win1_5.index _ (1 : Fin 2) * 128 + 128; rw [e1]; omega

/-- After region 1 its output array holds the stage of the arrays the region found. -/
theorem value1 (hpay : ∀ (v0 : Vec Ideal S2000x128 .f32) (v2 : Vec Ideal S2000x128 .f32) (v5 : Vec Ideal S128x128 .f32) (v8 : Vec Ideal S128x128 .f32) (v14 : Vec Ideal S1x128 .f32), (k1_pay1 (F := Ideal) v0 v2 v5 v8 v14 : Rows.Arr 2000 128) = Rows.mixUnitArr v0 v2 v5 v8 v14 (Ideal.ofBits .f32 0x2B8CBCCC#32)) (c : Dev nD) :
    (dat1 V c).arrAt 5 cfg1.N
      = Rows.mixUnitArr (n := 50000) (V c (Pipeline.arrRef spec1 0)) (V c (Pipeline.arrRef spec1 1)) (V c (Pipeline.arrRef spec1 2)) (V c (Pipeline.arrRef spec1 3)) (V c (Pipeline.arrRef spec1 4)) (Ideal.ofBits .f32 0x2B8CBCCC#32) :=
  (dat1 V c).arrAt_eq_of_cover 5 _ (fun t _ => flushed1 V hpay c t) cover1

/-! ## Region 2 -/

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem rowlt2 (t : Fin cfg2.N) (p : Fin 2000) : 2000 * t.val + p.val < 50000 := by
  have ht : t.val < 25 := t.isLt
  have hp := p.isLt
  omega

theorem blk2_0 (c : Dev nD) (t : Fin cfg2.N) (p : Fin 2000) (k : Fin 128) :
    iblk2 V c 0 t (ix2 p k) = V c (Pipeline.arrRef spec2 0) (ix2 ⟨2000 * t.val + p.val, rowlt2 t p⟩ k) := by
  show V c (Pipeline.arrRef spec2 0) (((cfg2.win 0).blk t).view.emb (ix2 p k)) = _
  have e := idx2 t
  refine congrArg _ (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * k.val = k.val; omega

theorem blk2_1 (c : Dev nD) (t : Fin cfg2.N) (k : Fin 128) (l : Fin 128) :
    iblk2 V c 1 t (ix2 k l) = V c (Pipeline.arrRef spec2 1) (ix2 k l) := by
  show V c (Pipeline.arrRef spec2 1) (((cfg2.win 1).blk t).view.emb (ix2 k l)) = _
  have e := idx2 t
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * l.val = l.val; omega

theorem blk2_2 (c : Dev nD) (t : Fin cfg2.N) (l : Fin 128) :
    iblk2 V c 2 t (ix2 0 l) = V c (Pipeline.arrRef spec2 2) (ix2 0 l) := by
  show V c (Pipeline.arrRef spec2 2) (((cfg2.win 2).blk t).view.emb (ix2 0 l)) = _
  have e := idx2 t
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * l.val = l.val; omega

set_option maxHeartbeats 4000000 in
/-- What point t writes back is its rows of the stage applied to the whole arrays. -/
theorem flushed2 (hpay : ∀ (v0 : Vec Ideal S2000x128 .f32) (v3 : Vec Ideal S128x128 .f32) (v6 : Vec Ideal S1x128 .f32), (k2_pay1 (F := Ideal) v0 v3 v6 : Rows.Arr 2000 128) = Rows.linArr v0 v3 v6)
    (c : Dev nD) (t : Fin cfg2.N) :
    (dat2 V c).flushed 3 t = ((cfg2.win 3).blk t).view.read (Elt Ideal)
      (Rows.linArr (n := 50000) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz, View.ld_unit_zero (S := S1x128) hz]
  rw [hpay]
  funext y
  obtain ⟨p, q, rfl⟩ : ∃ (p : Fin 2000) (q : Fin 128), y = ix2 p q := ⟨y 0, y 1, eq_ix2 y⟩
  have e := idx2 t
  have hemb : ((cfg2.win 3).blk t).view.emb (ix2 p q) = ix2 (⟨2000 * t.val + p.val, rowlt2 t p⟩ : Fin 50000) q := by
    funext a; apply Fin.ext
    match a with
    | ⟨0, _⟩ => show win2_3.index t (0 : Fin 2) * 2000 + 1 * p.val = 2000 * t.val + p.val; omega
    | ⟨1, _⟩ => show win2_3.index t (1 : Fin 2) * 128 + 1 * q.val = q.val; omega
  show Rows.linArr (iblk2 V c 0 t) (iblk2 V c 1 t) (iblk2 V c 2 t) (ix2 p q)
    = Rows.linArr (n := 50000) (V c (Pipeline.arrRef spec2 0)) (V c (Pipeline.arrRef spec2 1)) (V c (Pipeline.arrRef spec2 2)) (((cfg2.win 3).blk t).view.emb (ix2 p q))
  rw [hemb]
  exact Rows.linArr_congr (iblk2 V c 0 t) (V c (Pipeline.arrRef spec2 0)) (iblk2 V c 1 t) (V c (Pipeline.arrRef spec2 1)) (iblk2 V c 2 t) (V c (Pipeline.arrRef spec2 2)) p (⟨2000 * t.val + p.val, rowlt2 t p⟩ : Fin 50000) q (fun k => blk2_0 V c t p k) (fun k l => blk2_1 V c t k l) (fun l => blk2_2 V c t l)

theorem mem_blk2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v32).slice (win2_3.rect t)).set ↔ _
  rw [View.set_slice_whole, Rect.mem_set_unit]
  exact Iff.rfl

/-- The 25 blocks tile the output array: row r is in the block of point r / 2000. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  refine ⟨⟨(i 0).val / 2000, by show (i 0).val / 2000 < 25; omega⟩, flush2_3 _, ?_⟩
  rw [mem_blk2]
  have e := idx2 ⟨(i 0).val / 2000, by show (i 0).val / 2000 < 25; omega⟩
  have e0 := e.2.2.2.2.2.2.1
  have e1 := e.2.2.2.2.2.2.2
  intro a
  match a with
  | ⟨0, _⟩ => show win2_3.index _ (0 : Fin 2) * 2000 ≤ (i 0).val ∧ (i 0).val < win2_3.index _ (0 : Fin 2) * 2000 + 2000; rw [e0]; show (i 0).val / 2000 * 2000 ≤ (i 0).val ∧ (i 0).val < (i 0).val / 2000 * 2000 + 2000; omega
  | ⟨1, _⟩ => show win2_3.index _ (1 : Fin 2) * 128 ≤ (i 1).val ∧ (i 1).val < win2_3.index _ (1 : Fin 2) * 128 + 128; rw [e1]; omega

/-- After region 2 its output array holds the stage of the arrays the region found. -/
theorem value2 (hpay : ∀ (v0 : Vec Ideal S2000x128 .f32) (v3 : Vec Ideal S128x128 .f32) (v6 : Vec Ideal S1x128 .f32), (k2_pay1 (F := Ideal) v0 v3 v6 : Rows.Arr 2000 128) = Rows.linArr v0 v3 v6) (c : Dev nD) :
    (dat2 V c).arrAt 3 cfg2.N
      = Rows.linArr (n := 50000) (V c (Pipeline.arrRef spec2 0)) (V c (Pipeline.arrRef spec2 1)) (V c (Pipeline.arrRef spec2 2)) :=
  (dat2 V c).arrAt_eq_of_cover 3 _ (fun t _ => flushed2 V hpay c t) cover2

/-! ## Region 3 -/

theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem rowlt3 (t : Fin cfg3.N) (p : Fin 2000) : 2000 * t.val + p.val < 50000 := by
  have ht : t.val < 25 := t.isLt
  have hp := p.isLt
  omega

theorem blk3_0 (c : Dev nD) (t : Fin cfg3.N) (p : Fin 2000) (k : Fin 128) :
    iblk3 V c 0 t (ix2 p k) = V c (Pipeline.arrRef spec3 0) (ix2 ⟨2000 * t.val + p.val, rowlt3 t p⟩ k) := by
  show V c (Pipeline.arrRef spec3 0) (((cfg3.win 0).blk t).view.emb (ix2 p k)) = _
  have e := idx3 t
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 128 + 1 * k.val = k.val; omega

theorem blk3_1 (c : Dev nD) (t : Fin cfg3.N) (p : Fin 2000) (k : Fin 128) :
    iblk3 V c 1 t (ix2 p k) = V c (Pipeline.arrRef spec3 1) (ix2 ⟨2000 * t.val + p.val, rowlt3 t p⟩ k) := by
  show V c (Pipeline.arrRef spec3 1) (((cfg3.win 1).blk t).view.emb (ix2 p k)) = _
  have e := idx3 t
  refine congrArg _ (funext fun a => Fin.ext ?_)
  match a with
  | ⟨0, _⟩ => show win3_1.index t (0 : Fin 2) * 2000 + 1 * p.val = 2000 * t.val + p.val; omega
  | ⟨1, _⟩ => show win3_1.index t (1 : Fin 2) * 128 + 1 * k.val = k.val; omega

theorem blk3_2 (c : Dev nD) (t : Fin cfg3.N) (k : Fin 128) (l : Fin 128) :
    iblk3 V c 2 t (ix2 k l) = V c (Pipeline.arrRef spec3 2) (ix2 k l) := by
  show V c (Pipeline.arrRef spec3 2) (((cfg3.win 2).blk t).view.emb (ix2 k l)) = _
  have e := idx3 t
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * l.val = l.val; omega

theorem blk3_3 (c : Dev nD) (t : Fin cfg3.N) (k : Fin 128) (l : Fin 128) :
    iblk3 V c 3 t (ix2 k l) = V c (Pipeline.arrRef spec3 3) (ix2 k l) := by
  show V c (Pipeline.arrRef spec3 3) (((cfg3.win 3).blk t).view.emb (ix2 k l)) = _
  have e := idx3 t
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * l.val = l.val; omega

theorem blk3_4 (c : Dev nD) (t : Fin cfg3.N) (l : Fin 128) :
    iblk3 V c 4 t (ix2 0 l) = V c (Pipeline.arrRef spec3 4) (ix2 0 l) := by
  show V c (Pipeline.arrRef spec3 4) (((cfg3.win 4).blk t).view.emb (ix2 0 l)) = _
  have e := idx3 t
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * l.val = l.val; omega

set_option maxHeartbeats 4000000 in
/-- What point t writes back is its rows of the stage applied to the whole arrays. -/
theorem flushed3 (hpay : ∀ (v0 : Vec Ideal S2000x128 .f32) (v3 : Vec Ideal S2000x128 .f32) (v6 : Vec Ideal S128x128 .f32) (v9 : Vec Ideal S128x128 .f32) (v15 : Vec Ideal S1x128 .f32), (k3_pay1 (F := Ideal) v0 v3 v6 v9 v15 : Rows.Arr 2000 128) = Rows.mixUnitArr v0 v3 v6 v9 v15 (Ideal.ofBits .f32 0x2B8CBCCC#32))
    (c : Dev nD) (t : Fin cfg3.N) :
    (dat3 V c).flushed 5 t = ((cfg3.win 5).blk t).view.read (Elt Ideal)
      (Rows.mixUnitArr (n := 50000) (V c (Pipeline.arrRef spec3 0)) (V c (Pipeline.arrRef spec3 1)) (V c (Pipeline.arrRef spec3 2)) (V c (Pipeline.arrRef spec3 3)) (V c (Pipeline.arrRef spec3 4)) (Ideal.ofBits .f32 0x2B8CBCCC#32)) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz, View.ld_unit_zero (S := S1x128) hz]
  rw [hpay]
  funext y
  obtain ⟨p, q, rfl⟩ : ∃ (p : Fin 2000) (q : Fin 128), y = ix2 p q := ⟨y 0, y 1, eq_ix2 y⟩
  have e := idx3 t
  have hemb : ((cfg3.win 5).blk t).view.emb (ix2 p q) = ix2 (⟨2000 * t.val + p.val, rowlt3 t p⟩ : Fin 50000) q := by
    funext a; apply Fin.ext
    match a with
    | ⟨0, _⟩ => show win3_5.index t (0 : Fin 2) * 2000 + 1 * p.val = 2000 * t.val + p.val; omega
    | ⟨1, _⟩ => show win3_5.index t (1 : Fin 2) * 128 + 1 * q.val = q.val; omega
  show Rows.mixUnitArr (iblk3 V c 0 t) (iblk3 V c 1 t) (iblk3 V c 2 t) (iblk3 V c 3 t) (iblk3 V c 4 t) (Ideal.ofBits .f32 0x2B8CBCCC#32) (ix2 p q)
    = Rows.mixUnitArr (n := 50000) (V c (Pipeline.arrRef spec3 0)) (V c (Pipeline.arrRef spec3 1)) (V c (Pipeline.arrRef spec3 2)) (V c (Pipeline.arrRef spec3 3)) (V c (Pipeline.arrRef spec3 4)) (Ideal.ofBits .f32 0x2B8CBCCC#32) (((cfg3.win 5).blk t).view.emb (ix2 p q))
  rw [hemb]
  exact Rows.mixUnitArr_congr (iblk3 V c 0 t) (iblk3 V c 1 t) (V c (Pipeline.arrRef spec3 0)) (V c (Pipeline.arrRef spec3 1)) (iblk3 V c 2 t) (iblk3 V c 3 t) (V c (Pipeline.arrRef spec3 2)) (V c (Pipeline.arrRef spec3 3)) (iblk3 V c 4 t) (V c (Pipeline.arrRef spec3 4)) (Ideal.ofBits .f32 0x2B8CBCCC#32) p (⟨2000 * t.val + p.val, rowlt3 t p⟩ : Fin 50000) q (fun k => blk3_0 V c t p k) (fun k => blk3_1 V c t p k) (fun k l => blk3_2 V c t k l) (fun k l => blk3_3 V c t k l) (fun l => blk3_4 V c t l)

theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v49).slice (win3_5.rect t)).set ↔ _
  rw [View.set_slice_whole, Rect.mem_set_unit]
  exact Iff.rfl

/-- The 25 blocks tile the output array: row r is in the block of point r / 2000. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  refine ⟨⟨(i 0).val / 2000, by show (i 0).val / 2000 < 25; omega⟩, flush3_5 _, ?_⟩
  rw [mem_blk3]
  have e := idx3 ⟨(i 0).val / 2000, by show (i 0).val / 2000 < 25; omega⟩
  have e0 := e.2.2.2.2.2.2.2.2.2.2.1
  have e1 := e.2.2.2.2.2.2.2.2.2.2.2
  intro a
  match a with
  | ⟨0, _⟩ => show win3_5.index _ (0 : Fin 2) * 2000 ≤ (i 0).val ∧ (i 0).val < win3_5.index _ (0 : Fin 2) * 2000 + 2000; rw [e0]; show (i 0).val / 2000 * 2000 ≤ (i 0).val ∧ (i 0).val < (i 0).val / 2000 * 2000 + 2000; omega
  | ⟨1, _⟩ => show win3_5.index _ (1 : Fin 2) * 128 ≤ (i 1).val ∧ (i 1).val < win3_5.index _ (1 : Fin 2) * 128 + 128; rw [e1]; omega

/-- After region 3 its output array holds the stage of the arrays the region found. -/
theorem value3 (hpay : ∀ (v0 : Vec Ideal S2000x128 .f32) (v3 : Vec Ideal S2000x128 .f32) (v6 : Vec Ideal S128x128 .f32) (v9 : Vec Ideal S128x128 .f32) (v15 : Vec Ideal S1x128 .f32), (k3_pay1 (F := Ideal) v0 v3 v6 v9 v15 : Rows.Arr 2000 128) = Rows.mixUnitArr v0 v3 v6 v9 v15 (Ideal.ofBits .f32 0x2B8CBCCC#32)) (c : Dev nD) :
    (dat3 V c).arrAt 5 cfg3.N
      = Rows.mixUnitArr (n := 50000) (V c (Pipeline.arrRef spec3 0)) (V c (Pipeline.arrRef spec3 1)) (V c (Pipeline.arrRef spec3 2)) (V c (Pipeline.arrRef spec3 3)) (V c (Pipeline.arrRef spec3 4)) (Ideal.ofBits .f32 0x2B8CBCCC#32) :=
  (dat3 V c).arrAt_eq_of_cover 5 _ (fun t _ => flushed3 V hpay c t) cover3

/-! ## Region 4 -/

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem rowlt4 (t : Fin cfg4.N) (p : Fin 2000) : 2000 * t.val + p.val < 50000 := by
  have ht : t.val < 25 := t.isLt
  have hp := p.isLt
  omega

theorem blk4_0 (c : Dev nD) (t : Fin cfg4.N) (p : Fin 2000) (k : Fin 128) :
    iblk4 V c 0 t (ix2 p k) = V c (Pipeline.arrRef spec4 0) (ix2 ⟨2000 * t.val + p.val, rowlt4 t p⟩ k) := by
  show V c (Pipeline.arrRef spec4 0) (((cfg4.win 0).blk t).view.emb (ix2 p k)) = _
  have e := idx4 t
  refine congrArg _ (funext fun a => Fin.ext ?_)
  match a with
  | ⟨0, _⟩ => show win4_0.index t (0 : Fin 2) * 2000 + 1 * p.val = 2000 * t.val + p.val; omega
  | ⟨1, _⟩ => show win4_0.index t (1 : Fin 2) * 128 + 1 * k.val = k.val; omega

theorem blk4_1 (c : Dev nD) (t : Fin cfg4.N) (k : Fin 128) (l : Fin 128) :
    iblk4 V c 1 t (ix2 k l) = V c (Pipeline.arrRef spec4 1) (ix2 k l) := by
  show V c (Pipeline.arrRef spec4 1) (((cfg4.win 1).blk t).view.emb (ix2 k l)) = _
  have e := idx4 t
  refine congrArg _ (funext fun a => Fin.ext ?_)
  match a with
  | ⟨0, _⟩ => show win4_1.index t (0 : Fin 2) * 128 + 1 * k.val = k.val; omega
  | ⟨1, _⟩ => show win4_1.index t (1 : Fin 2) * 128 + 1 * l.val = l.val; omega

theorem blk4_2 (c : Dev nD) (t : Fin cfg4.N) (l : Fin 128) :
    iblk4 V c 2 t (ix2 0 l) = V c (Pipeline.arrRef spec4 2) (ix2 0 l) := by
  show V c (Pipeline.arrRef spec4 2) (((cfg4.win 2).blk t).view.emb (ix2 0 l)) = _
  have e := idx4 t
  refine congrArg _ (funext fun a => Fin.ext ?_)
  match a with
  | ⟨0, _⟩ => show win4_2.index t (0 : Fin 2) * 1 + 1 * 0 = 0; omega
  | ⟨1, _⟩ => show win4_2.index t (1 : Fin 2) * 128 + 1 * l.val = l.val; omega

set_option maxHeartbeats 4000000 in
/-- What point t writes back is its rows of the stage applied to the whole arrays. -/
theorem flushed4 (hpay : ∀ (v0 : Vec Ideal S2000x128 .f32) (v3 : Vec Ideal S128x128 .f32) (v6 : Vec Ideal S1x128 .f32), (k4_pay1 (F := Ideal) v0 v3 v6 : Rows.Arr 2000 128) = Rows.linArr v0 v3 v6)
    (c : Dev nD) (t : Fin cfg4.N) :
    (dat4 V c).flushed 3 t = ((cfg4.win 3).blk t).view.read (Elt Ideal)
      (Rows.linArr (n := 50000) (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x128) hz, View.ld_unit_zero (S := S1x128) hz]
  rw [hpay]
  funext y
  obtain ⟨p, q, rfl⟩ : ∃ (p : Fin 2000) (q : Fin 128), y = ix2 p q := ⟨y 0, y 1, eq_ix2 y⟩
  have e := idx4 t
  have hemb : ((cfg4.win 3).blk t).view.emb (ix2 p q) = ix2 (⟨2000 * t.val + p.val, rowlt4 t p⟩ : Fin 50000) q := by
    funext a; apply Fin.ext
    match a with
    | ⟨0, _⟩ => show win4_3.index t (0 : Fin 2) * 2000 + 1 * p.val = 2000 * t.val + p.val; omega
    | ⟨1, _⟩ => show win4_3.index t (1 : Fin 2) * 128 + 1 * q.val = q.val; omega
  show Rows.linArr (iblk4 V c 0 t) (iblk4 V c 1 t) (iblk4 V c 2 t) (ix2 p q)
    = Rows.linArr (n := 50000) (V c (Pipeline.arrRef spec4 0)) (V c (Pipeline.arrRef spec4 1)) (V c (Pipeline.arrRef spec4 2)) (((cfg4.win 3).blk t).view.emb (ix2 p q))
  rw [hemb]
  exact Rows.linArr_congr (iblk4 V c 0 t) (V c (Pipeline.arrRef spec4 0)) (iblk4 V c 1 t) (V c (Pipeline.arrRef spec4 1)) (iblk4 V c 2 t) (V c (Pipeline.arrRef spec4 2)) p (⟨2000 * t.val + p.val, rowlt4 t p⟩ : Fin 50000) q (fun k => blk4_0 V c t p k) (fun k l => blk4_1 V c t k l) (fun l => blk4_2 V c t l)

theorem mem_blk4 (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v51).slice (win4_3.rect t)).set ↔ _
  rw [View.set_slice_whole, Rect.mem_set_unit]
  exact Iff.rfl

/-- The 25 blocks tile the output array: row r is in the block of point r / 2000. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  refine ⟨⟨(i 0).val / 2000, by show (i 0).val / 2000 < 25; omega⟩, flush4_3 _, ?_⟩
  rw [mem_blk4]
  have e := idx4 ⟨(i 0).val / 2000, by show (i 0).val / 2000 < 25; omega⟩
  have e0 := e.2.2.2.2.2.2.1
  have e1 := e.2.2.2.2.2.2.2
  intro a
  match a with
  | ⟨0, _⟩ => show win4_3.index _ (0 : Fin 2) * 2000 ≤ (i 0).val ∧ (i 0).val < win4_3.index _ (0 : Fin 2) * 2000 + 2000; rw [e0]; show (i 0).val / 2000 * 2000 ≤ (i 0).val ∧ (i 0).val < (i 0).val / 2000 * 2000 + 2000; omega
  | ⟨1, _⟩ => show win4_3.index _ (1 : Fin 2) * 128 ≤ (i 1).val ∧ (i 1).val < win4_3.index _ (1 : Fin 2) * 128 + 128; rw [e1]; omega

/-- After region 4 its output array holds the stage of the arrays the region found. -/
theorem value4 (hpay : ∀ (v0 : Vec Ideal S2000x128 .f32) (v3 : Vec Ideal S128x128 .f32) (v6 : Vec Ideal S1x128 .f32), (k4_pay1 (F := Ideal) v0 v3 v6 : Rows.Arr 2000 128) = Rows.linArr v0 v3 v6) (c : Dev nD) :
    (dat4 V c).arrAt 3 cfg4.N
      = Rows.linArr (n := 50000) (V c (Pipeline.arrRef spec4 0)) (V c (Pipeline.arrRef spec4 1)) (V c (Pipeline.arrRef spec4 2)) :=
  (dat4 V c).arrAt_eq_of_cover 3 _ (fun t _ => flushed4 V hpay c t) cover4

/-! ## Region 5 -/

theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem rowlt5 (t : Fin cfg5.N) (p : Fin 2000) : 2000 * t.val + p.val < 50000 := by
  have ht : t.val < 25 := t.isLt
  have hp := p.isLt
  omega

theorem blk5_0 (c : Dev nD) (t : Fin cfg5.N) (p : Fin 2000) (k : Fin 128) :
    iblk5 V c 0 t (ix2 p k) = V c (Pipeline.arrRef spec5 0) (ix2 ⟨2000 * t.val + p.val, rowlt5 t p⟩ k) := by
  show V c (Pipeline.arrRef spec5 0) (((cfg5.win 0).blk t).view.emb (ix2 p k)) = _
  have e := idx5 t
  refine congrArg _ (funext fun a => Fin.ext ?_)
  match a with
  | ⟨0, _⟩ => show win5_0.index t (0 : Fin 2) * 2000 + 1 * p.val = 2000 * t.val + p.val; omega
  | ⟨1, _⟩ => show win5_0.index t (1 : Fin 2) * 128 + 1 * k.val = k.val; omega

theorem blk5_1 (c : Dev nD) (t : Fin cfg5.N) (p : Fin 2000) (k : Fin 128) :
    iblk5 V c 1 t (ix2 p k) = V c (Pipeline.arrRef spec5 1) (ix2 ⟨2000 * t.val + p.val, rowlt5 t p⟩ k) := by
  show V c (Pipeline.arrRef spec5 1) (((cfg5.win 1).blk t).view.emb (ix2 p k)) = _
  have e := idx5 t
  refine congrArg _ (funext fun a => Fin.ext ?_)
  match a with
  | ⟨0, _⟩ => show win5_1.index t (0 : Fin 2) * 2000 + 1 * p.val = 2000 * t.val + p.val; omega
  | ⟨1, _⟩ => show win5_1.index t (1 : Fin 2) * 128 + 1 * k.val = k.val; omega

theorem blk5_2 (c : Dev nD) (t : Fin cfg5.N) (k : Fin 128) (l : Fin 128) :
    iblk5 V c 2 t (ix2 k l) = V c (Pipeline.arrRef spec5 2) (ix2 k l) := by
  show V c (Pipeline.arrRef spec5 2) (((cfg5.win 2).blk t).view.emb (ix2 k l)) = _
  have e := idx5 t
  refine congrArg _ (funext fun a => Fin.ext ?_)
  match a with
  | ⟨0, _⟩ => show win5_2.index t (0 : Fin 2) * 128 + 1 * k.val = k.val; omega
  | ⟨1, _⟩ => show win5_2.index t (1 : Fin 2) * 128 + 1 * l.val = l.val; omega

theorem blk5_3 (c : Dev nD) (t : Fin cfg5.N) (k : Fin 128) (l : Fin 128) :
    iblk5 V c 3 t (ix2 k l) = V c (Pipeline.arrRef spec5 3) (ix2 k l) := by
  show V c (Pipeline.arrRef spec5 3) (((cfg5.win 3).blk t).view.emb (ix2 k l)) = _
  have e := idx5 t
  refine congrArg _ (funext fun a => Fin.ext ?_)
  match a with
  | ⟨0, _⟩ => show win5_3.index t (0 : Fin 2) * 128 + 1 * k.val = k.val; omega
  | ⟨1, _⟩ => show win5_3.index t (1 : Fin 2) * 128 + 1 * l.val = l.val; omega

theorem blk5_4 (c : Dev nD) (t : Fin cfg5.N) (l : Fin 128) :
    iblk5 V c 4 t (ix2 0 l) = V c (Pipeline.arrRef spec5 4) (ix2 0 l) := by
  show V c (Pipeline.arrRef spec5 4) (((cfg5.win 4).blk t).view.emb (ix2 0 l)) = _
  have e := idx5 t
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * l.val = l.val; omega

set_option maxHeartbeats 4000000 in
/-- What point t writes back is its rows of the stage applied to the whole arrays. -/
theorem flushed5 (hpay : ∀ (v0 : Vec Ideal S2000x128 .f32) (v3 : Vec Ideal S2000x128 .f32) (v6 : Vec Ideal S128x128 .f32) (v9 : Vec Ideal S128x128 .f32) (v15 : Vec Ideal S1x128 .f32), (k5_pay1 (F := Ideal) v0 v3 v6 v9 v15 : Rows.Arr 2000 128) = Rows.mixUnitArr v0 v3 v6 v9 v15 (Ideal.ofBits .f32 0x2B8CBCCC#32))
    (c : Dev nD) (t : Fin cfg5.N) :
    (dat5 V c).flushed 5 t = ((cfg5.win 5).blk t).view.read (Elt Ideal)
      (Rows.mixUnitArr (n := 50000) (V c (Pipeline.arrRef spec5 0)) (V c (Pipeline.arrRef spec5 1)) (V c (Pipeline.arrRef spec5 2)) (V c (Pipeline.arrRef spec5 3)) (V c (Pipeline.arrRef spec5 4)) (Ideal.ofBits .f32 0x2B8CBCCC#32)) := by
  show (cfg5.win 5).cut (grid5.coords t) ((dat5 V c).after 5 t) = _
  rw [after5_5]
  unfold out5_5
  rw [View.canon_unit_zero hz]
  simp only [View.ld_unit_zero (S := S2000x128) hz, View.ld_unit_zero (S := S128x128) hz, View.ld_unit_zero (S := S1x128) hz]
  rw [hpay]
  funext y
  obtain ⟨p, q, rfl⟩ : ∃ (p : Fin 2000) (q : Fin 128), y = ix2 p q := ⟨y 0, y 1, eq_ix2 y⟩
  have e := idx5 t
  have hemb : ((cfg5.win 5).blk t).view.emb (ix2 p q) = ix2 (⟨2000 * t.val + p.val, rowlt5 t p⟩ : Fin 50000) q := by
    funext a; apply Fin.ext
    match a with
    | ⟨0, _⟩ => show win5_5.index t (0 : Fin 2) * 2000 + 1 * p.val = 2000 * t.val + p.val; omega
    | ⟨1, _⟩ => show win5_5.index t (1 : Fin 2) * 128 + 1 * q.val = q.val; omega
  show Rows.mixUnitArr (iblk5 V c 0 t) (iblk5 V c 1 t) (iblk5 V c 2 t) (iblk5 V c 3 t) (iblk5 V c 4 t) (Ideal.ofBits .f32 0x2B8CBCCC#32) (ix2 p q)
    = Rows.mixUnitArr (n := 50000) (V c (Pipeline.arrRef spec5 0)) (V c (Pipeline.arrRef spec5 1)) (V c (Pipeline.arrRef spec5 2)) (V c (Pipeline.arrRef spec5 3)) (V c (Pipeline.arrRef spec5 4)) (Ideal.ofBits .f32 0x2B8CBCCC#32) (((cfg5.win 5).blk t).view.emb (ix2 p q))
  rw [hemb]
  exact Rows.mixUnitArr_congr (iblk5 V c 0 t) (iblk5 V c 1 t) (V c (Pipeline.arrRef spec5 0)) (V c (Pipeline.arrRef spec5 1)) (iblk5 V c 2 t) (iblk5 V c 3 t) (V c (Pipeline.arrRef spec5 2)) (V c (Pipeline.arrRef spec5 3)) (iblk5 V c 4 t) (V c (Pipeline.arrRef spec5 4)) (Ideal.ofBits .f32 0x2B8CBCCC#32) p (⟨2000 * t.val + p.val, rowlt5 t p⟩ : Fin 50000) q (fun k => blk5_0 V c t p k) (fun k => blk5_1 V c t p k) (fun k l => blk5_2 V c t k l) (fun k l => blk5_3 V c t k l) (fun l => blk5_4 V c t l)

theorem mem_blk5 (t : Fin cfg5.N) (i : S50000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v68).slice (win5_5.rect t)).set ↔ _
  rw [View.set_slice_whole, Rect.mem_set_unit]
  exact Iff.rfl

/-- The 25 blocks tile the output array: row r is in the block of point r / 2000. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  refine ⟨⟨(i 0).val / 2000, by show (i 0).val / 2000 < 25; omega⟩, flush5_5 _, ?_⟩
  rw [mem_blk5]
  have e := idx5 ⟨(i 0).val / 2000, by show (i 0).val / 2000 < 25; omega⟩
  have e0 := e.2.2.2.2.2.2.2.2.2.2.1
  have e1 := e.2.2.2.2.2.2.2.2.2.2.2
  intro a
  match a with
  | ⟨0, _⟩ => show win5_5.index _ (0 : Fin 2) * 2000 ≤ (i 0).val ∧ (i 0).val < win5_5.index _ (0 : Fin 2) * 2000 + 2000; rw [e0]; show (i 0).val / 2000 * 2000 ≤ (i 0).val ∧ (i 0).val < (i 0).val / 2000 * 2000 + 2000; omega
  | ⟨1, _⟩ => show win5_5.index _ (1 : Fin 2) * 128 ≤ (i 1).val ∧ (i 1).val < win5_5.index _ (1 : Fin 2) * 128 + 128; rw [e1]; omega

/-- After region 5 its output array holds the stage of the arrays the region found. -/
theorem value5 (hpay : ∀ (v0 : Vec Ideal S2000x128 .f32) (v3 : Vec Ideal S2000x128 .f32) (v6 : Vec Ideal S128x128 .f32) (v9 : Vec Ideal S128x128 .f32) (v15 : Vec Ideal S1x128 .f32), (k5_pay1 (F := Ideal) v0 v3 v6 v9 v15 : Rows.Arr 2000 128) = Rows.mixUnitArr v0 v3 v6 v9 v15 (Ideal.ofBits .f32 0x2B8CBCCC#32)) (c : Dev nD) :
    (dat5 V c).arrAt 5 cfg5.N
      = Rows.mixUnitArr (n := 50000) (V c (Pipeline.arrRef spec5 0)) (V c (Pipeline.arrRef spec5 1)) (V c (Pipeline.arrRef spec5 2)) (V c (Pipeline.arrRef spec5 3)) (V c (Pipeline.arrRef spec5 4)) (Ideal.ofBits .f32 0x2B8CBCCC#32) :=
  (dat5 V c).arrAt_eq_of_cover 5 _ (fun t _ => flushed5 V hpay c t) cover5

/-! ## Region 6 -/

theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem rowlt6 (t : Fin cfg6.N) (p : Fin 2000) : 2000 * t.val + p.val < 50000 := by
  have ht : t.val < 25 := t.isLt
  have hp := p.isLt
  omega

theorem blk6_0 (c : Dev nD) (t : Fin cfg6.N) (p : Fin 2000) (k : Fin 128) :
    iblk6 V c 0 t (ix2 p k) = V c (Pipeline.arrRef spec6 0) (ix2 ⟨2000 * t.val + p.val, rowlt6 t p⟩ k) := by
  show V c (Pipeline.arrRef spec6 0) (((cfg6.win 0).blk t).view.emb (ix2 p k)) = _
  have e := idx6 t
  refine congrArg _ (funext fun a => Fin.ext ?_)
  match a with
  | ⟨0, _⟩ => show win6_0.index t (0 : Fin 2) * 2000 + 1 * p.val = 2000 * t.val + p.val; omega
  | ⟨1, _⟩ => show win6_0.index t (1 : Fin 2) * 128 + 1 * k.val = k.val; omega

theorem blk6_1 (c : Dev nD) (t : Fin cfg6.N) (k : Fin 128) (l : Fin 128) :
    iblk6 V c 1 t (ix2 k l) = V c (Pipeline.arrRef spec6 1) (ix2 k l) := by
  show V c (Pipeline.arrRef spec6 1) (((cfg6.win 1).blk t).view.emb (ix2 k l)) = _
  have e := idx6 t
  refine congrArg _ (funext fun a => Fin.ext ?_)
  match a with
  | ⟨0, _⟩ => show win6_1.index t (0 : Fin 2) * 128 + 1 * k.val = k.val; omega
  | ⟨1, _⟩ => show win6_1.index t (1 : Fin 2) * 128 + 1 * l.val = l.val; omega

theorem blk6_2 (c : Dev nD) (t : Fin cfg6.N) (l : Fin 128) :
    iblk6 V c 2 t (ix2 0 l) = V c (Pipeline.arrRef spec6 2) (ix2 0 l) := by
  show V c (Pipeline.arrRef spec6 2) (((cfg6.win 2).blk t).view.emb (ix2 0 l)) = _
  have e := idx6 t
  refine congrArg _ (funext fun a => Fin.ext ?_)
  match a with
  | ⟨0, _⟩ => show win6_2.index t (0 : Fin 2) * 1 + 1 * 0 = 0; omega
  | ⟨1, _⟩ => show win6_2.index t (1 : Fin 2) * 128 + 1 * l.val = l.val; omega

theorem blk6_3 (c : Dev nD) (t : Fin cfg6.N) (k : Fin 128) (l : Fin 64) :
    iblk6 V c 3 t (ix2 k l) = V c (Pipeline.arrRef spec6 3) (ix2 k l) := by
  show V c (Pipeline.arrRef spec6 3) (((cfg6.win 3).blk t).view.emb (ix2 k l)) = _
  have e := idx6 t
  refine congrArg _ (funext fun a => Fin.ext ?_)
  match a with
  | ⟨0, _⟩ => show win6_3.index t (0 : Fin 2) * 128 + 1 * k.val = k.val; omega
  | ⟨1, _⟩ => show win6_3.index t (1 : Fin 2) * 64 + 1 * l.val = l.val; omega

theorem blk6_4 (c : Dev nD) (t : Fin cfg6.N) (l : Fin 64) :
    iblk6 V c 4 t (ix2 0 l) = V c (Pipeline.arrRef spec6 4) (ix2 0 l) := by
  show V c (Pipeline.arrRef spec6 4) (((cfg6.win 4).blk t).view.emb (ix2 0 l)) = _
  have e := idx6 t
  refine congrArg _ (funext fun a => Fin.ext ?_)
  match a with
  | ⟨0, _⟩ => show win6_4.index t (0 : Fin 2) * 1 + 1 * 0 = 0; omega
  | ⟨1, _⟩ => show win6_4.index t (1 : Fin 2) * 64 + 1 * l.val = l.val; omega

set_option maxHeartbeats 4000000 in
/-- What point t writes back is its rows of the stage applied to the whole arrays. -/
theorem flushed6 (hpay : ∀ (v0 : Vec Ideal S2000x128 .f32) (v3 : Vec Ideal S128x128 .f32) (v6 : Vec Ideal S1x128 .f32) (v10 : Vec Ideal S128x64 .f32) (v14 : Vec Ideal S1x64 .f32), (k6_pay1 (F := Ideal) v0 v3 v6 v10 v14 : Rows.Arr 2000 64) = Rows.headArr v0 v3 v6 v10 v14)
    (c : Dev nD) (t : Fin cfg6.N) :
    (dat6 V c).flushed 5 t = ((cfg6.win 5).blk t).view.read (Elt Ideal)
      (Rows.headArr (n := 50000) (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero hz]
  simp only [View.ld_unit_zero (S := S2000x128) hz, View.ld_unit_zero (S := S128x128) hz, View.ld_unit_zero (S := S1x128) hz, View.ld_unit_zero (S := S128x64) hz, View.ld_unit_zero (S := S1x64) hz]
  rw [hpay]
  funext y
  obtain ⟨p, q, rfl⟩ : ∃ (p : Fin 2000) (q : Fin 64), y = ix2 p q := ⟨y 0, y 1, eq_ix2 y⟩
  have e := idx6 t
  have hemb : ((cfg6.win 5).blk t).view.emb (ix2 p q) = ix2 (⟨2000 * t.val + p.val, rowlt6 t p⟩ : Fin 50000) q := by
    funext a; apply Fin.ext
    match a with
    | ⟨0, _⟩ => show win6_5.index t (0 : Fin 2) * 2000 + 1 * p.val = 2000 * t.val + p.val; omega
    | ⟨1, _⟩ => show win6_5.index t (1 : Fin 2) * 64 + 1 * q.val = q.val; omega
  show Rows.headArr (iblk6 V c 0 t) (iblk6 V c 1 t) (iblk6 V c 2 t) (iblk6 V c 3 t) (iblk6 V c 4 t) (ix2 p q)
    = Rows.headArr (n := 50000) (V c (Pipeline.arrRef spec6 0)) (V c (Pipeline.arrRef spec6 1)) (V c (Pipeline.arrRef spec6 2)) (V c (Pipeline.arrRef spec6 3)) (V c (Pipeline.arrRef spec6 4)) (((cfg6.win 5).blk t).view.emb (ix2 p q))
  rw [hemb]
  exact Rows.headArr_congr (iblk6 V c 0 t) (V c (Pipeline.arrRef spec6 0)) (iblk6 V c 1 t) (V c (Pipeline.arrRef spec6 1)) (iblk6 V c 2 t) (V c (Pipeline.arrRef spec6 2)) (iblk6 V c 3 t) (V c (Pipeline.arrRef spec6 3)) (iblk6 V c 4 t) (V c (Pipeline.arrRef spec6 4)) p (⟨2000 * t.val + p.val, rowlt6 t p⟩ : Fin 50000) q (fun k => blk6_0 V c t p k) (fun k l => blk6_1 V c t k l) (fun l => blk6_2 V c t l) (fun k l => blk6_3 V c t k l) (fun l => blk6_4 V c t l)

theorem mem_blk6 (t : Fin cfg6.N) (i : S50000x64.Idx) :
    i ∈ ((cfg6.win 5).blk t).view.set ↔ ∀ a : Fin 2, win6_5.index t a * S2000x64.size a ≤ (i a).val ∧ (i a).val < win6_5.index t a * S2000x64.size a + S2000x64.size a := by
  show i ∈ ((View.whole main_v71).slice (win6_5.rect t)).set ↔ _
  rw [View.set_slice_whole, Rect.mem_set_unit]
  exact Iff.rfl

/-- The 25 blocks tile the output array: row r is in the block of point r / 2000. -/
theorem cover6 (i : S50000x64.Idx) : ∃ t : Fin cfg6.N, (cfg6.win 5).flush t = true ∧ i ∈ ((cfg6.win 5).blk t).view.set := by
  have hi0 : (i 0).val < 50000 := (i 0).isLt
  have hi1 : (i 1).val < 64 := (i 1).isLt
  refine ⟨⟨(i 0).val / 2000, by show (i 0).val / 2000 < 25; omega⟩, flush6_5 _, ?_⟩
  rw [mem_blk6]
  have e := idx6 ⟨(i 0).val / 2000, by show (i 0).val / 2000 < 25; omega⟩
  have e0 := e.2.2.2.2.2.2.2.2.2.2.1
  have e1 := e.2.2.2.2.2.2.2.2.2.2.2
  intro a
  match a with
  | ⟨0, _⟩ => show win6_5.index _ (0 : Fin 2) * 2000 ≤ (i 0).val ∧ (i 0).val < win6_5.index _ (0 : Fin 2) * 2000 + 2000; rw [e0]; show (i 0).val / 2000 * 2000 ≤ (i 0).val ∧ (i 0).val < (i 0).val / 2000 * 2000 + 2000; omega
  | ⟨1, _⟩ => show win6_5.index _ (1 : Fin 2) * 64 ≤ (i 1).val ∧ (i 1).val < win6_5.index _ (1 : Fin 2) * 64 + 64; rw [e1]; omega

/-- After region 6 its output array holds the stage of the arrays the region found. -/
theorem value6 (hpay : ∀ (v0 : Vec Ideal S2000x128 .f32) (v3 : Vec Ideal S128x128 .f32) (v6 : Vec Ideal S1x128 .f32) (v10 : Vec Ideal S128x64 .f32) (v14 : Vec Ideal S1x64 .f32), (k6_pay1 (F := Ideal) v0 v3 v6 v10 v14 : Rows.Arr 2000 64) = Rows.headArr v0 v3 v6 v10 v14) (c : Dev nD) :
    (dat6 V c).arrAt 5 cfg6.N
      = Rows.headArr (n := 50000) (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 _ (fun t _ => flushed6 V hpay c t) cover6

/-- The seven kernel bodies' stored values as the row-wise stages (proved over the bodies' arithmetic elsewhere). -/
structure PayloadFacts : Prop where
  lin0 : ∀ (v0 : Vec Ideal S2000x128 .f32) (v2 : Vec Ideal S128x128 .f32) (v5 : Vec Ideal S1x128 .f32), (k0_pay1 (F := Ideal) v0 v2 v5 : Rows.Arr 2000 128) = Rows.linArr v0 v2 v5
  mix1 : ∀ (v0 : Vec Ideal S2000x128 .f32) (v2 : Vec Ideal S2000x128 .f32) (v5 : Vec Ideal S128x128 .f32) (v8 : Vec Ideal S128x128 .f32) (v14 : Vec Ideal S1x128 .f32), (k1_pay1 (F := Ideal) v0 v2 v5 v8 v14 : Rows.Arr 2000 128) = Rows.mixUnitArr v0 v2 v5 v8 v14 (Ideal.ofBits .f32 0x2B8CBCCC#32)
  lin2 : ∀ (v0 : Vec Ideal S2000x128 .f32) (v3 : Vec Ideal S128x128 .f32) (v6 : Vec Ideal S1x128 .f32), (k2_pay1 (F := Ideal) v0 v3 v6 : Rows.Arr 2000 128) = Rows.linArr v0 v3 v6
  mix3 : ∀ (v0 : Vec Ideal S2000x128 .f32) (v3 : Vec Ideal S2000x128 .f32) (v6 : Vec Ideal S128x128 .f32) (v9 : Vec Ideal S128x128 .f32) (v15 : Vec Ideal S1x128 .f32), (k3_pay1 (F := Ideal) v0 v3 v6 v9 v15 : Rows.Arr 2000 128) = Rows.mixUnitArr v0 v3 v6 v9 v15 (Ideal.ofBits .f32 0x2B8CBCCC#32)
  lin4 : ∀ (v0 : Vec Ideal S2000x128 .f32) (v3 : Vec Ideal S128x128 .f32) (v6 : Vec Ideal S1x128 .f32), (k4_pay1 (F := Ideal) v0 v3 v6 : Rows.Arr 2000 128) = Rows.linArr v0 v3 v6
  mix5 : ∀ (v0 : Vec Ideal S2000x128 .f32) (v3 : Vec Ideal S2000x128 .f32) (v6 : Vec Ideal S128x128 .f32) (v9 : Vec Ideal S128x128 .f32) (v15 : Vec Ideal S1x128 .f32), (k5_pay1 (F := Ideal) v0 v3 v6 v9 v15 : Rows.Arr 2000 128) = Rows.mixUnitArr v0 v3 v6 v9 v15 (Ideal.ofBits .f32 0x2B8CBCCC#32)
  head6 : ∀ (v0 : Vec Ideal S2000x128 .f32) (v3 : Vec Ideal S128x128 .f32) (v6 : Vec Ideal S1x128 .f32) (v10 : Vec Ideal S128x64 .f32) (v14 : Vec Ideal S1x64 .f32), (k6_pay1 (F := Ideal) v0 v3 v6 v10 v14 : Rows.Arr 2000 64) = Rows.headArr v0 v3 v6 v10 v14

end Cert.Regions

end
-- ==== Proof.KernelNet.lean ====
/-
  The values the idealized kernel program computes between its regions, as functions of the launch memory.

  The host side: the two index rows of the edge list; the reciprocal of each node's in-degree bounded below by one
  (computed once); per layer the neighbourhood mean (gather the source rows of the layer's features, add them up per
  target row, multiply by that reciprocal), the two halves of the mixing weights, and each bias as a one-row array.
  The regions: the row-wise stages of Rows.lean. Composed in program order they give the result array (`out`).
-/
import proofs.«137334_j6425271075235_1_alg».proof.Proof.Gen.KernelIdeal
import proofs.«137334_j6425271075235_1_alg».proof.Proof.Rows

noncomputable section

namespace Cert.KNet

open Idealize.ShloMosaic Idealize.ShloMosaic.TcCoe Cert.KernelIdeal Cert.KernelIdeal.Facts₀ Cert.KernelIdeal.Facts

section Host
variable {F : FTy → Type} [FloatOps F]

/-- The source-node indices, one per edge. -/
def srcV (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The target-node indices, one per edge. -/
def dstV (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The reciprocal of each node's in-degree bounded below by one. -/
def rdeg (d : (⟨S800000, .i32⟩ : BufTy).Contents (Elt F)) : (⟨S50000, .f32⟩ : BufTy).Contents (Elt F) :=
  Host.divf (broadcastInDim S50000 ![] bcast_S_S50000 (constant S_ .f32 0x3F800000#32)) (maximumf (Host.scatterAdd scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))) (broadcastInDim S50000 ![] bcast_S_S50000 (constant S_ .f32 0x3F800000#32)))

/-- The neighbourhood mean of the rows of `H`: the per-target sum of the gathered source rows times the reciprocal degree. -/
def mean (H : (⟨S50000x128, .f32⟩ : BufTy).Contents (Elt F)) (s d : (⟨S800000, .i32⟩ : BufTy).Contents (Elt F)) (r : (⟨S50000, .f32⟩ : BufTy).Contents (Elt F)) : (⟨S50000x128, .f32⟩ : BufTy).Contents (Elt F) :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 d) (Host.gather gather_S50000x128_S800000x1_S800000x128_1_0_n_n_0_1_1128 H (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))) (broadcastInDim S50000x128 ![0, 1] bcast_S50000x1_S50000x128_0_1 (broadcastInDim S50000x1 ![0] bcast_S50000_S50000x1_0 r))

/-- A bias as a one-row array. -/
def biasRow (b : (⟨S128, .f32⟩ : BufTy).Contents (Elt F)) : (⟨S1x128, .f32⟩ : BufTy).Contents (Elt F) := shapeCast _ b shapeCasts_S128_S1x128
def biasRow64 (b : (⟨S64, .f32⟩ : BufTy).Contents (Elt F)) : (⟨S1x64, .f32⟩ : BufTy).Contents (Elt F) := shapeCast _ b shapeCasts_S64_S1x64

/-- The rows of the mixing weights that meet a node's own features, and those that meet its neighbourhood mean. -/
def topHalf (W : (⟨S256x128, .f32⟩ : BufTy).Contents (Elt F)) : (⟨S128x128, .f32⟩ : BufTy).Contents (Elt F) := extractStridedSlice S128x128 ![0, 0] W slices_S256x128_S128x128_0_0
def botHalf (W : (⟨S256x128, .f32⟩ : BufTy).Contents (Elt F)) : (⟨S128x128, .f32⟩ : BufTy).Contents (Elt F) := extractStridedSlice S128x128 ![128, 0] W slices_S256x128_S128x128_128_0

end Host

/-! ## The program's intermediate arrays, at the exact instance -/

variable (m : (ℓ : Loc nD τ sig) → Buf (Elt Ideal) ℓ) (c : Dev nD)

/-- The small constant bounding a row's length from below. -/
abbrev eps : EReal := Ideal.ofBits .f32 0x2B8CBCCC#32

def sV : (⟨S800000, .i32⟩ : BufTy).Contents (Elt Ideal) := srcV (m ((c : Thread nD τ).loc main_arg17))
def dV : (⟨S800000, .i32⟩ : BufTy).Contents (Elt Ideal) := dstV (m ((c : Thread nD τ).loc main_arg17))
def rD : (⟨S50000, .f32⟩ : BufTy).Contents (Elt Ideal) := rdeg (dV m c)

def lin0 : Rows.Arr 50000 128 := Rows.linArr (m ((c : Thread nD τ).loc main_arg0)) (m ((c : Thread nD τ).loc main_arg1)) (biasRow (m ((c : Thread nD τ).loc main_arg2)))
def mean0 : Rows.Arr 50000 128 := mean (lin0 m c) (sV m c) (dV m c) (rD m c)
def h1 : Rows.Arr 50000 128 := Rows.mixUnitArr (m ((c : Thread nD τ).loc main_arg0)) (mean0 m c) (topHalf (m ((c : Thread nD τ).loc main_arg3))) (botHalf (m ((c : Thread nD τ).loc main_arg3))) (biasRow (m ((c : Thread nD τ).loc main_arg4))) eps
def lin1 : Rows.Arr 50000 128 := Rows.linArr (h1 m c) (m ((c : Thread nD τ).loc main_arg5)) (biasRow (m ((c : Thread nD τ).loc main_arg6)))
def mean1 : Rows.Arr 50000 128 := mean (lin1 m c) (sV m c) (dV m c) (rD m c)
def h2 : Rows.Arr 50000 128 := Rows.mixUnitArr (h1 m c) (mean1 m c) (topHalf (m ((c : Thread nD τ).loc main_arg7))) (botHalf (m ((c : Thread nD τ).loc main_arg7))) (biasRow (m ((c : Thread nD τ).loc main_arg8))) eps
def lin2 : Rows.Arr 50000 128 := Rows.linArr (h2 m c) (m ((c : Thread nD τ).loc main_arg9)) (biasRow (m ((c : Thread nD τ).loc main_arg10)))
def mean2 : Rows.Arr 50000 128 := mean (lin2 m c) (sV m c) (dV m c) (rD m c)
def h3 : Rows.Arr 50000 128 := Rows.mixUnitArr (h2 m c) (mean2 m c) (topHalf (m ((c : Thread nD τ).loc main_arg11))) (botHalf (m ((c : Thread nD τ).loc main_arg11))) (biasRow (m ((c : Thread nD τ).loc main_arg12))) eps
def out : Rows.Arr 50000 64 := Rows.headArr (h3 m c) (m ((c : Thread nD τ).loc main_arg13)) (biasRow (m ((c : Thread nD τ).loc main_arg14))) (m ((c : Thread nD τ).loc main_arg15)) (biasRow64 (m ((c : Thread nD τ).loc main_arg16)))

end Cert.KNet

end
-- ==== Proof.KernelChain.lean ====
/-
  The idealized kernel program's buffers, boundary by boundary. @main is seven stretches of host operations alternating
  with seven kernel regions; the buffer contents at the fifteen boundaries form a fold from the launch memory. Read
  through that fold: a buffer nothing has written since keeps its contents, a host operation's result is its function of
  its operands' contents, and a region's output array is its stage of the arrays the region found. So the result
  buffer ends holding the composed network of the launch contents of the arguments (`KNet.out`).
-/
import proofs.«137334_j6425271075235_1_alg».proof.Proof.Gen.KernelIdeal.Frame
import proofs.«137334_j6425271075235_1_alg».proof.Proof.Regions
import proofs.«137334_j6425271075235_1_alg».proof.Proof.KernelNet
import Idealize.ShloMosaic.Lib.StableHlo.Run

set_option maxRecDepth 16384
set_option maxHeartbeats 4000000

noncomputable section

namespace Cert.KChain

open Cert.KernelIdeal Cert.KernelIdeal.Gen Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg) (c : Dev nD)

/-! ## An argument array is as launched at every boundary where it is read -/

theorem W0_arg2 : W0 m ρ c (Proc.devRef .tc main_arg2) = m ((c : Thread nD τ).loc main_arg2) := rfl

theorem W0_arg17 : W0 m ρ c (Proc.devRef .tc main_arg17) = m ((c : Thread nD τ).loc main_arg17) := rfl

theorem W1_arg0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_arg1 : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_arg0 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_arg5 : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_arg7 : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_arg8 : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W8_arg10 : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W9_arg9 : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W10_arg11 : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W10_arg12 : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W12_arg14 : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W12_arg16 : W12 m ρ c (Proc.devRef .tc main_arg16) = m ((c : Thread nD τ).loc main_arg16) :=
  calc W12 m ρ c (Proc.devRef .tc main_arg16)
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W13_arg13 : W13 m ρ c (Proc.devRef .tc main_arg13) = m ((c : Thread nD τ).loc main_arg13) :=
  calc W13 m ρ c (Proc.devRef .tc main_arg13)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W13_arg15 : W13 m ρ c (Proc.devRef .tc main_arg15) = m ((c : Thread nD τ).loc main_arg15) :=
  calc W13 m ρ c (Proc.devRef .tc main_arg15)
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-! ## The buffers the program computes -/

variable (P : Regions.PayloadFacts)
include P

theorem at1_v3 : W1 m ρ c (Proc.devRef .tc main_v3) = KNet.dV m c := by
  show StableHlo.after hostOps0 (W0 m ρ c) (Proc.devRef .tc main_v3) = _
  simp only [hostOps0]
  after_results
  rfl

theorem at2_v3 : W2 m ρ c (Proc.devRef .tc main_v3) = KNet.dV m c :=
  (W2_of_ne m ρ c main_v3 (by decide)).trans (at1_v3 m ρ c P)

theorem at1_v12 : W1 m ρ c (Proc.devRef .tc main_v12) = KNet.biasRow (m ((c : Thread nD τ).loc main_arg2)) := by
  show StableHlo.after hostOps0 (W0 m ρ c) (Proc.devRef .tc main_v12) = _
  simp only [hostOps0]
  after_results
  rfl

theorem at2_v13 : W2 m ρ c (Proc.devRef .tc main_v13) = KNet.lin0 m c :=
  (W2_arr m ρ c 3).trans ((Regions.value0 (V1 m ρ) P.lin0 c).trans (by
    rw [show V1 m ρ c (Pipeline.arrRef spec0 0) = _ from W1_arg0 m ρ c,
      show V1 m ρ c (Pipeline.arrRef spec0 1) = _ from W1_arg1 m ρ c,
      show V1 m ρ c (Pipeline.arrRef spec0 2) = _ from at1_v12 m ρ c P]
    rfl))

theorem at1_v1 : W1 m ρ c (Proc.devRef .tc main_v1) = KNet.sV m c := by
  show StableHlo.after hostOps0 (W0 m ρ c) (Proc.devRef .tc main_v1) = _
  simp only [hostOps0]
  after_results
  rfl

theorem at2_v1 : W2 m ρ c (Proc.devRef .tc main_v1) = KNet.sV m c :=
  (W2_of_ne m ρ c main_v1 (by decide)).trans (at1_v1 m ρ c P)

theorem at1_v11 : W1 m ρ c (Proc.devRef .tc main_v11) = KNet.rD m c := by
  show StableHlo.after hostOps0 (W0 m ρ c) (Proc.devRef .tc main_v11) = _
  simp only [hostOps0]
  after_results
  rfl

theorem at2_v11 : W2 m ρ c (Proc.devRef .tc main_v11) = KNet.rD m c :=
  (W2_of_ne m ρ c main_v11 (by decide)).trans (at1_v11 m ρ c P)

theorem at3_v26 : W3 m ρ c (Proc.devRef .tc main_v26) = KNet.mean0 m c := by
  show StableHlo.after hostOps1 (W2 m ρ c) (Proc.devRef .tc main_v26) = _
  simp only [hostOps1]
  after_results_simp
  rw [at2_v3 m ρ c P, at2_v13 m ρ c P, at2_v1 m ρ c P, at2_v11 m ρ c P]
  rfl

theorem at3_v27 : W3 m ρ c (Proc.devRef .tc main_v27) = KNet.topHalf (m ((c : Thread nD τ).loc main_arg3)) := by
  show StableHlo.after hostOps1 (W2 m ρ c) (Proc.devRef .tc main_v27) = _
  simp only [hostOps1]
  after_results
  rw [W2_arg3 m ρ c]
  rfl

theorem at3_v28 : W3 m ρ c (Proc.devRef .tc main_v28) = KNet.botHalf (m ((c : Thread nD τ).loc main_arg3)) := by
  show StableHlo.after hostOps1 (W2 m ρ c) (Proc.devRef .tc main_v28) = _
  simp only [hostOps1]
  after_results
  rw [W2_arg3 m ρ c]
  rfl

theorem at3_v29 : W3 m ρ c (Proc.devRef .tc main_v29) = KNet.biasRow (m ((c : Thread nD τ).loc main_arg4)) := by
  show StableHlo.after hostOps1 (W2 m ρ c) (Proc.devRef .tc main_v29) = _
  simp only [hostOps1]
  after_results
  rw [W2_arg4 m ρ c]
  rfl

theorem at4_v30 : W4 m ρ c (Proc.devRef .tc main_v30) = KNet.h1 m c :=
  (W4_arr m ρ c 5).trans ((Regions.value1 (V3 m ρ) P.mix1 c).trans (by
    rw [show V3 m ρ c (Pipeline.arrRef spec1 0) = _ from W3_arg0 m ρ c,
      show V3 m ρ c (Pipeline.arrRef spec1 1) = _ from at3_v26 m ρ c P,
      show V3 m ρ c (Pipeline.arrRef spec1 2) = _ from at3_v27 m ρ c P,
      show V3 m ρ c (Pipeline.arrRef spec1 3) = _ from at3_v28 m ρ c P,
      show V3 m ρ c (Pipeline.arrRef spec1 4) = _ from at3_v29 m ρ c P]
    rfl))

theorem at5_v30 : W5 m ρ c (Proc.devRef .tc main_v30) = KNet.h1 m c :=
  (StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at4_v30 m ρ c P)

theorem at6_v30 : W6 m ρ c (Proc.devRef .tc main_v30) = KNet.h1 m c :=
  ((W6_arr m ρ c 0).trans (((dat2 (V5 m ρ) c).arrAt_in 0 rfl _).trans (A_eq2 (V5 m ρ) c 0))).trans (at5_v30 m ρ c P)

theorem at7_v30 : W7 m ρ c (Proc.devRef .tc main_v30) = KNet.h1 m c :=
  (StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at6_v30 m ρ c P)

theorem at3_v3 : W3 m ρ c (Proc.devRef .tc main_v3) = KNet.dV m c :=
  (StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at2_v3 m ρ c P)

theorem at4_v3 : W4 m ρ c (Proc.devRef .tc main_v3) = KNet.dV m c :=
  (W4_of_ne m ρ c main_v3 (by decide)).trans (at3_v3 m ρ c P)

theorem at5_v3 : W5 m ρ c (Proc.devRef .tc main_v3) = KNet.dV m c :=
  (StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at4_v3 m ρ c P)

theorem at6_v3 : W6 m ρ c (Proc.devRef .tc main_v3) = KNet.dV m c :=
  (W6_of_ne m ρ c main_v3 (by decide)).trans (at5_v3 m ρ c P)

theorem at5_v31 : W5 m ρ c (Proc.devRef .tc main_v31) = KNet.biasRow (m ((c : Thread nD τ).loc main_arg6)) := by
  show StableHlo.after hostOps2 (W4 m ρ c) (Proc.devRef .tc main_v31) = _
  simp only [hostOps2]
  after_results
  rw [W4_arg6 m ρ c]
  rfl

theorem at6_v32 : W6 m ρ c (Proc.devRef .tc main_v32) = KNet.lin1 m c :=
  (W6_arr m ρ c 3).trans ((Regions.value2 (V5 m ρ) P.lin2 c).trans (by
    rw [show V5 m ρ c (Pipeline.arrRef spec2 0) = _ from at5_v30 m ρ c P,
      show V5 m ρ c (Pipeline.arrRef spec2 1) = _ from W5_arg5 m ρ c,
      show V5 m ρ c (Pipeline.arrRef spec2 2) = _ from at5_v31 m ρ c P]
    rfl))

theorem at3_v1 : W3 m ρ c (Proc.devRef .tc main_v1) = KNet.sV m c :=
  (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at2_v1 m ρ c P)

theorem at4_v1 : W4 m ρ c (Proc.devRef .tc main_v1) = KNet.sV m c :=
  (W4_of_ne m ρ c main_v1 (by decide)).trans (at3_v1 m ρ c P)

theorem at5_v1 : W5 m ρ c (Proc.devRef .tc main_v1) = KNet.sV m c :=
  (StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at4_v1 m ρ c P)

theorem at6_v1 : W6 m ρ c (Proc.devRef .tc main_v1) = KNet.sV m c :=
  (W6_of_ne m ρ c main_v1 (by decide)).trans (at5_v1 m ρ c P)

theorem at3_v11 : W3 m ρ c (Proc.devRef .tc main_v11) = KNet.rD m c :=
  (StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at2_v11 m ρ c P)

theorem at4_v11 : W4 m ρ c (Proc.devRef .tc main_v11) = KNet.rD m c :=
  (W4_of_ne m ρ c main_v11 (by decide)).trans (at3_v11 m ρ c P)

theorem at5_v11 : W5 m ρ c (Proc.devRef .tc main_v11) = KNet.rD m c :=
  (StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at4_v11 m ρ c P)

theorem at6_v11 : W6 m ρ c (Proc.devRef .tc main_v11) = KNet.rD m c :=
  (W6_of_ne m ρ c main_v11 (by decide)).trans (at5_v11 m ρ c P)

theorem at7_v45 : W7 m ρ c (Proc.devRef .tc main_v45) = KNet.mean1 m c := by
  show StableHlo.after hostOps3 (W6 m ρ c) (Proc.devRef .tc main_v45) = _
  simp only [hostOps3]
  after_results_simp
  rw [at6_v3 m ρ c P, at6_v32 m ρ c P, at6_v1 m ρ c P, at6_v11 m ρ c P]
  rfl

theorem at7_v46 : W7 m ρ c (Proc.devRef .tc main_v46) = KNet.topHalf (m ((c : Thread nD τ).loc main_arg7)) := by
  show StableHlo.after hostOps3 (W6 m ρ c) (Proc.devRef .tc main_v46) = _
  simp only [hostOps3]
  after_results
  rw [W6_arg7 m ρ c]
  rfl

theorem at7_v47 : W7 m ρ c (Proc.devRef .tc main_v47) = KNet.botHalf (m ((c : Thread nD τ).loc main_arg7)) := by
  show StableHlo.after hostOps3 (W6 m ρ c) (Proc.devRef .tc main_v47) = _
  simp only [hostOps3]
  after_results
  rw [W6_arg7 m ρ c]
  rfl

theorem at7_v48 : W7 m ρ c (Proc.devRef .tc main_v48) = KNet.biasRow (m ((c : Thread nD τ).loc main_arg8)) := by
  show StableHlo.after hostOps3 (W6 m ρ c) (Proc.devRef .tc main_v48) = _
  simp only [hostOps3]
  after_results
  rw [W6_arg8 m ρ c]
  rfl

theorem at8_v49 : W8 m ρ c (Proc.devRef .tc main_v49) = KNet.h2 m c :=
  (W8_arr m ρ c 5).trans ((Regions.value3 (V7 m ρ) P.mix3 c).trans (by
    rw [show V7 m ρ c (Pipeline.arrRef spec3 0) = _ from at7_v30 m ρ c P,
      show V7 m ρ c (Pipeline.arrRef spec3 1) = _ from at7_v45 m ρ c P,
      show V7 m ρ c (Pipeline.arrRef spec3 2) = _ from at7_v46 m ρ c P,
      show V7 m ρ c (Pipeline.arrRef spec3 3) = _ from at7_v47 m ρ c P,
      show V7 m ρ c (Pipeline.arrRef spec3 4) = _ from at7_v48 m ρ c P]
    rfl))

theorem at9_v49 : W9 m ρ c (Proc.devRef .tc main_v49) = KNet.h2 m c :=
  (StableHlo.after_of_forall_not_mem (b := Proc.devRef .tc main_v49) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at8_v49 m ρ c P)

theorem at10_v49 : W10 m ρ c (Proc.devRef .tc main_v49) = KNet.h2 m c :=
  ((W10_arr m ρ c 0).trans (((dat4 (V9 m ρ) c).arrAt_in 0 rfl _).trans (A_eq4 (V9 m ρ) c 0))).trans (at9_v49 m ρ c P)

theorem at11_v49 : W11 m ρ c (Proc.devRef .tc main_v49) = KNet.h2 m c :=
  (StableHlo.after_of_forall_not_mem (b := Proc.devRef .tc main_v49) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at10_v49 m ρ c P)

theorem at7_v3 : W7 m ρ c (Proc.devRef .tc main_v3) = KNet.dV m c :=
  (StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at6_v3 m ρ c P)

theorem at8_v3 : W8 m ρ c (Proc.devRef .tc main_v3) = KNet.dV m c :=
  (W8_of_ne m ρ c main_v3 (by decide)).trans (at7_v3 m ρ c P)

theorem at9_v3 : W9 m ρ c (Proc.devRef .tc main_v3) = KNet.dV m c :=
  (StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at8_v3 m ρ c P)

theorem at10_v3 : W10 m ρ c (Proc.devRef .tc main_v3) = KNet.dV m c :=
  (W10_of_ne m ρ c main_v3 (by decide)).trans (at9_v3 m ρ c P)

theorem at9_v50 : W9 m ρ c (Proc.devRef .tc main_v50) = KNet.biasRow (m ((c : Thread nD τ).loc main_arg10)) := by
  show StableHlo.after hostOps4 (W8 m ρ c) (Proc.devRef .tc main_v50) = _
  simp only [hostOps4]
  after_results
  rw [W8_arg10 m ρ c]
  rfl

theorem at10_v51 : W10 m ρ c (Proc.devRef .tc main_v51) = KNet.lin2 m c :=
  (W10_arr m ρ c 3).trans ((Regions.value4 (V9 m ρ) P.lin4 c).trans (by
    rw [show V9 m ρ c (Pipeline.arrRef spec4 0) = _ from at9_v49 m ρ c P,
      show V9 m ρ c (Pipeline.arrRef spec4 1) = _ from W9_arg9 m ρ c,
      show V9 m ρ c (Pipeline.arrRef spec4 2) = _ from at9_v50 m ρ c P]
    rfl))

theorem at7_v1 : W7 m ρ c (Proc.devRef .tc main_v1) = KNet.sV m c :=
  (StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at6_v1 m ρ c P)

theorem at8_v1 : W8 m ρ c (Proc.devRef .tc main_v1) = KNet.sV m c :=
  (W8_of_ne m ρ c main_v1 (by decide)).trans (at7_v1 m ρ c P)

theorem at9_v1 : W9 m ρ c (Proc.devRef .tc main_v1) = KNet.sV m c :=
  (StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at8_v1 m ρ c P)

theorem at10_v1 : W10 m ρ c (Proc.devRef .tc main_v1) = KNet.sV m c :=
  (W10_of_ne m ρ c main_v1 (by decide)).trans (at9_v1 m ρ c P)

theorem at7_v11 : W7 m ρ c (Proc.devRef .tc main_v11) = KNet.rD m c :=
  (StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at6_v11 m ρ c P)

theorem at8_v11 : W8 m ρ c (Proc.devRef .tc main_v11) = KNet.rD m c :=
  (W8_of_ne m ρ c main_v11 (by decide)).trans (at7_v11 m ρ c P)

theorem at9_v11 : W9 m ρ c (Proc.devRef .tc main_v11) = KNet.rD m c :=
  (StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at8_v11 m ρ c P)

theorem at10_v11 : W10 m ρ c (Proc.devRef .tc main_v11) = KNet.rD m c :=
  (W10_of_ne m ρ c main_v11 (by decide)).trans (at9_v11 m ρ c P)

theorem at11_v64 : W11 m ρ c (Proc.devRef .tc main_v64) = KNet.mean2 m c := by
  show StableHlo.after hostOps5 (W10 m ρ c) (Proc.devRef .tc main_v64) = _
  simp only [hostOps5]
  after_results_simp
  rw [at10_v3 m ρ c P, at10_v51 m ρ c P, at10_v1 m ρ c P, at10_v11 m ρ c P]
  rfl

theorem at11_v65 : W11 m ρ c (Proc.devRef .tc main_v65) = KNet.topHalf (m ((c : Thread nD τ).loc main_arg11)) := by
  show StableHlo.after hostOps5 (W10 m ρ c) (Proc.devRef .tc main_v65) = _
  simp only [hostOps5]
  after_results
  rw [W10_arg11 m ρ c]
  rfl

theorem at11_v66 : W11 m ρ c (Proc.devRef .tc main_v66) = KNet.botHalf (m ((c : Thread nD τ).loc main_arg11)) := by
  show StableHlo.after hostOps5 (W10 m ρ c) (Proc.devRef .tc main_v66) = _
  simp only [hostOps5]
  after_results
  rw [W10_arg11 m ρ c]
  rfl

theorem at11_v67 : W11 m ρ c (Proc.devRef .tc main_v67) = KNet.biasRow (m ((c : Thread nD τ).loc main_arg12)) := by
  show StableHlo.after hostOps5 (W10 m ρ c) (Proc.devRef .tc main_v67) = _
  simp only [hostOps5]
  after_results
  rw [W10_arg12 m ρ c]
  rfl

theorem at12_v68 : W12 m ρ c (Proc.devRef .tc main_v68) = KNet.h3 m c :=
  (W12_arr m ρ c 5).trans ((Regions.value5 (V11 m ρ) P.mix5 c).trans (by
    rw [show V11 m ρ c (Pipeline.arrRef spec5 0) = _ from at11_v49 m ρ c P,
      show V11 m ρ c (Pipeline.arrRef spec5 1) = _ from at11_v64 m ρ c P,
      show V11 m ρ c (Pipeline.arrRef spec5 2) = _ from at11_v65 m ρ c P,
      show V11 m ρ c (Pipeline.arrRef spec5 3) = _ from at11_v66 m ρ c P,
      show V11 m ρ c (Pipeline.arrRef spec5 4) = _ from at11_v67 m ρ c P]
    rfl))

theorem at13_v68 : W13 m ρ c (Proc.devRef .tc main_v68) = KNet.h3 m c :=
  (StableHlo.after_of_forall_not_mem (b := Proc.devRef .tc main_v68) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (at12_v68 m ρ c P)

theorem at13_v69 : W13 m ρ c (Proc.devRef .tc main_v69) = KNet.biasRow (m ((c : Thread nD τ).loc main_arg14)) := by
  show StableHlo.after hostOps6 (W12 m ρ c) (Proc.devRef .tc main_v69) = _
  simp only [hostOps6]
  after_results
  rw [W12_arg14 m ρ c]
  rfl

theorem at13_v70 : W13 m ρ c (Proc.devRef .tc main_v70) = KNet.biasRow64 (m ((c : Thread nD τ).loc main_arg16)) := by
  show StableHlo.after hostOps6 (W12 m ρ c) (Proc.devRef .tc main_v70) = _
  simp only [hostOps6]
  after_results
  rw [W12_arg16 m ρ c]
  rfl

theorem at14_v71 : W14 m ρ c (Proc.devRef .tc main_v71) = KNet.out m c :=
  (W14_arr m ρ c 5).trans ((Regions.value6 (V13 m ρ) P.head6 c).trans (by
    rw [show V13 m ρ c (Pipeline.arrRef spec6 0) = _ from at13_v68 m ρ c P,
      show V13 m ρ c (Pipeline.arrRef spec6 1) = _ from W13_arg13 m ρ c,
      show V13 m ρ c (Pipeline.arrRef spec6 2) = _ from at13_v69 m ρ c P,
      show V13 m ρ c (Pipeline.arrRef spec6 3) = _ from W13_arg15 m ρ c,
      show V13 m ρ c (Pipeline.arrRef spec6 4) = _ from at13_v70 m ρ c P]
    rfl))

/-- The result buffer at the last boundary is the network of the launch contents. -/
theorem result_value : W14 m ρ c (Proc.devRef .tc main_v71) = KNet.out m c := at14_v71 m ρ c P

end Cert.KChain

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.Payloads.lean ====
/-
  What each kernel body stores, read over the extended reals, is the row-wise function of its inputs.

  Every body is a chain of array operations. Read at one index (p, q) of the stored block, each operation is the
  extended reals' own: a matrix product into the zero array is the sum over the contracted coordinate; a one-row
  bias spread over the rows reads the bias at the column; a sum or a maximum along a row is the sum or the fold of
  `max` over the row's entries; a per-row number cast to a column and spread over the row reads that number; a change
  of float format is the identity. Composing these readings gives the row functions of `Rows`.
-/
import proofs.«137334_j6425271075235_1_alg».proof.Proof.Gen.KernelIdeal.Skeleton
import proofs.«137334_j6425271075235_1_alg».proof.Proof.Rows
import proofs.«137334_j6425271075235_1_alg».proof.Proof.LibIdealLayout
import Idealize.ShloMosaic.Lib.ValueIdx
import Idealize.ShloMosaic.Lib.ValueLayout
import Idealize.ShloMosaic.Lib.Pipeline.Value
import Idealize.ShloMosaic.PureOps.Ideal.Laws

noncomputable section

namespace Cert.Payloads

open Idealize.ShloMosaic Idealize.ShloMosaic.ValueIdx Cert.KernelIdeal Cert.KernelIdeal.Gen

/-! ## The array operations read at an index -/

section General
variable {α : Type}

/-- A matrix product `[m, k] × [k, n]` accumulated into the zero array reads, at `(a, b)`, the sum over the contracted
    coordinate of the products of the entries. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A one-row array cast to its own shape and spread over `a` rows reads, at `(p, c)`, the row's entry of the column. -/
theorem bias_apply {a b : Nat} (v : (⟨2, ![1, b]⟩ : Shape).Idx → α)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) := by
  rw [shapeCast_self, broadcastTo_1b_ab_apply]

/-- The index of row `p` with the column coordinate `k` put back is `(p, k)`. -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum along the rows of an `[m, n]` array reads, at row `p`, the sum of the row's entries. -/
theorem rowSum_apply {m n : Nat} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction (F := Ideal) .add [1] ⟨1, ![m]⟩ src acc h hφ hacc (ix1 p) = ∑ k : Fin n, src (ix2 p k) := by
  refine (Ideal.multiReduction_add_single src acc h hφ hacc (ix1 p)).trans ?_
  exact Finset.sum_congr rfl fun k _ => congrArg src (lift_row h p k)

/-- A maximum along the rows of an `[m, n]` array, from the accumulator `-∞`, reads, at row `p`, the fold of `max` from
    the bottom over the row's entries. -/
theorem rowMax_apply {m n : Nat} (src : FVec Ideal ⟨2, ![m, n]⟩ .f32)
    (h : (⟨2, ![m, n]⟩ : Shape).Reduces [1] (⟨1, ![m]⟩ : Shape)) (hφ : FKind.Formats .f32)
    (hacc : (0xFF800000#32 : BitVec (FTy.bits .f32)) = FKind.maximumf.neutral .f32 hφ) (p : Fin m) :
    multiReduction (F := Ideal) .maximumf [1] ⟨1, ![m]⟩ src 0xFF800000#32 h hφ hacc (ix1 p)
      = (Finset.univ : Finset (Fin n)).fold max ⊥ (fun k => src (ix2 p k)) := by
  refine (Ideal.multiReduction_maximumf_single src _ h hφ hacc (ix1 p)).trans ?_
  have hb : (FloatOps.ofBits (F := Ideal) .f32 0xFF800000#32 : EReal) = ⊥ := by
    show Ideal.ofBits .f32 0xFF800000#32 = ⊥
    simp [Ideal.ofBits, Ideal.ieee]
  have hf : (src ∘ h.lift (ix1 p)) = fun k : Fin n => src (ix2 p k) := funext fun k => congrArg src (lift_row h p k)
  rw [hb, hf]
  rfl

/-- A length-`m` array cast to one column reads, at `(p, u)`, its entry `p`. -/
theorem shapeCast_a_a1_apply {m : Nat} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column spread over `n` columns reads, at `(p, c)`, the column's entry of the row. -/
theorem broadcastTo_a1_ab_apply {m n : Nat} (v : (⟨2, ![m, 1]⟩ : Shape).Idx → α) (h : (⟨2, ![m, 1]⟩ : Shape).Broadcasts ⟨2, ![m, n]⟩)
    (p : Fin m) (c : Fin n) : broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

/-- A square root of an array reads the square root of the entry. -/
theorem sqrt_apply {s : Shape} {φ : FTy} (a : FVec Ideal s φ) (i : s.Idx) : sqrt a i = Ideal.sqrt (a i) := rfl
/-- An exponential of an array reads the exponential of the entry. -/
theorem exp_apply {s : Shape} {φ : FTy} (a : FVec Ideal s φ) (i : s.Idx) : exp a i = Ideal.exp (a i) := rfl
/-- A logarithm of an array reads the logarithm of the entry. -/
theorem log_apply {s : Shape} {φ : FTy} (a : FVec Ideal s φ) (i : s.Idx) : log a i = Ideal.log (a i) := rfl

end General

/-- The bodies' `[2000, 128] × [128, 128]` product into zeros, read at `(p, q)`. -/
theorem mm128_apply {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ c : Fin 128, A (ix2 p c) * B (ix2 c q) :=
  matmul_zero_ix2 dot_S2000x128_S128x128_S2000x128_1_0_0_1_n_n_wf none A B p q

/-- The head's `[2000, 128] × [128, 64]` product into zeros, read at `(p, q)`. -/
theorem mm64_apply {φ₁ φ₂ : FTy} (A : FVec Ideal S2000x128 φ₁) (B : FVec Ideal S128x64 φ₂) (p : Fin 2000) (q : Fin 64) :
    matmul dot_S2000x128_S128x64_S2000x64_1_0_0_1_n_n none A B (constant (F := Ideal) S2000x64 .f32 0x00000000#32) (ix2 p q)
      = ∑ c : Fin 128, A (ix2 p c) * B (ix2 c q) :=
  matmul_zero_ix2 dot_S2000x128_S128x64_S2000x64_1_0_0_1_n_n_wf none A B p q

/-- The sum along the rows of a `[2000, 128]` block, at row `p`. -/
theorem rowSum128_apply (src : FVec Ideal S2000x128 .f32) (hφ : FKind.Formats .f32)
    (hacc : (0x00000000#32 : BitVec (FTy.bits .f32)) = FKind.add.neutral .f32 hφ) (p : Fin 2000) :
    multiReduction (F := Ideal) .add [1] S2000 src 0x00000000#32 reduces_S2000x128_S2000 hφ hacc (ix1 p)
      = ∑ k : Fin 128, src (ix2 p k) :=
  rowSum_apply src _ _ hφ hacc p

/-- The sum along the rows of a `[2000, 64]` block, at row `p`. -/
theorem rowSum64_apply (src : FVec Ideal S2000x64 .f32) (hφ : FKind.Formats .f32)
    (hacc : (0x00000000#32 : BitVec (FTy.bits .f32)) = FKind.add.neutral .f32 hφ) (p : Fin 2000) :
    multiReduction (F := Ideal) .add [1] S2000 src 0x00000000#32 reduces_S2000x64_S2000 hφ hacc (ix1 p)
      = ∑ k : Fin 64, src (ix2 p k) :=
  rowSum_apply src _ _ hφ hacc p

/-- The maximum along the rows of a `[2000, 64]` block, at row `p`. -/
theorem rowMax64_apply (src : FVec Ideal S2000x64 .f32) (hφ : FKind.Formats .f32)
    (hacc : (0xFF800000#32 : BitVec (FTy.bits .f32)) = FKind.maximumf.neutral .f32 hφ) (p : Fin 2000) :
    multiReduction (F := Ideal) .maximumf [1] S2000 src 0xFF800000#32 reduces_S2000x64_S2000 hφ hacc (ix1 p)
      = (Finset.univ : Finset (Fin 64)).fold max ⊥ (fun k => src (ix2 p k)) :=
  rowMax_apply src _ hφ hacc p

/-- A block divided, row by row, by the row's Euclidean length bounded below by a constant, as the mixing bodies
    compute it (sum of squares along the row, cast to a column, square root, maximum with the constant, spread over
    the row, quotient): at `(p, q)` it is the unit-length rescaling of row `p`, read at `q`. -/
theorem unit_apply (Y : FVec Ideal S2000x128 .f32) (hφ : FKind.Formats .f32)
    (hacc : (0x00000000#32 : BitVec (FTy.bits .f32)) = FKind.add.neutral .f32 hφ)
    (h1 : S2000.ShapeCasts S2000x1) (h2 : S2000x1.Broadcasts S2000x128) (p : Fin 2000) (q : Fin 128) :
    divf Y (broadcastTo S2000x128 (maximumf (sqrt (shapeCast S2000x1
        (multiReduction (F := Ideal) .add [1] S2000 (mulf Y Y) 0x00000000#32 reduces_S2000x128_S2000 hφ hacc) h1))
        (broadcast S2000x1 (Scalar.ofBits .f32 0x2B8CBCCC#32))) h2) (ix2 p q)
      = Rows.unitRow (fun l => Y (ix2 p l)) (Ideal.ofBits .f32 0x2B8CBCCC#32) q := by
  simp only [divf_apply, broadcastTo_a1_ab_apply, maximumf_apply, sqrt_apply, shapeCast_a_a1_apply, broadcast_apply]
  unfold Rows.unitRow
  refine congrArg (fun t => Ideal.div (Y (ix2 p q)) (max (Ideal.sqrt t) _)) ?_
  exact rowSum_apply (mulf Y Y) _ _ hφ hacc p

/-- The logarithm of the softmax of every row of a block, as the head computes it (maximum along the row, cast to a
    column and spread over the row, difference, exponential, sum along the row, cast to a column, logarithm, spread
    over the row, difference): at `(p, q)` it is the logarithm of the softmax of row `p`, read at `q`. -/
theorem lsm_apply (Y : FVec Ideal S2000x64 .f32) (hφ hφ' : FKind.Formats .f32)
    (hmax : (0xFF800000#32 : BitVec (FTy.bits .f32)) = FKind.maximumf.neutral .f32 hφ)
    (hadd : (0x00000000#32 : BitVec (FTy.bits .f32)) = FKind.add.neutral .f32 hφ')
    (h1 : S2000.ShapeCasts S2000x1) (h2 : S2000x1.Broadcasts S2000x64) (p : Fin 2000) (q : Fin 64) :
    subf (subf Y (broadcastTo S2000x64 (shapeCast S2000x1
        (multiReduction (F := Ideal) .maximumf [1] S2000 Y 0xFF800000#32 reduces_S2000x64_S2000 hφ hmax) h1) h2))
      (broadcastTo S2000x64 (log (shapeCast S2000x1
        (multiReduction (F := Ideal) .add [1] S2000
          (exp (subf Y (broadcastTo S2000x64 (shapeCast S2000x1
            (multiReduction (F := Ideal) .maximumf [1] S2000 Y 0xFF800000#32 reduces_S2000x64_S2000 hφ hmax) h1) h2)))
          0x00000000#32 reduces_S2000x64_S2000 hφ' hadd) h1)) h2) (ix2 p q)
      = Rows.lsmRow (fun l => Y (ix2 p l)) q := by
  have hm : multiReduction (F := Ideal) .maximumf [1] S2000 Y 0xFF800000#32 reduces_S2000x64_S2000 hφ hmax (ix1 p)
      = Rows.rowMax (fun l => Y (ix2 p l)) := rowMax_apply Y _ hφ hmax p
  simp only [subf_apply, broadcastTo_a1_ab_apply, log_apply, shapeCast_a_a1_apply]
  unfold Rows.lsmRow
  rw [hm]
  refine congrArg (fun t => Y (ix2 p q) - Rows.rowMax (fun l => Y (ix2 p l)) - Ideal.log t) ?_
  refine (rowSum_apply _ _ _ hφ' hadd p).trans ?_
  refine Finset.sum_congr rfl fun l _ => ?_
  simp only [exp_apply, subf_apply, broadcastTo_a1_ab_apply, shapeCast_a_a1_apply]
  rw [hm]

/-! ## The linear layer with rectifier -/

/-- The first linear body. -/
theorem lin0 (v0 : Vec Ideal S2000x128 .f32) (v2 : Vec Ideal S128x128 .f32) (v5 : Vec Ideal S1x128 .f32) :
    (k0_pay1 (F := Ideal) v0 v2 v5 : Rows.Arr 2000 128) = Rows.linArr v0 v2 v5 := by
  funext j
  obtain ⟨p, q, rfl⟩ : ∃ (p : Fin 2000) (q : Fin 128), j = ix2 p q := ⟨j 0, j 1, eq_ix2 j⟩
  unfold k0_pay1
  simp only [maximumf_apply, addf_apply, broadcast_apply, mm128_apply, bias_apply, truncf_apply, Ideal.ofBits_def,
    Ideal.ofBits_zero_f32]
  rfl

/-- The second linear body: the same, its input first cast to its own shape. -/
theorem lin2 (v0 : Vec Ideal S2000x128 .f32) (v3 : Vec Ideal S128x128 .f32) (v6 : Vec Ideal S1x128 .f32) :
    (k2_pay1 (F := Ideal) v0 v3 v6 : Rows.Arr 2000 128) = Rows.linArr v0 v3 v6 := by
  funext j
  obtain ⟨p, q, rfl⟩ : ∃ (p : Fin 2000) (q : Fin 128), j = ix2 p q := ⟨j 0, j 1, eq_ix2 j⟩
  unfold k2_pay1
  simp only [maximumf_apply, addf_apply, broadcast_apply, mm128_apply, bias_apply, truncf_apply, shapeCast_self, broadcastTo_1b_ab_apply,
    Ideal.ofBits_def, Ideal.ofBits_zero_f32]
  rfl

/-- The third linear body. -/
theorem lin4 (v0 : Vec Ideal S2000x128 .f32) (v3 : Vec Ideal S128x128 .f32) (v6 : Vec Ideal S1x128 .f32) :
    (k4_pay1 (F := Ideal) v0 v3 v6 : Rows.Arr 2000 128) = Rows.linArr v0 v3 v6 := by
  funext j
  obtain ⟨p, q, rfl⟩ : ∃ (p : Fin 2000) (q : Fin 128), j = ix2 p q := ⟨j 0, j 1, eq_ix2 j⟩
  unfold k4_pay1
  simp only [maximumf_apply, addf_apply, broadcast_apply, mm128_apply, bias_apply, truncf_apply, shapeCast_self, broadcastTo_1b_ab_apply,
    Ideal.ofBits_def, Ideal.ofBits_zero_f32]
  rfl

/-! ## The mixing layer with the rescaling to unit length -/

/-- The first mixing body. -/
theorem mix1 (v0 v2 : Vec Ideal S2000x128 .f32) (v5 v8 : Vec Ideal S128x128 .f32) (v14 : Vec Ideal S1x128 .f32) :
    (k1_pay1 (F := Ideal) v0 v2 v5 v8 v14 : Rows.Arr 2000 128)
      = Rows.mixUnitArr v0 v2 v5 v8 v14 (Ideal.ofBits .f32 0x2B8CBCCC#32) := by
  funext j
  obtain ⟨p, q, rfl⟩ : ∃ (p : Fin 2000) (q : Fin 128), j = ix2 p q := ⟨j 0, j 1, eq_ix2 j⟩
  unfold k1_pay1
  dsimp only
  refine (unit_apply _ _ _ _ _ p q).trans ?_
  refine congrArg (fun y => Rows.unitRow y (Ideal.ofBits .f32 0x2B8CBCCC#32) q) (funext fun l => ?_)
  simp only [maximumf_apply, addf_apply, broadcast_apply, mm128_apply, shapeCast_self, broadcastTo_1b_ab_apply, truncf_apply,
    Ideal.ofBits_def, Ideal.ofBits_zero_f32]
  rfl

/-- The second mixing body: the same, its inputs first cast to their own shapes. -/
theorem mix3 (v0 v3 : Vec Ideal S2000x128 .f32) (v6 v9 : Vec Ideal S128x128 .f32) (v15 : Vec Ideal S1x128 .f32) :
    (k3_pay1 (F := Ideal) v0 v3 v6 v9 v15 : Rows.Arr 2000 128)
      = Rows.mixUnitArr v0 v3 v6 v9 v15 (Ideal.ofBits .f32 0x2B8CBCCC#32) := by
  funext j
  obtain ⟨p, q, rfl⟩ : ∃ (p : Fin 2000) (q : Fin 128), j = ix2 p q := ⟨j 0, j 1, eq_ix2 j⟩
  unfold k3_pay1
  dsimp only
  refine (unit_apply _ _ _ _ _ p q).trans ?_
  refine congrArg (fun y => Rows.unitRow y (Ideal.ofBits .f32 0x2B8CBCCC#32) q) (funext fun l => ?_)
  simp only [maximumf_apply, addf_apply, broadcast_apply, mm128_apply, shapeCast_self, broadcastTo_1b_ab_apply, truncf_apply,
    Ideal.ofBits_def, Ideal.ofBits_zero_f32]
  rfl

/-- The third mixing body: the same, its inputs first cast to their own shapes. -/
theorem mix5 (v0 v3 : Vec Ideal S2000x128 .f32) (v6 v9 : Vec Ideal S128x128 .f32) (v15 : Vec Ideal S1x128 .f32) :
    (k5_pay1 (F := Ideal) v0 v3 v6 v9 v15 : Rows.Arr 2000 128)
      = Rows.mixUnitArr v0 v3 v6 v9 v15 (Ideal.ofBits .f32 0x2B8CBCCC#32) := by
  funext j
  obtain ⟨p, q, rfl⟩ : ∃ (p : Fin 2000) (q : Fin 128), j = ix2 p q := ⟨j 0, j 1, eq_ix2 j⟩
  unfold k5_pay1
  dsimp only
  refine (unit_apply _ _ _ _ _ p q).trans ?_
  refine congrArg (fun y => Rows.unitRow y (Ideal.ofBits .f32 0x2B8CBCCC#32) q) (funext fun l => ?_)
  simp only [maximumf_apply, addf_apply, broadcast_apply, mm128_apply, shapeCast_self, broadcastTo_1b_ab_apply, truncf_apply,
    Ideal.ofBits_def, Ideal.ofBits_zero_f32]
  rfl

/-! ## The head -/

/-- The head's body: two affine maps, then the logarithm of the softmax of every row. -/
theorem head6 (v0 : Vec Ideal S2000x128 .f32) (v3 : Vec Ideal S128x128 .f32) (v6 : Vec Ideal S1x128 .f32)
    (v10 : Vec Ideal S128x64 .f32) (v14 : Vec Ideal S1x64 .f32) :
    (k6_pay1 (F := Ideal) v0 v3 v6 v10 v14 : Rows.Arr 2000 64) = Rows.headArr v0 v3 v6 v10 v14 := by
  funext j
  obtain ⟨p, q, rfl⟩ : ∃ (p : Fin 2000) (q : Fin 64), j = ix2 p q := ⟨j 0, j 1, eq_ix2 j⟩
  unfold k6_pay1
  dsimp only
  refine (lsm_apply _ _ _ _ _ _ _ p q).trans ?_
  refine congrArg (fun y => Rows.lsmRow y q) (funext fun l => ?_)
  simp only [addf_apply, mm64_apply, mm128_apply, shapeCast_self, broadcastTo_1b_ab_apply, truncf_apply]
  rfl

end Cert.Payloads

end
-- ==== Proof.Stages.lean ====
/-
  The network's stages as functions of whole arrays, in the spelling of the host operations that compute them.

  One layer: a linear layer with rectifier on every node (`lin`); the mean over each node's in-neighbours of those
  features — gather the source rows, add them up per target row, divide by the in-degree bounded below by one —
  (`meanDiv`: dividing, `meanMul`: multiplying by the reciprocal); the rectified mix of a node's own features with
  that mean, rescaled to unit Euclidean length and rectified once more (`mixUnit`). The head: two affine maps and the
  logarithm of the softmax of every row (`head`). The gather and the scatter-add are never opened: both programs apply
  the same ones to the same index arrays.
-/
import proofs.«137334_j6425271075235_1_alg».proof.Proof.Gen.KernelIdeal
import proofs.«137334_j6425271075235_1_alg».proof.Proof.Gen.ReferenceIdeal

noncomputable section

namespace Cert.Stages

open Idealize.ShloMosaic Cert.ReferenceIdeal Cert.ReferenceIdeal.Facts₀ Cert.ReferenceIdeal.Facts

variable {F : FTy → Type} [FloatOps F]

/-- The source-node index of every edge, a negative index wrapped around once, as a column. -/
def srcIx (e : (⟨S2x800000, .i32⟩ : BufTy).Contents (Elt F)) : (⟨S800000x1, .i32⟩ : BufTy).Contents (Elt F) :=
  broadcastInDim S800000x1 ![0] bcast_S800000_S800000x1_0 (select (cmpi .slt (shapeCast _ (extractStridedSlice S1x800000 ![0, 0] (e) slices_S2x800000_S1x800000_0_0) shapeCasts_S1x800000_S800000) (broadcastInDim S800000 ![] bcast_S_S800000 (constantI S_ 32 0#32))) (addi (shapeCast _ (extractStridedSlice S1x800000 ![0, 0] (e) slices_S2x800000_S1x800000_0_0) shapeCasts_S1x800000_S800000) (broadcastInDim S800000 ![] bcast_S_S800000 (constantI S_ 32 50000#32))) (shapeCast _ (extractStridedSlice S1x800000 ![0, 0] (e) slices_S2x800000_S1x800000_0_0) shapeCasts_S1x800000_S800000))

/-- The target-node index of every edge, as a column. -/
def dstIx (e : (⟨S2x800000, .i32⟩ : BufTy).Contents (Elt F)) : (⟨S800000x1, .i32⟩ : BufTy).Contents (Elt F) :=
  broadcastInDim S800000x1 ![0] bcast_S800000_S800000x1_0 (shapeCast _ (extractStridedSlice S1x800000 ![1, 0] (e) slices_S2x800000_S1x800000_1_0) shapeCasts_S1x800000_S800000)

/-- Per target node, the sum of its in-neighbours' feature rows. -/
def msgSum (H : (⟨S50000x128, .f32⟩ : BufTy).Contents (Elt F)) (e : (⟨S2x800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (dstIx e) (Host.gather gather_S50000x128_S800000x1_S800000x128_1_0_n_n_0_1_1128 H (srcIx e))

/-- Per node, its in-degree bounded below by one. -/
def degMax (e : (⟨S2x800000, .i32⟩ : BufTy).Contents (Elt F)) : (⟨S50000, .f32⟩ : BufTy).Contents (Elt F) :=
  maximumf (Host.scatterAdd scatter_S50000_S800000x1_S800000_n_0_0_1 (broadcastInDim S50000 ![] bcast_S_S50000 (constant S_ .f32 0x00000000#32)) (dstIx e) (broadcastInDim S800000 ![] bcast_S_S800000 (constant S_ .f32 0x3F800000#32))) (broadcastInDim S50000 ![] bcast_S_S50000 (constant S_ .f32 0x3F800000#32))

/-- A per-node number spread over the node's row. -/
def spreadCol (d : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 d)

/-- The neighbourhood mean, dividing the sum by the bounded degree. -/
def meanDiv (H : (⟨S50000x128, .f32⟩ : BufTy).Contents (Elt F)) (e : (⟨S2x800000, .i32⟩ : BufTy).Contents (Elt F)) : (⟨S50000x128, .f32⟩ : BufTy).Contents (Elt F) :=
  Host.divf (msgSum H e) (spreadCol (degMax e))

/-- The neighbourhood mean, multiplying the sum by the reciprocal of the bounded degree. -/
def meanMul (H : (⟨S50000x128, .f32⟩ : BufTy).Contents (Elt F)) (e : (⟨S2x800000, .i32⟩ : BufTy).Contents (Elt F)) : (⟨S50000x128, .f32⟩ : BufTy).Contents (Elt F) :=
  mulf (msgSum H e) (spreadCol (Host.divf (broadcastInDim S50000 ![] bcast_S_S50000 (constant S_ .f32 0x3F800000#32)) (degMax e)))

/-- A linear layer with rectifier on every node: max (X W + b) 0. -/
def lin (X : (⟨S50000x128, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  maximumf (addf (Host.dotGeneral dot_S50000x128_S128x128_S50000x128_1_0_0_1_n_n none (X) (W)) (broadcastInDim S50000x128 ![0, 1] bcast_S1x128_S50000x128_0_1 (broadcastInDim S1x128 ![1] bcast_S128_S1x128_1 (b)))) (broadcastInDim S50000x128 ![] bcast_S_S50000x128 (constant S_ .f32 0x00000000#32))

/-- The rectified mix max ([X, A] W + b) 0 of a node's features and its neighbourhood mean. -/
def mix (X A : (⟨S50000x128, .f32⟩ : BufTy).Contents (Elt F)) (W : (⟨S256x128, .f32⟩ : BufTy).Contents (Elt F)) (b : (⟨S128, .f32⟩ : BufTy).Contents (Elt F)) : (⟨S50000x128, .f32⟩ : BufTy).Contents (Elt F) :=
  maximumf (addf (Host.dotGeneral dot_S50000x256_S256x128_S50000x128_1_0_0_1_n_n none (concatenate S50000x256 1 [⟨S50000x128, (X)⟩, ⟨S50000x128, (A)⟩] concatenates_S50000x128_S50000x128_S50000x256_d1) (W)) (broadcastInDim S50000x128 ![0, 1] bcast_S1x128_S50000x128_0_1 (broadcastInDim S1x128 ![1] bcast_S128_S1x128_1 (b)))) (broadcastInDim S50000x128 ![] bcast_S_S50000x128 (constant S_ .f32 0x00000000#32))

/-- Every row divided by its Euclidean length (bounded below by the small constant), then rectified. -/
def unit (Y : (⟨S50000x128, .f32⟩ : BufTy).Contents (Elt F)) : (⟨S50000x128, .f32⟩ : BufTy).Contents (Elt F) :=
  maximumf (Host.divf (Y) (broadcastInDim S50000x128 ![0, 1] bcast_S50000x1_S50000x128_0_1 (maximumf (Host.sqrt (broadcastInDim S50000x1 ![0] bcast_S50000_S50000x1_0 (Host.reduceAdd (mulf (Y) (Y)) (constant S_ .f32 0x00000000#32) reducesTo_S50000x128_S50000_d1 h_S_))) (broadcastInDim S50000x1 ![] bcast_S_S50000x1 (constant S_ .f32 0x2B8CBCCC#32))))) (broadcastInDim S50000x128 ![] bcast_S_S50000x128 (constant S_ .f32 0x00000000#32))

/-- The mixing layer: mix, then unit rows. -/
def mixUnit (X A : (⟨S50000x128, .f32⟩ : BufTy).Contents (Elt F)) (W : (⟨S256x128, .f32⟩ : BufTy).Contents (Elt F)) (b : (⟨S128, .f32⟩ : BufTy).Contents (Elt F)) : (⟨S50000x128, .f32⟩ : BufTy).Contents (Elt F) :=
  unit (mix X A W b)

/-- The two affine maps of the head: (H W1 + b1) W2 + b2. -/
def logits (H : (⟨S50000x128, .f32⟩ : BufTy).Contents (Elt F)) (W1 : (⟨S128x128, .f32⟩ : BufTy).Contents (Elt F)) (b1 : (⟨S128, .f32⟩ : BufTy).Contents (Elt F)) (W2 : (⟨S128x64, .f32⟩ : BufTy).Contents (Elt F)) (b2 : (⟨S64, .f32⟩ : BufTy).Contents (Elt F)) : (⟨S50000x64, .f32⟩ : BufTy).Contents (Elt F) :=
  addf (Host.dotGeneral dot_S50000x128_S128x64_S50000x64_1_0_0_1_n_n none (addf (Host.dotGeneral dot_S50000x128_S128x128_S50000x128_1_0_0_1_n_n none (H) (W1)) (broadcastInDim S50000x128 ![0, 1] bcast_S1x128_S50000x128_0_1 (broadcastInDim S1x128 ![1] bcast_S128_S1x128_1 (b1)))) (W2)) (broadcastInDim S50000x64 ![0, 1] bcast_S1x64_S50000x64_0_1 (broadcastInDim S1x64 ![1] bcast_S64_S1x64_1 (b2)))

/-- Every row less its maximum. -/
def shifted (Y : (⟨S50000x64, .f32⟩ : BufTy).Contents (Elt F)) : (⟨S50000x64, .f32⟩ : BufTy).Contents (Elt F) :=
  subf (Y) (broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (Host.reduce FloatOps.maximumf (Y) (constant S_ .f32 0xFF800000#32) reducesTo_S50000x64_S50000_d1 h_S_))))

/-- The logarithm of the softmax of every row. -/
def logSoftmax (Y : (⟨S50000x64, .f32⟩ : BufTy).Contents (Elt F)) : (⟨S50000x64, .f32⟩ : BufTy).Contents (Elt F) :=
  subf (shifted Y) (broadcastInDim S50000x64 ![0, 1] bcast_S50000x1_S50000x64_0_1 (Host.log (broadcastInDim S50000x1 ![0] bcast_S50000_S50000x1_0 (Host.reduceAdd (Host.exp (shifted Y)) (constant S_ .f32 0x00000000#32) reducesTo_S50000x64_S50000_d1 h_S_))))

/-- The head. -/
def head (H : (⟨S50000x128, .f32⟩ : BufTy).Contents (Elt F)) (W1 : (⟨S128x128, .f32⟩ : BufTy).Contents (Elt F)) (b1 : (⟨S128, .f32⟩ : BufTy).Contents (Elt F)) (W2 : (⟨S128x64, .f32⟩ : BufTy).Contents (Elt F)) (b2 : (⟨S64, .f32⟩ : BufTy).Contents (Elt F)) : (⟨S50000x64, .f32⟩ : BufTy).Contents (Elt F) :=
  logSoftmax (logits H W1 b1 W2 b2)

/-- One layer in the reference's arrangement. -/
def layer (X : (⟨S50000x128, .f32⟩ : BufTy).Contents (Elt F)) (Wl : (⟨S128x128, .f32⟩ : BufTy).Contents (Elt F)) (bl : (⟨S128, .f32⟩ : BufTy).Contents (Elt F)) (Wa : (⟨S256x128, .f32⟩ : BufTy).Contents (Elt F)) (ba : (⟨S128, .f32⟩ : BufTy).Contents (Elt F)) (e : (⟨S2x800000, .i32⟩ : BufTy).Contents (Elt F)) : (⟨S50000x128, .f32⟩ : BufTy).Contents (Elt F) :=
  mixUnit X (meanDiv (lin X Wl bl) e) Wa ba

end Cert.Stages

end
-- ==== Proof.Net.lean ====
/-
  The whole network as one function of the argument arrays: three layers, each fed the previous one's rows, then the head.
-/
import proofs.«137334_j6425271075235_1_alg».proof.Proof.Stages

noncomputable section

namespace Cert.Stages

open Idealize.ShloMosaic Cert.ReferenceIdeal

variable {F : FTy → Type} [FloatOps F]

/-- Three layers and the head, composed. -/
def net (x0 : (⟨S50000x128, .f32⟩ : BufTy).Contents (Elt F)) (x1 : (⟨S128x128, .f32⟩ : BufTy).Contents (Elt F)) (x2 : (⟨S128, .f32⟩ : BufTy).Contents (Elt F)) (x3 : (⟨S256x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S256x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S128x64, .f32⟩ : BufTy).Contents (Elt F)) (x16 : (⟨S64, .f32⟩ : BufTy).Contents (Elt F)) (x17 : (⟨S2x800000, .i32⟩ : BufTy).Contents (Elt F)) : (⟨S50000x64, .f32⟩ : BufTy).Contents (Elt F) :=
  head (layer (layer (layer x0 x1 x2 x3 x4 x17) x5 x6 x7 x8 x17) x9 x10 x11 x12 x17) x13 x14 x15 x16

end Cert.Stages

end
-- ==== Proof.RefRun.lean ====
/-
  The reference program's run, read back: its @main is a straight line of host operations, so every weakly fair
  execution terminates with each buffer at the fold of the operations over the launch memory; the result buffer then
  holds the three layers and the head, composed, of the argument arrays (`Stages.net`), and no operation writes an
  argument.
-/
import proofs.«137334_j6425271075235_1_alg».proof.Proof.Gen.ReferenceIdeal
import proofs.«137334_j6425271075235_1_alg».proof.Proof.Net
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 186 operations, in order (a called function's operations stand in its call's place, spelt `TRef.…`). -/
abbrev ops : List (HloOp τ sig (Elt F)) :=
  [ unary main_arg17 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg17 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg1 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v7) (TRef.of (T := ⟨S50000x128, .f32⟩) main_call0_v0) (TRef.of (T := ⟨S50000x128, .f32⟩) main_v8) maximumf,
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v1 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v8 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v16 (broadcastInDim S50000x128 ![] bcast_S_S50000x128 : (⟨S_, .f32⟩ : BufTy).Contents (Elt F) → (⟨S50000x128, .f32⟩ : BufTy).Contents (Elt F)),
    unary main_v3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v19 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v20 (broadcastInDim S50000 ![] bcast_S_S50000 : (⟨S_, .f32⟩ : BufTy).Contents (Elt F) → (⟨S50000, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v23 (broadcastInDim S50000 ![] bcast_S_S50000 : (⟨S_, .f32⟩ : BufTy).Contents (Elt F) → (⟨S50000, .f32⟩ : BufTy).Contents (Elt F)),
    binary main_v22 main_v23 main_v24 (maximumf : (⟨S50000, .f32⟩ : BufTy).Contents (Elt F) → (⟨S50000, .f32⟩ : BufTy).Contents (Elt F) → (⟨S50000, .f32⟩ : BufTy).Contents (Elt F)),
    unary main_v24 main_v25 (broadcastInDim S50000x1 ![0] bcast_S50000_S50000x1_0 : (⟨S50000, .f32⟩ : BufTy).Contents (Elt F) → (⟨S50000x1, .f32⟩ : BufTy).Contents (Elt F)),
    unary main_v25 main_v26 (broadcastInDim S50000x128 ![0, 1] bcast_S50000x1_S50000x128_0_1 : (⟨S50000x1, .f32⟩ : BufTy).Contents (Elt F) → (⟨S50000x128, .f32⟩ : BufTy).Contents (Elt F)),
    binary main_v18 main_v26 main_v27 (Host.divf : (⟨S50000x128, .f32⟩ : BufTy).Contents (Elt F) → (⟨S50000x128, .f32⟩ : BufTy).Contents (Elt F) → (⟨S50000x128, .f32⟩ : BufTy).Contents (Elt F)),
    binary main_arg0 main_v27 main_v28 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v28 main_arg3 main_v29 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v32) (TRef.of (T := ⟨S50000x128, .f32⟩) main_call1_v0) (TRef.of (T := ⟨S50000x128, .f32⟩) main_v33) maximumf,
    TRef.binary (TRef.of (T := ⟨S50000x128, .f32⟩) main_v33) (TRef.of (T := ⟨S50000x128, .f32⟩) main_v33) (TRef.of (T := ⟨S50000x128, .f32⟩) main_call2_v0) mulf,
    TRef.nullary (TRef.of (T := ⟨S_, .f32⟩) main_call2_cst) (constant S_ .f32 0x00000000#32),
    TRef.binary (TRef.of (T := ⟨S50000x128, .f32⟩) main_call2_v0) (TRef.of (T := ⟨S_, .f32⟩) main_call2_cst) (TRef.of (T := ⟨S50000, .f32⟩) main_call2_v1) (fun x v => Host.reduceAdd x v reducesTo_S50000x128_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v34) Host.sqrt,
    nullary main_cst_4 (constant S_ .f32 0x2B8CBCCC#32),
    unary main_cst_4 main_v35 (broadcastInDim S50000x1 ![] bcast_S_S50000x1 : (⟨S_, .f32⟩ : BufTy).Contents (Elt F) → (⟨S50000x1, .f32⟩ : BufTy).Contents (Elt F)),
    binary main_v34 main_v35 main_v36 (maximumf : (⟨S50000x1, .f32⟩ : BufTy).Contents (Elt F) → (⟨S50000x1, .f32⟩ : BufTy).Contents (Elt F) → (⟨S50000x1, .f32⟩ : BufTy).Contents (Elt F)),
    unary main_v36 main_v37 (broadcastInDim S50000x128 ![0, 1] bcast_S50000x1_S50000x128_0_1 : (⟨S50000x1, .f32⟩ : BufTy).Contents (Elt F) → (⟨S50000x128, .f32⟩ : BufTy).Contents (Elt F)),
    binary main_v33 main_v37 main_v38 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v38) (TRef.of (T := ⟨S50000x128, .f32⟩) main_call3_v0) (TRef.of (T := ⟨S50000x128, .f32⟩) main_v39) maximumf,
    binary main_v39 main_arg5 main_v40 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v43) (TRef.of (T := ⟨S50000x128, .f32⟩) main_call4_v0) (TRef.of (T := ⟨S50000x128, .f32⟩) main_v44) maximumf,
    nullary main_c_5 (constantI S_ 32 0#32),
    unary main_c_5 main_v45 (broadcastInDim S800000 ![] bcast_S_S800000 : (⟨S_, .i32⟩ : BufTy).Contents (Elt F) → (⟨S800000, .i32⟩ : BufTy).Contents (Elt F)),
    binary main_v1 main_v45 main_v46 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v47 (broadcastInDim S800000 ![] bcast_S_S800000 : (⟨S_, .i32⟩ : BufTy).Contents (Elt F) → (⟨S800000, .i32⟩ : BufTy).Contents (Elt F)),
    binary main_v1 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    binary main_v44 main_v50 main_v51 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_7 (constant S_ .f32 0x00000000#32),
    unary main_cst_7 main_v52 (broadcastInDim S50000x128 ![] bcast_S_S50000x128 : (⟨S_, .f32⟩ : BufTy).Contents (Elt F) → (⟨S50000x128, .f32⟩ : BufTy).Contents (Elt F)),
    unary main_v3 main_v53 (broadcastInDim S800000x1 ![0] bcast_S800000_S800000x1_0 : (⟨S800000, .i32⟩ : BufTy).Contents (Elt F) → (⟨S800000x1, .i32⟩ : BufTy).Contents (Elt F)),
    ternary main_v52 main_v53 main_v51 main_v54 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_8 (constant S_ .f32 0x3F800000#32),
    unary main_cst_8 main_v55 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v56 (broadcastInDim S50000 ![] bcast_S_S50000 : (⟨S_, .f32⟩ : BufTy).Contents (Elt F) → (⟨S50000, .f32⟩ : BufTy).Contents (Elt F)),
    unary main_v3 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v59 (broadcastInDim S50000 ![] bcast_S_S50000 : (⟨S_, .f32⟩ : BufTy).Contents (Elt F) → (⟨S50000, .f32⟩ : BufTy).Contents (Elt F)),
    binary main_v58 main_v59 main_v60 (maximumf : (⟨S50000, .f32⟩ : BufTy).Contents (Elt F) → (⟨S50000, .f32⟩ : BufTy).Contents (Elt F) → (⟨S50000, .f32⟩ : BufTy).Contents (Elt F)),
    unary main_v60 main_v61 (broadcastInDim S50000x1 ![0] bcast_S50000_S50000x1_0 : (⟨S50000, .f32⟩ : BufTy).Contents (Elt F) → (⟨S50000x1, .f32⟩ : BufTy).Contents (Elt F)),
    unary main_v61 main_v62 (broadcastInDim S50000x128 ![0, 1] bcast_S50000x1_S50000x128_0_1 : (⟨S50000x1, .f32⟩ : BufTy).Contents (Elt F) → (⟨S50000x128, .f32⟩ : BufTy).Contents (Elt F)),
    binary main_v54 main_v62 main_v63 (Host.divf : (⟨S50000x128, .f32⟩ : BufTy).Contents (Elt F) → (⟨S50000x128, .f32⟩ : BufTy).Contents (Elt F) → (⟨S50000x128, .f32⟩ : BufTy).Contents (Elt F)),
    binary main_v39 main_v63 main_v64 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v64 main_arg7 main_v65 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg8 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v68) (TRef.of (T := ⟨S50000x128, .f32⟩) main_call5_v0) (TRef.of (T := ⟨S50000x128, .f32⟩) main_v69) maximumf,
    TRef.binary (TRef.of (T := ⟨S50000x128, .f32⟩) main_v69) (TRef.of (T := ⟨S50000x128, .f32⟩) main_v69) (TRef.of (T := ⟨S50000x128, .f32⟩) main_call6_v0) mulf,
    TRef.nullary (TRef.of (T := ⟨S_, .f32⟩) main_call6_cst) (constant S_ .f32 0x00000000#32),
    TRef.binary (TRef.of (T := ⟨S50000x128, .f32⟩) main_call6_v0) (TRef.of (T := ⟨S_, .f32⟩) main_call6_cst) (TRef.of (T := ⟨S50000, .f32⟩) main_call6_v1) (fun x v => Host.reduceAdd x v reducesTo_S50000x128_S50000_d1 h_S_),
    TRef.unary (TRef.of (T := ⟨S50000, .f32⟩) main_call6_v1) (TRef.of (T := ⟨S50000x1, .f32⟩) main_call6_v2) (broadcastInDim S50000x1 ![0] bcast_S50000_S50000x1_0),
    TRef.unary (TRef.of (T := ⟨S50000x1, .f32⟩) main_call6_v2) (TRef.of (T := ⟨S50000x1, .f32⟩) main_v70) Host.sqrt,
    nullary main_cst_11 (constant S_ .f32 0x2B8CBCCC#32),
    unary main_cst_11 main_v71 (broadcastInDim S50000x1 ![] bcast_S_S50000x1 : (⟨S_, .f32⟩ : BufTy).Contents (Elt F) → (⟨S50000x1, .f32⟩ : BufTy).Contents (Elt F)),
    binary main_v70 main_v71 main_v72 (maximumf : (⟨S50000x1, .f32⟩ : BufTy).Contents (Elt F) → (⟨S50000x1, .f32⟩ : BufTy).Contents (Elt F) → (⟨S50000x1, .f32⟩ : BufTy).Contents (Elt F)),
    unary main_v72 main_v73 (broadcastInDim S50000x128 ![0, 1] bcast_S50000x1_S50000x128_0_1 : (⟨S50000x1, .f32⟩ : BufTy).Contents (Elt F) → (⟨S50000x128, .f32⟩ : BufTy).Contents (Elt F)),
    binary main_v69 main_v73 main_v74 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v74) (TRef.of (T := ⟨S50000x128, .f32⟩) main_call7_v0) (TRef.of (T := ⟨S50000x128, .f32⟩) main_v75) maximumf,
    binary main_v75 main_arg9 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v79) (TRef.of (T := ⟨S50000x128, .f32⟩) main_call8_v0) (TRef.of (T := ⟨S50000x128, .f32⟩) main_v80) maximumf,
    nullary main_c_12 (constantI S_ 32 0#32),
    unary main_c_12 main_v81 (broadcastInDim S800000 ![] bcast_S_S800000 : (⟨S_, .i32⟩ : BufTy).Contents (Elt F) → (⟨S800000, .i32⟩ : BufTy).Contents (Elt F)),
    binary main_v1 main_v81 main_v82 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v83 (broadcastInDim S800000 ![] bcast_S_S800000 : (⟨S_, .i32⟩ : BufTy).Contents (Elt F) → (⟨S800000, .i32⟩ : BufTy).Contents (Elt F)),
    binary main_v1 main_v83 main_v84 (addi : (⟨S800000, .i32⟩ : BufTy).Contents (Elt F) → (⟨S800000, .i32⟩ : BufTy).Contents (Elt F) → (⟨S800000, .i32⟩ : BufTy).Contents (Elt F)),
    ternary main_v82 main_v84 main_v1 main_v85 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v85 main_v86 (broadcastInDim S800000x1 ![0] bcast_S800000_S800000x1_0 : (⟨S800000, .i32⟩ : BufTy).Contents (Elt F) → (⟨S800000x1, .i32⟩ : BufTy).Contents (Elt F)),
    binary main_v80 main_v86 main_v87 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_14 (constant S_ .f32 0x00000000#32),
    unary main_cst_14 main_v88 (broadcastInDim S50000x128 ![] bcast_S_S50000x128 : (⟨S_, .f32⟩ : BufTy).Contents (Elt F) → (⟨S50000x128, .f32⟩ : BufTy).Contents (Elt F)),
    unary main_v3 main_v89 (broadcastInDim S800000x1 ![0] bcast_S800000_S800000x1_0 : (⟨S800000, .i32⟩ : BufTy).Contents (Elt F) → (⟨S800000x1, .i32⟩ : BufTy).Contents (Elt F)),
    ternary main_v88 main_v89 main_v87 main_v90 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_15 (constant S_ .f32 0x3F800000#32),
    unary main_cst_15 main_v91 (broadcastInDim S800000 ![] bcast_S_S800000 : (⟨S_, .f32⟩ : BufTy).Contents (Elt F) → (⟨S800000, .f32⟩ : BufTy).Contents (Elt F)),
    nullary main_cst_16 (constant S_ .f32 0x00000000#32),
    unary main_cst_16 main_v92 (broadcastInDim S50000 ![] bcast_S_S50000 : (⟨S_, .f32⟩ : BufTy).Contents (Elt F) → (⟨S50000, .f32⟩ : BufTy).Contents (Elt F)),
    unary main_v3 main_v93 (broadcastInDim S800000x1 ![0] bcast_S800000_S800000x1_0 : (⟨S800000, .i32⟩ : BufTy).Contents (Elt F) → (⟨S800000x1, .i32⟩ : BufTy).Contents (Elt F)),
    ternary main_v92 main_v93 main_v91 main_v94 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v95 (broadcastInDim S50000 ![] bcast_S_S50000 : (⟨S_, .f32⟩ : BufTy).Contents (Elt F) → (⟨S50000, .f32⟩ : BufTy).Contents (Elt F)),
    binary main_v94 main_v95 main_v96 (maximumf : (⟨S50000, .f32⟩ : BufTy).Contents (Elt F) → (⟨S50000, .f32⟩ : BufTy).Contents (Elt F) → (⟨S50000, .f32⟩ : BufTy).Contents (Elt F)),
    unary main_v96 main_v97 (broadcastInDim S50000x1 ![0] bcast_S50000_S50000x1_0 : (⟨S50000, .f32⟩ : BufTy).Contents (Elt F) → (⟨S50000x1, .f32⟩ : BufTy).Contents (Elt F)),
    unary main_v97 main_v98 (broadcastInDim S50000x128 ![0, 1] bcast_S50000x1_S50000x128_0_1 : (⟨S50000x1, .f32⟩ : BufTy).Contents (Elt F) → (⟨S50000x128, .f32⟩ : BufTy).Contents (Elt F)),
    binary main_v90 main_v98 main_v99 (Host.divf : (⟨S50000x128, .f32⟩ : BufTy).Contents (Elt F) → (⟨S50000x128, .f32⟩ : BufTy).Contents (Elt F) → (⟨S50000x128, .f32⟩ : BufTy).Contents (Elt F)),
    binary main_v75 main_v99 main_v100 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v100 main_arg11 main_v101 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg12 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v101 main_v103 main_v104 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v104) (TRef.of (T := ⟨S50000x128, .f32⟩) main_call9_v0) (TRef.of (T := ⟨S50000x128, .f32⟩) main_v105) maximumf,
    TRef.binary (TRef.of (T := ⟨S50000x128, .f32⟩) main_v105) (TRef.of (T := ⟨S50000x128, .f32⟩) main_v105) (TRef.of (T := ⟨S50000x128, .f32⟩) main_call10_v0) mulf,
    TRef.nullary (TRef.of (T := ⟨S_, .f32⟩) main_call10_cst) (constant S_ .f32 0x00000000#32),
    TRef.binary (TRef.of (T := ⟨S50000x128, .f32⟩) main_call10_v0) (TRef.of (T := ⟨S_, .f32⟩) main_call10_cst) (TRef.of (T := ⟨S50000, .f32⟩) main_call10_v1) (fun x v => Host.reduceAdd x v reducesTo_S50000x128_S50000_d1 h_S_),
    TRef.unary (TRef.of (T := ⟨S50000, .f32⟩) main_call10_v1) (TRef.of (T := ⟨S50000x1, .f32⟩) main_call10_v2) (broadcastInDim S50000x1 ![0] bcast_S50000_S50000x1_0),
    TRef.unary (TRef.of (T := ⟨S50000x1, .f32⟩) main_call10_v2) (TRef.of (T := ⟨S50000x1, .f32⟩) main_v106) Host.sqrt,
    nullary main_cst_18 (constant S_ .f32 0x2B8CBCCC#32),
    unary main_cst_18 main_v107 (broadcastInDim S50000x1 ![] bcast_S_S50000x1 : (⟨S_, .f32⟩ : BufTy).Contents (Elt F) → (⟨S50000x1, .f32⟩ : BufTy).Contents (Elt F)),
    binary main_v106 main_v107 main_v108 (maximumf : (⟨S50000x1, .f32⟩ : BufTy).Contents (Elt F) → (⟨S50000x1, .f32⟩ : BufTy).Contents (Elt F) → (⟨S50000x1, .f32⟩ : BufTy).Contents (Elt F)),
    unary main_v108 main_v109 (broadcastInDim S50000x128 ![0, 1] bcast_S50000x1_S50000x128_0_1 : (⟨S50000x1, .f32⟩ : BufTy).Contents (Elt F) → (⟨S50000x128, .f32⟩ : BufTy).Contents (Elt F)),
    binary main_v105 main_v109 main_v110 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v110) (TRef.of (T := ⟨S50000x128, .f32⟩) main_call11_v0) (TRef.of (T := ⟨S50000x128, .f32⟩) main_v111) maximumf,
    binary main_v111 main_arg13 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v112 main_v114 main_v115 (addf : (⟨S50000x128, .f32⟩ : BufTy).Contents (Elt F) → (⟨S50000x128, .f32⟩ : BufTy).Contents (Elt F) → (⟨S50000x128, .f32⟩ : BufTy).Contents (Elt F)),
    binary main_v115 main_arg15 main_v116 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg16 main_v117 (broadcastInDim S1x64 ![1] bcast_S64_S1x64_1 : (⟨S64, .f32⟩ : BufTy).Contents (Elt F) → (⟨S1x64, .f32⟩ : BufTy).Contents (Elt F)),
    unary main_v117 main_v118 (broadcastInDim S50000x64 ![0, 1] bcast_S1x64_S50000x64_0_1 : (⟨S1x64, .f32⟩ : BufTy).Contents (Elt F) → (⟨S50000x64, .f32⟩ : BufTy).Contents (Elt F)),
    binary main_v116 main_v118 main_v119 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call12_cst) (constant S_ .f32 0xFF800000#32),
    TRef.binary (TRef.of (T := ⟨S50000x64, .f32⟩) main_v119) (TRef.of (T := ⟨S_, .f32⟩) main_call12_cst) (TRef.of (T := ⟨S50000, .f32⟩) main_call12_v0) (fun x v => Host.reduce FloatOps.maximumf x v reducesTo_S50000x64_S50000_d1 h_S_),
    TRef.nullary (TRef.of (T := ⟨S_, .f32⟩) main_call12_cst_0) (constant S_ .f32 0xFF800000#32),
    TRef.unary (TRef.of (T := ⟨S_, .f32⟩) main_call12_cst_0) (TRef.of (T := ⟨S50000, .f32⟩) main_call12_v1) (broadcastInDim S50000 ![] bcast_S_S50000),
    TRef.binary (TRef.of (T := ⟨S50000, .f32⟩) main_call12_v1) (TRef.of (T := ⟨S50000, .f32⟩) main_call12_v0) (TRef.of (T := ⟨S50000, .f32⟩) main_call12_v2) maximumf,
    TRef.unary (TRef.of (T := ⟨S50000, .f32⟩) main_call12_v2) (TRef.of (T := ⟨S50000x1, .f32⟩) main_call12_v3) (broadcastInDim S50000x1 ![0] bcast_S50000_S50000x1_0),
    TRef.unary (TRef.of (T := ⟨S50000x1, .f32⟩) main_call12_v3) (TRef.of (T := ⟨S50000x64, .f32⟩) main_call12_v4) (broadcastInDim S50000x64 ![0, 1] bcast_S50000x1_S50000x64_0_1),
    TRef.binary (TRef.of (T := ⟨S50000x64, .f32⟩) main_v119) (TRef.of (T := ⟨S50000x64, .f32⟩) main_call12_v4) (TRef.of (T := ⟨S50000x64, .f32⟩) main_call12_v5) subf,
    TRef.unary (TRef.of (T := ⟨S50000x64, .f32⟩) main_call12_v5) (TRef.of (T := ⟨S50000x64, .f32⟩) main_call12_v6) Host.exp,
    TRef.nullary (TRef.of (T := ⟨S_, .f32⟩) main_call12_cst_1) (constant S_ .f32 0x00000000#32),
    TRef.binary (TRef.of (T := ⟨S50000x64, .f32⟩) main_call12_v6) (TRef.of (T := ⟨S_, .f32⟩) main_call12_cst_1) (TRef.of (T := ⟨S50000, .f32⟩) main_call12_v7) (fun x v => Host.reduceAdd x v reducesTo_S50000x64_S50000_d1 h_S_),
    TRef.unary (TRef.of (T := ⟨S50000, .f32⟩) main_call12_v7) (TRef.of (T := ⟨S50000x1, .f32⟩) main_call12_v8) (broadcastInDim S50000x1 ![0] bcast_S50000_S50000x1_0),
    TRef.unary (TRef.of (T := ⟨S50000x1, .f32⟩) main_call12_v8) (TRef.of (T := ⟨S50000x1, .f32⟩) main_call12_v9) Host.log,
    TRef.unary (TRef.of (T := ⟨S50000x1, .f32⟩) main_call12_v9) (TRef.of (T := ⟨S50000x64, .f32⟩) main_call12_v10) (broadcastInDim S50000x64 ![0, 1] bcast_S50000x1_S50000x64_0_1),
    TRef.binary (TRef.of (T := ⟨S50000x64, .f32⟩) main_call12_v5) (TRef.of (T := ⟨S50000x64, .f32⟩) main_call12_v10) (TRef.of (T := ⟨S50000x64, .f32⟩) main_v120) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The buffers the operations write, in order: every one a value of @main or of a called function, never an argument. -/
abbrev written : List (Ref sig .tc) :=
  [main_v0, main_v1, main_v2, main_v3, main_v4, main_v5, main_v6, main_v7, main_call0_cst, main_call0_v0, main_v8, main_c,
    main_v9, main_v10, main_c_0, main_v11, main_v12, main_v13, main_v14, main_v15, main_cst, main_v16, main_v17, main_v18,
    main_cst_1, main_v19, main_cst_2, main_v20, main_v21, main_v22, main_cst_3, main_v23, main_v24, main_v25, main_v26, main_v27,
    main_v28, main_v29, main_v30, main_v31, main_v32, main_call1_cst, main_call1_v0, main_v33, main_call2_v0, main_call2_cst, main_call2_v1, main_call2_v2,
    main_v34, main_cst_4, main_v35, main_v36, main_v37, main_v38, main_call3_cst, main_call3_v0, main_v39, main_v40, main_v41, main_v42,
    main_v43, main_call4_cst, main_call4_v0, main_v44, main_c_5, main_v45, main_v46, main_c_6, main_v47, main_v48, main_v49, main_v50,
    main_v51, main_cst_7, main_v52, main_v53, main_v54, main_cst_8, main_v55, main_cst_9, main_v56, main_v57, main_v58, main_cst_10,
    main_v59, main_v60, main_v61, main_v62, main_v63, main_v64, main_v65, main_v66, main_v67, main_v68, main_call5_cst, main_call5_v0,
    main_v69, main_call6_v0, main_call6_cst, main_call6_v1, main_call6_v2, main_v70, main_cst_11, main_v71, main_v72, main_v73, main_v74, main_call7_cst,
    main_call7_v0, main_v75, main_v76, main_v77, main_v78, main_v79, main_call8_cst, main_call8_v0, main_v80, main_c_12, main_v81, main_v82,
    main_c_13, main_v83, main_v84, main_v85, main_v86, main_v87, main_cst_14, main_v88, main_v89, main_v90, main_cst_15, main_v91,
    main_cst_16, main_v92, main_v93, main_v94, main_cst_17, main_v95, main_v96, main_v97, main_v98, main_v99, main_v100, main_v101,
    main_v102, main_v103, main_v104, main_call9_cst, main_call9_v0, main_v105, main_call10_v0, main_call10_cst, main_call10_v1, main_call10_v2, main_v106, main_cst_18,
    main_v107, main_v108, main_v109, main_v110, main_call11_cst, main_call11_v0, main_v111, main_v112, main_v113, main_v114, main_v115, main_v116,
    main_v117, main_v118, main_v119, main_call12_cst, main_call12_v0, main_call12_cst_0, main_call12_v1, main_call12_v2, main_call12_v3, main_call12_v4, main_call12_v5, main_call12_v6,
    main_call12_cst_1, main_call12_v7, main_call12_v8, main_call12_v9, main_call12_v10, main_v120]

/-- An operation writing one buffer of the list writes inside the list. -/
theorem sub_of_mem {op : HloOp τ sig (Elt F)} {y : Ref sig .tc} (hw : op.writes = {Proc.devRef .tc y}) (hy : y ∈ written) :
    op.writes ⊆ (written.map (Proc.devRef (τ := τ) .tc)).toFinset := by
  rw [hw]
  exact Finset.singleton_subset_iff.mpr (List.mem_toFinset.mpr (List.mem_map_of_mem hy))

set_option maxRecDepth 8192 in
set_option maxHeartbeats 4000000 in
/-- Every operation writes inside the list. -/
theorem ops_writes : (ops : List (HloOp τ sig (Elt F))).Forall fun op => op.writes ⊆ (written.map (Proc.devRef (τ := τ) .tc)).toFinset :=
  ⟨sub_of_mem (y := main_v0) rfl (by decide), sub_of_mem (y := main_v1) rfl (by decide), sub_of_mem (y := main_v2) rfl (by decide), sub_of_mem (y := main_v3) rfl (by decide),
    sub_of_mem (y := main_v4) rfl (by decide), sub_of_mem (y := main_v5) rfl (by decide), sub_of_mem (y := main_v6) rfl (by decide), sub_of_mem (y := main_v7) rfl (by decide),
    sub_of_mem (y := main_call0_cst) rfl (by decide), sub_of_mem (y := main_call0_v0) rfl (by decide), sub_of_mem (y := main_v8) rfl (by decide), sub_of_mem (y := main_c) rfl (by decide),
    sub_of_mem (y := main_v9) rfl (by decide), sub_of_mem (y := main_v10) rfl (by decide), sub_of_mem (y := main_c_0) rfl (by decide), sub_of_mem (y := main_v11) rfl (by decide),
    sub_of_mem (y := main_v12) rfl (by decide), sub_of_mem (y := main_v13) rfl (by decide), sub_of_mem (y := main_v14) rfl (by decide), sub_of_mem (y := main_v15) rfl (by decide),
    sub_of_mem (y := main_cst) rfl (by decide), sub_of_mem (y := main_v16) rfl (by decide), sub_of_mem (y := main_v17) rfl (by decide), sub_of_mem (y := main_v18) rfl (by decide),
    sub_of_mem (y := main_cst_1) rfl (by decide), sub_of_mem (y := main_v19) rfl (by decide), sub_of_mem (y := main_cst_2) rfl (by decide), sub_of_mem (y := main_v20) rfl (by decide),
    sub_of_mem (y := main_v21) rfl (by decide), sub_of_mem (y := main_v22) rfl (by decide), sub_of_mem (y := main_cst_3) rfl (by decide), sub_of_mem (y := main_v23) rfl (by decide),
    sub_of_mem (y := main_v24) rfl (by decide), sub_of_mem (y := main_v25) rfl (by decide), sub_of_mem (y := main_v26) rfl (by decide), sub_of_mem (y := main_v27) rfl (by decide),
    sub_of_mem (y := main_v28) rfl (by decide), sub_of_mem (y := main_v29) rfl (by decide), sub_of_mem (y := main_v30) rfl (by decide), sub_of_mem (y := main_v31) rfl (by decide),
    sub_of_mem (y := main_v32) rfl (by decide), sub_of_mem (y := main_call1_cst) rfl (by decide), sub_of_mem (y := main_call1_v0) rfl (by decide), sub_of_mem (y := main_v33) rfl (by decide),
    sub_of_mem (y := main_call2_v0) rfl (by decide), sub_of_mem (y := main_call2_cst) rfl (by decide), sub_of_mem (y := main_call2_v1) rfl (by decide), sub_of_mem (y := main_call2_v2) rfl (by decide),
    sub_of_mem (y := main_v34) rfl (by decide), sub_of_mem (y := main_cst_4) rfl (by decide), sub_of_mem (y := main_v35) rfl (by decide), sub_of_mem (y := main_v36) rfl (by decide),
    sub_of_mem (y := main_v37) rfl (by decide), sub_of_mem (y := main_v38) rfl (by decide), sub_of_mem (y := main_call3_cst) rfl (by decide), sub_of_mem (y := main_call3_v0) rfl (by decide),
    sub_of_mem (y := main_v39) rfl (by decide), sub_of_mem (y := main_v40) rfl (by decide), sub_of_mem (y := main_v41) rfl (by decide), sub_of_mem (y := main_v42) rfl (by decide),
    sub_of_mem (y := main_v43) rfl (by decide), sub_of_mem (y := main_call4_cst) rfl (by decide), sub_of_mem (y := main_call4_v0) rfl (by decide), sub_of_mem (y := main_v44) rfl (by decide),
    sub_of_mem (y := main_c_5) rfl (by decide), sub_of_mem (y := main_v45) rfl (by decide), sub_of_mem (y := main_v46) rfl (by decide), sub_of_mem (y := main_c_6) rfl (by decide),
    sub_of_mem (y := main_v47) rfl (by decide), sub_of_mem (y := main_v48) rfl (by decide), sub_of_mem (y := main_v49) rfl (by decide), sub_of_mem (y := main_v50) rfl (by decide),
    sub_of_mem (y := main_v51) rfl (by decide), sub_of_mem (y := main_cst_7) rfl (by decide), sub_of_mem (y := main_v52) rfl (by decide), sub_of_mem (y := main_v53) rfl (by decide),
    sub_of_mem (y := main_v54) rfl (by decide), sub_of_mem (y := main_cst_8) rfl (by decide), sub_of_mem (y := main_v55) rfl (by decide), sub_of_mem (y := main_cst_9) rfl (by decide),
    sub_of_mem (y := main_v56) rfl (by decide), sub_of_mem (y := main_v57) rfl (by decide), sub_of_mem (y := main_v58) rfl (by decide), sub_of_mem (y := main_cst_10) rfl (by decide),
    sub_of_mem (y := main_v59) rfl (by decide), sub_of_mem (y := main_v60) rfl (by decide), sub_of_mem (y := main_v61) rfl (by decide), sub_of_mem (y := main_v62) rfl (by decide),
    sub_of_mem (y := main_v63) rfl (by decide), sub_of_mem (y := main_v64) rfl (by decide), sub_of_mem (y := main_v65) rfl (by decide), sub_of_mem (y := main_v66) rfl (by decide),
    sub_of_mem (y := main_v67) rfl (by decide), sub_of_mem (y := main_v68) rfl (by decide), sub_of_mem (y := main_call5_cst) rfl (by decide), sub_of_mem (y := main_call5_v0) rfl (by decide),
    sub_of_mem (y := main_v69) rfl (by decide), sub_of_mem (y := main_call6_v0) rfl (by decide), sub_of_mem (y := main_call6_cst) rfl (by decide), sub_of_mem (y := main_call6_v1) rfl (by decide),
    sub_of_mem (y := main_call6_v2) rfl (by decide), sub_of_mem (y := main_v70) rfl (by decide), sub_of_mem (y := main_cst_11) rfl (by decide), sub_of_mem (y := main_v71) rfl (by decide),
    sub_of_mem (y := main_v72) rfl (by decide), sub_of_mem (y := main_v73) rfl (by decide), sub_of_mem (y := main_v74) rfl (by decide), sub_of_mem (y := main_call7_cst) rfl (by decide),
    sub_of_mem (y := main_call7_v0) rfl (by decide), sub_of_mem (y := main_v75) rfl (by decide), sub_of_mem (y := main_v76) rfl (by decide), sub_of_mem (y := main_v77) rfl (by decide),
    sub_of_mem (y := main_v78) rfl (by decide), sub_of_mem (y := main_v79) rfl (by decide), sub_of_mem (y := main_call8_cst) rfl (by decide), sub_of_mem (y := main_call8_v0) rfl (by decide),
    sub_of_mem (y := main_v80) rfl (by decide), sub_of_mem (y := main_c_12) rfl (by decide), sub_of_mem (y := main_v81) rfl (by decide), sub_of_mem (y := main_v82) rfl (by decide),
    sub_of_mem (y := main_c_13) rfl (by decide), sub_of_mem (y := main_v83) rfl (by decide), sub_of_mem (y := main_v84) rfl (by decide), sub_of_mem (y := main_v85) rfl (by decide),
    sub_of_mem (y := main_v86) rfl (by decide), sub_of_mem (y := main_v87) rfl (by decide), sub_of_mem (y := main_cst_14) rfl (by decide), sub_of_mem (y := main_v88) rfl (by decide),
    sub_of_mem (y := main_v89) rfl (by decide), sub_of_mem (y := main_v90) rfl (by decide), sub_of_mem (y := main_cst_15) rfl (by decide), sub_of_mem (y := main_v91) rfl (by decide),
    sub_of_mem (y := main_cst_16) rfl (by decide), sub_of_mem (y := main_v92) rfl (by decide), sub_of_mem (y := main_v93) rfl (by decide), sub_of_mem (y := main_v94) rfl (by decide),
    sub_of_mem (y := main_cst_17) rfl (by decide), sub_of_mem (y := main_v95) rfl (by decide), sub_of_mem (y := main_v96) rfl (by decide), sub_of_mem (y := main_v97) rfl (by decide),
    sub_of_mem (y := main_v98) rfl (by decide), sub_of_mem (y := main_v99) rfl (by decide), sub_of_mem (y := main_v100) rfl (by decide), sub_of_mem (y := main_v101) rfl (by decide),
    sub_of_mem (y := main_v102) rfl (by decide), sub_of_mem (y := main_v103) rfl (by decide), sub_of_mem (y := main_v104) rfl (by decide), sub_of_mem (y := main_call9_cst) rfl (by decide),
    sub_of_mem (y := main_call9_v0) rfl (by decide), sub_of_mem (y := main_v105) rfl (by decide), sub_of_mem (y := main_call10_v0) rfl (by decide), sub_of_mem (y := main_call10_cst) rfl (by decide),
    sub_of_mem (y := main_call10_v1) rfl (by decide), sub_of_mem (y := main_call10_v2) rfl (by decide), sub_of_mem (y := main_v106) rfl (by decide), sub_of_mem (y := main_cst_18) rfl (by decide),
    sub_of_mem (y := main_v107) rfl (by decide), sub_of_mem (y := main_v108) rfl (by decide), sub_of_mem (y := main_v109) rfl (by decide), sub_of_mem (y := main_v110) rfl (by decide),
    sub_of_mem (y := main_call11_cst) rfl (by decide), sub_of_mem (y := main_call11_v0) rfl (by decide), sub_of_mem (y := main_v111) rfl (by decide), sub_of_mem (y := main_v112) rfl (by decide),
    sub_of_mem (y := main_v113) rfl (by decide), sub_of_mem (y := main_v114) rfl (by decide), sub_of_mem (y := main_v115) rfl (by decide), sub_of_mem (y := main_v116) rfl (by decide),
    sub_of_mem (y := main_v117) rfl (by decide), sub_of_mem (y := main_v118) rfl (by decide), sub_of_mem (y := main_v119) rfl (by decide), sub_of_mem (y := main_call12_cst) rfl (by decide),
    sub_of_mem (y := main_call12_v0) rfl (by decide), sub_of_mem (y := main_call12_cst_0) rfl (by decide), sub_of_mem (y := main_call12_v1) rfl (by decide), sub_of_mem (y := main_call12_v2) rfl (by decide),
    sub_of_mem (y := main_call12_v3) rfl (by decide), sub_of_mem (y := main_call12_v4) rfl (by decide), sub_of_mem (y := main_call12_v5) rfl (by decide), sub_of_mem (y := main_call12_v6) rfl (by decide),
    sub_of_mem (y := main_call12_cst_1) rfl (by decide), sub_of_mem (y := main_call12_v7) rfl (by decide), sub_of_mem (y := main_call12_v8) rfl (by decide), sub_of_mem (y := main_call12_v9) rfl (by decide),
    sub_of_mem (y := main_call12_v10) rfl (by decide), sub_of_mem (y := main_v120) rfl (by decide)⟩

/-! ## The result, read stage by stage

The operation list cut at the ends of the network's stages: each segment's last buffer is its stage of the buffers the
segment reads, whatever the contents it starts from, and a buffer a segment does not write passes through it. -/

/-- Operations 1 to 4 of @main. -/
def seg0 : List (HloOp τ sig (Elt F)) :=
  [ unary main_arg17 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg17 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- Operations 5 to 11 of @main. -/
def seg1 : List (HloOp τ sig (Elt F)) :=
  [ binary main_arg0 main_arg1 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v7) (TRef.of (T := ⟨S50000x128, .f32⟩) main_call0_v0) (TRef.of (T := ⟨S50000x128, .f32⟩) main_v8) maximumf ]

/-- Operations 12 to 36 of @main. -/
def seg2 : List (HloOp τ sig (Elt F)) :=
  [ nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v1 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v8 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v16 (broadcastInDim S50000x128 ![] bcast_S_S50000x128 : (⟨S_, .f32⟩ : BufTy).Contents (Elt F) → (⟨S50000x128, .f32⟩ : BufTy).Contents (Elt F)),
    unary main_v3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v19 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v20 (broadcastInDim S50000 ![] bcast_S_S50000 : (⟨S_, .f32⟩ : BufTy).Contents (Elt F) → (⟨S50000, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v23 (broadcastInDim S50000 ![] bcast_S_S50000 : (⟨S_, .f32⟩ : BufTy).Contents (Elt F) → (⟨S50000, .f32⟩ : BufTy).Contents (Elt F)),
    binary main_v22 main_v23 main_v24 (maximumf : (⟨S50000, .f32⟩ : BufTy).Contents (Elt F) → (⟨S50000, .f32⟩ : BufTy).Contents (Elt F) → (⟨S50000, .f32⟩ : BufTy).Contents (Elt F)),
    unary main_v24 main_v25 (broadcastInDim S50000x1 ![0] bcast_S50000_S50000x1_0 : (⟨S50000, .f32⟩ : BufTy).Contents (Elt F) → (⟨S50000x1, .f32⟩ : BufTy).Contents (Elt F)),
    unary main_v25 main_v26 (broadcastInDim S50000x128 ![0, 1] bcast_S50000x1_S50000x128_0_1 : (⟨S50000x1, .f32⟩ : BufTy).Contents (Elt F) → (⟨S50000x128, .f32⟩ : BufTy).Contents (Elt F)),
    binary main_v18 main_v26 main_v27 (Host.divf : (⟨S50000x128, .f32⟩ : BufTy).Contents (Elt F) → (⟨S50000x128, .f32⟩ : BufTy).Contents (Elt F) → (⟨S50000x128, .f32⟩ : BufTy).Contents (Elt F)) ]

/-- Operations 37 to 57 of @main. -/
def seg3 : List (HloOp τ sig (Elt F)) :=
  [ binary main_arg0 main_v27 main_v28 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v28 main_arg3 main_v29 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v32) (TRef.of (T := ⟨S50000x128, .f32⟩) main_call1_v0) (TRef.of (T := ⟨S50000x128, .f32⟩) main_v33) maximumf,
    TRef.binary (TRef.of (T := ⟨S50000x128, .f32⟩) main_v33) (TRef.of (T := ⟨S50000x128, .f32⟩) main_v33) (TRef.of (T := ⟨S50000x128, .f32⟩) main_call2_v0) mulf,
    TRef.nullary (TRef.of (T := ⟨S_, .f32⟩) main_call2_cst) (constant S_ .f32 0x00000000#32),
    TRef.binary (TRef.of (T := ⟨S50000x128, .f32⟩) main_call2_v0) (TRef.of (T := ⟨S_, .f32⟩) main_call2_cst) (TRef.of (T := ⟨S50000, .f32⟩) main_call2_v1) (fun x v => Host.reduceAdd x v reducesTo_S50000x128_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v34) Host.sqrt,
    nullary main_cst_4 (constant S_ .f32 0x2B8CBCCC#32),
    unary main_cst_4 main_v35 (broadcastInDim S50000x1 ![] bcast_S_S50000x1 : (⟨S_, .f32⟩ : BufTy).Contents (Elt F) → (⟨S50000x1, .f32⟩ : BufTy).Contents (Elt F)),
    binary main_v34 main_v35 main_v36 (maximumf : (⟨S50000x1, .f32⟩ : BufTy).Contents (Elt F) → (⟨S50000x1, .f32⟩ : BufTy).Contents (Elt F) → (⟨S50000x1, .f32⟩ : BufTy).Contents (Elt F)),
    unary main_v36 main_v37 (broadcastInDim S50000x128 ![0, 1] bcast_S50000x1_S50000x128_0_1 : (⟨S50000x1, .f32⟩ : BufTy).Contents (Elt F) → (⟨S50000x128, .f32⟩ : BufTy).Contents (Elt F)),
    binary main_v33 main_v37 main_v38 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v38) (TRef.of (T := ⟨S50000x128, .f32⟩) main_call3_v0) (TRef.of (T := ⟨S50000x128, .f32⟩) main_v39) maximumf ]

/-- Operations 58 to 64 of @main. -/
def seg4 : List (HloOp τ sig (Elt F)) :=
  [ binary main_v39 main_arg5 main_v40 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v43) (TRef.of (T := ⟨S50000x128, .f32⟩) main_call4_v0) (TRef.of (T := ⟨S50000x128, .f32⟩) main_v44) maximumf ]

/-- Operations 65 to 89 of @main. -/
def seg5 : List (HloOp τ sig (Elt F)) :=
  [ nullary main_c_5 (constantI S_ 32 0#32),
    unary main_c_5 main_v45 (broadcastInDim S800000 ![] bcast_S_S800000 : (⟨S_, .i32⟩ : BufTy).Contents (Elt F) → (⟨S800000, .i32⟩ : BufTy).Contents (Elt F)),
    binary main_v1 main_v45 main_v46 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v47 (broadcastInDim S800000 ![] bcast_S_S800000 : (⟨S_, .i32⟩ : BufTy).Contents (Elt F) → (⟨S800000, .i32⟩ : BufTy).Contents (Elt F)),
    binary main_v1 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    binary main_v44 main_v50 main_v51 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_7 (constant S_ .f32 0x00000000#32),
    unary main_cst_7 main_v52 (broadcastInDim S50000x128 ![] bcast_S_S50000x128 : (⟨S_, .f32⟩ : BufTy).Contents (Elt F) → (⟨S50000x128, .f32⟩ : BufTy).Contents (Elt F)),
    unary main_v3 main_v53 (broadcastInDim S800000x1 ![0] bcast_S800000_S800000x1_0 : (⟨S800000, .i32⟩ : BufTy).Contents (Elt F) → (⟨S800000x1, .i32⟩ : BufTy).Contents (Elt F)),
    ternary main_v52 main_v53 main_v51 main_v54 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_8 (constant S_ .f32 0x3F800000#32),
    unary main_cst_8 main_v55 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v56 (broadcastInDim S50000 ![] bcast_S_S50000 : (⟨S_, .f32⟩ : BufTy).Contents (Elt F) → (⟨S50000, .f32⟩ : BufTy).Contents (Elt F)),
    unary main_v3 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v59 (broadcastInDim S50000 ![] bcast_S_S50000 : (⟨S_, .f32⟩ : BufTy).Contents (Elt F) → (⟨S50000, .f32⟩ : BufTy).Contents (Elt F)),
    binary main_v58 main_v59 main_v60 (maximumf : (⟨S50000, .f32⟩ : BufTy).Contents (Elt F) → (⟨S50000, .f32⟩ : BufTy).Contents (Elt F) → (⟨S50000, .f32⟩ : BufTy).Contents (Elt F)),
    unary main_v60 main_v61 (broadcastInDim S50000x1 ![0] bcast_S50000_S50000x1_0 : (⟨S50000, .f32⟩ : BufTy).Contents (Elt F) → (⟨S50000x1, .f32⟩ : BufTy).Contents (Elt F)),
    unary main_v61 main_v62 (broadcastInDim S50000x128 ![0, 1] bcast_S50000x1_S50000x128_0_1 : (⟨S50000x1, .f32⟩ : BufTy).Contents (Elt F) → (⟨S50000x128, .f32⟩ : BufTy).Contents (Elt F)),
    binary main_v54 main_v62 main_v63 (Host.divf : (⟨S50000x128, .f32⟩ : BufTy).Contents (Elt F) → (⟨S50000x128, .f32⟩ : BufTy).Contents (Elt F) → (⟨S50000x128, .f32⟩ : BufTy).Contents (Elt F)) ]

/-- Operations 90 to 110 of @main. -/
def seg6 : List (HloOp τ sig (Elt F)) :=
  [ binary main_v39 main_v63 main_v64 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v64 main_arg7 main_v65 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg8 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v68) (TRef.of (T := ⟨S50000x128, .f32⟩) main_call5_v0) (TRef.of (T := ⟨S50000x128, .f32⟩) main_v69) maximumf,
    TRef.binary (TRef.of (T := ⟨S50000x128, .f32⟩) main_v69) (TRef.of (T := ⟨S50000x128, .f32⟩) main_v69) (TRef.of (T := ⟨S50000x128, .f32⟩) main_call6_v0) mulf,
    TRef.nullary (TRef.of (T := ⟨S_, .f32⟩) main_call6_cst) (constant S_ .f32 0x00000000#32),
    TRef.binary (TRef.of (T := ⟨S50000x128, .f32⟩) main_call6_v0) (TRef.of (T := ⟨S_, .f32⟩) main_call6_cst) (TRef.of (T := ⟨S50000, .f32⟩) main_call6_v1) (fun x v => Host.reduceAdd x v reducesTo_S50000x128_S50000_d1 h_S_),
    TRef.unary (TRef.of (T := ⟨S50000, .f32⟩) main_call6_v1) (TRef.of (T := ⟨S50000x1, .f32⟩) main_call6_v2) (broadcastInDim S50000x1 ![0] bcast_S50000_S50000x1_0),
    TRef.unary (TRef.of (T := ⟨S50000x1, .f32⟩) main_call6_v2) (TRef.of (T := ⟨S50000x1, .f32⟩) main_v70) Host.sqrt,
    nullary main_cst_11 (constant S_ .f32 0x2B8CBCCC#32),
    unary main_cst_11 main_v71 (broadcastInDim S50000x1 ![] bcast_S_S50000x1 : (⟨S_, .f32⟩ : BufTy).Contents (Elt F) → (⟨S50000x1, .f32⟩ : BufTy).Contents (Elt F)),
    binary main_v70 main_v71 main_v72 (maximumf : (⟨S50000x1, .f32⟩ : BufTy).Contents (Elt F) → (⟨S50000x1, .f32⟩ : BufTy).Contents (Elt F) → (⟨S50000x1, .f32⟩ : BufTy).Contents (Elt F)),
    unary main_v72 main_v73 (broadcastInDim S50000x128 ![0, 1] bcast_S50000x1_S50000x128_0_1 : (⟨S50000x1, .f32⟩ : BufTy).Contents (Elt F) → (⟨S50000x128, .f32⟩ : BufTy).Contents (Elt F)),
    binary main_v69 main_v73 main_v74 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v74) (TRef.of (T := ⟨S50000x128, .f32⟩) main_call7_v0) (TRef.of (T := ⟨S50000x128, .f32⟩) main_v75) maximumf ]

/-- Operations 111 to 117 of @main. -/
def seg7 : List (HloOp τ sig (Elt F)) :=
  [ binary main_v75 main_arg9 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v79) (TRef.of (T := ⟨S50000x128, .f32⟩) main_call8_v0) (TRef.of (T := ⟨S50000x128, .f32⟩) main_v80) maximumf ]

/-- Operations 118 to 142 of @main. -/
def seg8 : List (HloOp τ sig (Elt F)) :=
  [ nullary main_c_12 (constantI S_ 32 0#32),
    unary main_c_12 main_v81 (broadcastInDim S800000 ![] bcast_S_S800000 : (⟨S_, .i32⟩ : BufTy).Contents (Elt F) → (⟨S800000, .i32⟩ : BufTy).Contents (Elt F)),
    binary main_v1 main_v81 main_v82 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v83 (broadcastInDim S800000 ![] bcast_S_S800000 : (⟨S_, .i32⟩ : BufTy).Contents (Elt F) → (⟨S800000, .i32⟩ : BufTy).Contents (Elt F)),
    binary main_v1 main_v83 main_v84 (addi : (⟨S800000, .i32⟩ : BufTy).Contents (Elt F) → (⟨S800000, .i32⟩ : BufTy).Contents (Elt F) → (⟨S800000, .i32⟩ : BufTy).Contents (Elt F)),
    ternary main_v82 main_v84 main_v1 main_v85 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v85 main_v86 (broadcastInDim S800000x1 ![0] bcast_S800000_S800000x1_0 : (⟨S800000, .i32⟩ : BufTy).Contents (Elt F) → (⟨S800000x1, .i32⟩ : BufTy).Contents (Elt F)),
    binary main_v80 main_v86 main_v87 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_14 (constant S_ .f32 0x00000000#32),
    unary main_cst_14 main_v88 (broadcastInDim S50000x128 ![] bcast_S_S50000x128 : (⟨S_, .f32⟩ : BufTy).Contents (Elt F) → (⟨S50000x128, .f32⟩ : BufTy).Contents (Elt F)),
    unary main_v3 main_v89 (broadcastInDim S800000x1 ![0] bcast_S800000_S800000x1_0 : (⟨S800000, .i32⟩ : BufTy).Contents (Elt F) → (⟨S800000x1, .i32⟩ : BufTy).Contents (Elt F)),
    ternary main_v88 main_v89 main_v87 main_v90 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_15 (constant S_ .f32 0x3F800000#32),
    unary main_cst_15 main_v91 (broadcastInDim S800000 ![] bcast_S_S800000 : (⟨S_, .f32⟩ : BufTy).Contents (Elt F) → (⟨S800000, .f32⟩ : BufTy).Contents (Elt F)),
    nullary main_cst_16 (constant S_ .f32 0x00000000#32),
    unary main_cst_16 main_v92 (broadcastInDim S50000 ![] bcast_S_S50000 : (⟨S_, .f32⟩ : BufTy).Contents (Elt F) → (⟨S50000, .f32⟩ : BufTy).Contents (Elt F)),
    unary main_v3 main_v93 (broadcastInDim S800000x1 ![0] bcast_S800000_S800000x1_0 : (⟨S800000, .i32⟩ : BufTy).Contents (Elt F) → (⟨S800000x1, .i32⟩ : BufTy).Contents (Elt F)),
    ternary main_v92 main_v93 main_v91 main_v94 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v95 (broadcastInDim S50000 ![] bcast_S_S50000 : (⟨S_, .f32⟩ : BufTy).Contents (Elt F) → (⟨S50000, .f32⟩ : BufTy).Contents (Elt F)),
    binary main_v94 main_v95 main_v96 (maximumf : (⟨S50000, .f32⟩ : BufTy).Contents (Elt F) → (⟨S50000, .f32⟩ : BufTy).Contents (Elt F) → (⟨S50000, .f32⟩ : BufTy).Contents (Elt F)),
    unary main_v96 main_v97 (broadcastInDim S50000x1 ![0] bcast_S50000_S50000x1_0 : (⟨S50000, .f32⟩ : BufTy).Contents (Elt F) → (⟨S50000x1, .f32⟩ : BufTy).Contents (Elt F)),
    unary main_v97 main_v98 (broadcastInDim S50000x128 ![0, 1] bcast_S50000x1_S50000x128_0_1 : (⟨S50000x1, .f32⟩ : BufTy).Contents (Elt F) → (⟨S50000x128, .f32⟩ : BufTy).Contents (Elt F)),
    binary main_v90 main_v98 main_v99 (Host.divf : (⟨S50000x128, .f32⟩ : BufTy).Contents (Elt F) → (⟨S50000x128, .f32⟩ : BufTy).Contents (Elt F) → (⟨S50000x128, .f32⟩ : BufTy).Contents (Elt F)) ]

/-- Operations 143 to 163 of @main. -/
def seg9 : List (HloOp τ sig (Elt F)) :=
  [ binary main_v75 main_v99 main_v100 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v100 main_arg11 main_v101 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg12 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v101 main_v103 main_v104 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v104) (TRef.of (T := ⟨S50000x128, .f32⟩) main_call9_v0) (TRef.of (T := ⟨S50000x128, .f32⟩) main_v105) maximumf,
    TRef.binary (TRef.of (T := ⟨S50000x128, .f32⟩) main_v105) (TRef.of (T := ⟨S50000x128, .f32⟩) main_v105) (TRef.of (T := ⟨S50000x128, .f32⟩) main_call10_v0) mulf,
    TRef.nullary (TRef.of (T := ⟨S_, .f32⟩) main_call10_cst) (constant S_ .f32 0x00000000#32),
    TRef.binary (TRef.of (T := ⟨S50000x128, .f32⟩) main_call10_v0) (TRef.of (T := ⟨S_, .f32⟩) main_call10_cst) (TRef.of (T := ⟨S50000, .f32⟩) main_call10_v1) (fun x v => Host.reduceAdd x v reducesTo_S50000x128_S50000_d1 h_S_),
    TRef.unary (TRef.of (T := ⟨S50000, .f32⟩) main_call10_v1) (TRef.of (T := ⟨S50000x1, .f32⟩) main_call10_v2) (broadcastInDim S50000x1 ![0] bcast_S50000_S50000x1_0),
    TRef.unary (TRef.of (T := ⟨S50000x1, .f32⟩) main_call10_v2) (TRef.of (T := ⟨S50000x1, .f32⟩) main_v106) Host.sqrt,
    nullary main_cst_18 (constant S_ .f32 0x2B8CBCCC#32),
    unary main_cst_18 main_v107 (broadcastInDim S50000x1 ![] bcast_S_S50000x1 : (⟨S_, .f32⟩ : BufTy).Contents (Elt F) → (⟨S50000x1, .f32⟩ : BufTy).Contents (Elt F)),
    binary main_v106 main_v107 main_v108 (maximumf : (⟨S50000x1, .f32⟩ : BufTy).Contents (Elt F) → (⟨S50000x1, .f32⟩ : BufTy).Contents (Elt F) → (⟨S50000x1, .f32⟩ : BufTy).Contents (Elt F)),
    unary main_v108 main_v109 (broadcastInDim S50000x128 ![0, 1] bcast_S50000x1_S50000x128_0_1 : (⟨S50000x1, .f32⟩ : BufTy).Contents (Elt F) → (⟨S50000x128, .f32⟩ : BufTy).Contents (Elt F)),
    binary main_v105 main_v109 main_v110 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v110) (TRef.of (T := ⟨S50000x128, .f32⟩) main_call11_v0) (TRef.of (T := ⟨S50000x128, .f32⟩) main_v111) maximumf ]

/-- Operations 164 to 171 of @main. -/
def seg10 : List (HloOp τ sig (Elt F)) :=
  [ binary main_v111 main_arg13 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v112 main_v114 main_v115 (addf : (⟨S50000x128, .f32⟩ : BufTy).Contents (Elt F) → (⟨S50000x128, .f32⟩ : BufTy).Contents (Elt F) → (⟨S50000x128, .f32⟩ : BufTy).Contents (Elt F)),
    binary main_v115 main_arg15 main_v116 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg16 main_v117 (broadcastInDim S1x64 ![1] bcast_S64_S1x64_1 : (⟨S64, .f32⟩ : BufTy).Contents (Elt F) → (⟨S1x64, .f32⟩ : BufTy).Contents (Elt F)),
    unary main_v117 main_v118 (broadcastInDim S50000x64 ![0, 1] bcast_S1x64_S50000x64_0_1 : (⟨S1x64, .f32⟩ : BufTy).Contents (Elt F) → (⟨S50000x64, .f32⟩ : BufTy).Contents (Elt F)),
    binary main_v116 main_v118 main_v119 (addf : (⟨S50000x64, .f32⟩ : BufTy).Contents (Elt F) → (⟨S50000x64, .f32⟩ : BufTy).Contents (Elt F) → (⟨S50000x64, .f32⟩ : BufTy).Contents (Elt F)) ]

/-- Operations 172 to 179 of @main. -/
def seg11 : List (HloOp τ sig (Elt F)) :=
  [ TRef.nullary (TRef.of (T := ⟨S_, .f32⟩) main_call12_cst) (constant S_ .f32 0xFF800000#32),
    TRef.binary (TRef.of (T := ⟨S50000x64, .f32⟩) main_v119) (TRef.of (T := ⟨S_, .f32⟩) main_call12_cst) (TRef.of (T := ⟨S50000, .f32⟩) main_call12_v0) (fun x v => Host.reduce FloatOps.maximumf x v reducesTo_S50000x64_S50000_d1 h_S_),
    TRef.nullary (TRef.of (T := ⟨S_, .f32⟩) main_call12_cst_0) (constant S_ .f32 0xFF800000#32),
    TRef.unary (TRef.of (T := ⟨S_, .f32⟩) main_call12_cst_0) (TRef.of (T := ⟨S50000, .f32⟩) main_call12_v1) (broadcastInDim S50000 ![] bcast_S_S50000),
    TRef.binary (TRef.of (T := ⟨S50000, .f32⟩) main_call12_v1) (TRef.of (T := ⟨S50000, .f32⟩) main_call12_v0) (TRef.of (T := ⟨S50000, .f32⟩) main_call12_v2) maximumf,
    TRef.unary (TRef.of (T := ⟨S50000, .f32⟩) main_call12_v2) (TRef.of (T := ⟨S50000x1, .f32⟩) main_call12_v3) (broadcastInDim S50000x1 ![0] bcast_S50000_S50000x1_0),
    TRef.unary (TRef.of (T := ⟨S50000x1, .f32⟩) main_call12_v3) (TRef.of (T := ⟨S50000x64, .f32⟩) main_call12_v4) (broadcastInDim S50000x64 ![0, 1] bcast_S50000x1_S50000x64_0_1),
    TRef.binary (TRef.of (T := ⟨S50000x64, .f32⟩) main_v119) (TRef.of (T := ⟨S50000x64, .f32⟩) main_call12_v4) (TRef.of (T := ⟨S50000x64, .f32⟩) main_call12_v5) subf ]

/-- Operations 180 to 186 of @main. -/
def seg12 : List (HloOp τ sig (Elt F)) :=
  [ TRef.unary (TRef.of (T := ⟨S50000x64, .f32⟩) main_call12_v5) (TRef.of (T := ⟨S50000x64, .f32⟩) main_call12_v6) Host.exp,
    TRef.nullary (TRef.of (T := ⟨S_, .f32⟩) main_call12_cst_1) (constant S_ .f32 0x00000000#32),
    TRef.binary (TRef.of (T := ⟨S50000x64, .f32⟩) main_call12_v6) (TRef.of (T := ⟨S_, .f32⟩) main_call12_cst_1) (TRef.of (T := ⟨S50000, .f32⟩) main_call12_v7) (fun x v => Host.reduceAdd x v reducesTo_S50000x64_S50000_d1 h_S_),
    TRef.unary (TRef.of (T := ⟨S50000, .f32⟩) main_call12_v7) (TRef.of (T := ⟨S50000x1, .f32⟩) main_call12_v8) (broadcastInDim S50000x1 ![0] bcast_S50000_S50000x1_0),
    TRef.unary (TRef.of (T := ⟨S50000x1, .f32⟩) main_call12_v8) (TRef.of (T := ⟨S50000x1, .f32⟩) main_call12_v9) Host.log,
    TRef.unary (TRef.of (T := ⟨S50000x1, .f32⟩) main_call12_v9) (TRef.of (T := ⟨S50000x64, .f32⟩) main_call12_v10) (broadcastInDim S50000x64 ![0, 1] bcast_S50000x1_S50000x64_0_1),
    TRef.binary (TRef.of (T := ⟨S50000x64, .f32⟩) main_call12_v5) (TRef.of (T := ⟨S50000x64, .f32⟩) main_call12_v10) (TRef.of (T := ⟨S50000x64, .f32⟩) main_v120) subf ]

set_option maxRecDepth 8192 in
set_option maxHeartbeats 4000000 in
/-- The segments, in order, are the operation list. -/
theorem ops_split : (ops : List (HloOp τ sig (Elt F))) = seg0 ++ (seg1 ++ (seg2 ++ (seg3 ++ (seg4 ++ (seg5 ++ (seg6 ++ (seg7 ++ (seg8 ++ (seg9 ++ (seg10 ++ (seg11 ++ seg12))))))))))) := rfl

/-- Running two lists one after the other is running their concatenation. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-- An operation writing one buffer of a list writes inside the list. -/
theorem sub_of {W : List (Ref sig .tc)} {op : HloOp τ sig (Elt F)} {y : Ref sig .tc} (hw : op.writes = {Proc.devRef .tc y}) (hy : y ∈ W) :
    op.writes ⊆ (W.map (Proc.devRef (τ := τ) .tc)).toFinset := by
  rw [hw]
  exact Finset.singleton_subset_iff.mpr (List.mem_toFinset.mpr (List.mem_map_of_mem hy))

abbrev written0 : List (Ref sig .tc) := [main_v0, main_v1, main_v2, main_v3]
set_option maxRecDepth 8192 in
theorem wr0 : (seg0 : List (HloOp τ sig (Elt F))).Forall fun op => op.writes ⊆ (written0.map (Proc.devRef (τ := τ) .tc)).toFinset :=
  ⟨sub_of (y := main_v0) rfl (by decide), sub_of (y := main_v1) rfl (by decide), sub_of (y := main_v2) rfl (by decide), sub_of (y := main_v3) rfl (by decide)⟩
/-- A buffer segment 0 does not write keeps its contents. -/
theorem keep0 (V : Valuation τ sig (Elt F)) (r : Ref sig .tc) (hr : r ∉ written0) :
    after (seg0 (F := F)) V (no_index (Proc.devRef .tc r)) = V (Proc.devRef .tc r) :=
  after_of_writes_sub seg0 V wr0 hr

abbrev written1 : List (Ref sig .tc) := [main_v4, main_v5, main_v6, main_v7, main_call0_cst, main_call0_v0, main_v8]
set_option maxRecDepth 8192 in
theorem wr1 : (seg1 : List (HloOp τ sig (Elt F))).Forall fun op => op.writes ⊆ (written1.map (Proc.devRef (τ := τ) .tc)).toFinset :=
  ⟨sub_of (y := main_v4) rfl (by decide), sub_of (y := main_v5) rfl (by decide), sub_of (y := main_v6) rfl (by decide), sub_of (y := main_v7) rfl (by decide),
    sub_of (y := main_call0_cst) rfl (by decide), sub_of (y := main_call0_v0) rfl (by decide), sub_of (y := main_v8) rfl (by decide)⟩
/-- A buffer segment 1 does not write keeps its contents. -/
theorem keep1 (V : Valuation τ sig (Elt F)) (r : Ref sig .tc) (hr : r ∉ written1) :
    after (seg1 (F := F)) V (no_index (Proc.devRef .tc r)) = V (Proc.devRef .tc r) :=
  after_of_writes_sub seg1 V wr1 hr

abbrev written2 : List (Ref sig .tc) := [main_c, main_v9, main_v10, main_c_0, main_v11, main_v12, main_v13, main_v14, main_v15, main_cst, main_v16, main_v17,
    main_v18, main_cst_1, main_v19, main_cst_2, main_v20, main_v21, main_v22, main_cst_3, main_v23, main_v24, main_v25, main_v26,
    main_v27]
set_option maxRecDepth 8192 in
theorem wr2 : (seg2 : List (HloOp τ sig (Elt F))).Forall fun op => op.writes ⊆ (written2.map (Proc.devRef (τ := τ) .tc)).toFinset :=
  ⟨sub_of (y := main_c) rfl (by decide), sub_of (y := main_v9) rfl (by decide), sub_of (y := main_v10) rfl (by decide), sub_of (y := main_c_0) rfl (by decide),
    sub_of (y := main_v11) rfl (by decide), sub_of (y := main_v12) rfl (by decide), sub_of (y := main_v13) rfl (by decide), sub_of (y := main_v14) rfl (by decide),
    sub_of (y := main_v15) rfl (by decide), sub_of (y := main_cst) rfl (by decide), sub_of (y := main_v16) rfl (by decide), sub_of (y := main_v17) rfl (by decide),
    sub_of (y := main_v18) rfl (by decide), sub_of (y := main_cst_1) rfl (by decide), sub_of (y := main_v19) rfl (by decide), sub_of (y := main_cst_2) rfl (by decide),
    sub_of (y := main_v20) rfl (by decide), sub_of (y := main_v21) rfl (by decide), sub_of (y := main_v22) rfl (by decide), sub_of (y := main_cst_3) rfl (by decide),
    sub_of (y := main_v23) rfl (by decide), sub_of (y := main_v24) rfl (by decide), sub_of (y := main_v25) rfl (by decide), sub_of (y := main_v26) rfl (by decide),
    sub_of (y := main_v27) rfl (by decide)⟩
/-- A buffer segment 2 does not write keeps its contents. -/
theorem keep2 (V : Valuation τ sig (Elt F)) (r : Ref sig .tc) (hr : r ∉ written2) :
    after (seg2 (F := F)) V (no_index (Proc.devRef .tc r)) = V (Proc.devRef .tc r) :=
  after_of_writes_sub seg2 V wr2 hr

abbrev written3 : List (Ref sig .tc) := [main_v28, main_v29, main_v30, main_v31, main_v32, main_call1_cst, main_call1_v0, main_v33, main_call2_v0, main_call2_cst, main_call2_v1, main_call2_v2,
    main_v34, main_cst_4, main_v35, main_v36, main_v37, main_v38, main_call3_cst, main_call3_v0, main_v39]
set_option maxRecDepth 8192 in
theorem wr3 : (seg3 : List (HloOp τ sig (Elt F))).Forall fun op => op.writes ⊆ (written3.map (Proc.devRef (τ := τ) .tc)).toFinset :=
  ⟨sub_of (y := main_v28) rfl (by decide), sub_of (y := main_v29) rfl (by decide), sub_of (y := main_v30) rfl (by decide), sub_of (y := main_v31) rfl (by decide),
    sub_of (y := main_v32) rfl (by decide), sub_of (y := main_call1_cst) rfl (by decide), sub_of (y := main_call1_v0) rfl (by decide), sub_of (y := main_v33) rfl (by decide),
    sub_of (y := main_call2_v0) rfl (by decide), sub_of (y := main_call2_cst) rfl (by decide), sub_of (y := main_call2_v1) rfl (by decide), sub_of (y := main_call2_v2) rfl (by decide),
    sub_of (y := main_v34) rfl (by decide), sub_of (y := main_cst_4) rfl (by decide), sub_of (y := main_v35) rfl (by decide), sub_of (y := main_v36) rfl (by decide),
    sub_of (y := main_v37) rfl (by decide), sub_of (y := main_v38) rfl (by decide), sub_of (y := main_call3_cst) rfl (by decide), sub_of (y := main_call3_v0) rfl (by decide),
    sub_of (y := main_v39) rfl (by decide)⟩
/-- A buffer segment 3 does not write keeps its contents. -/
theorem keep3 (V : Valuation τ sig (Elt F)) (r : Ref sig .tc) (hr : r ∉ written3) :
    after (seg3 (F := F)) V (no_index (Proc.devRef .tc r)) = V (Proc.devRef .tc r) :=
  after_of_writes_sub seg3 V wr3 hr

abbrev written4 : List (Ref sig .tc) := [main_v40, main_v41, main_v42, main_v43, main_call4_cst, main_call4_v0, main_v44]
set_option maxRecDepth 8192 in
theorem wr4 : (seg4 : List (HloOp τ sig (Elt F))).Forall fun op => op.writes ⊆ (written4.map (Proc.devRef (τ := τ) .tc)).toFinset :=
  ⟨sub_of (y := main_v40) rfl (by decide), sub_of (y := main_v41) rfl (by decide), sub_of (y := main_v42) rfl (by decide), sub_of (y := main_v43) rfl (by decide),
    sub_of (y := main_call4_cst) rfl (by decide), sub_of (y := main_call4_v0) rfl (by decide), sub_of (y := main_v44) rfl (by decide)⟩
/-- A buffer segment 4 does not write keeps its contents. -/
theorem keep4 (V : Valuation τ sig (Elt F)) (r : Ref sig .tc) (hr : r ∉ written4) :
    after (seg4 (F := F)) V (no_index (Proc.devRef .tc r)) = V (Proc.devRef .tc r) :=
  after_of_writes_sub seg4 V wr4 hr

abbrev written5 : List (Ref sig .tc) := [main_c_5, main_v45, main_v46, main_c_6, main_v47, main_v48, main_v49, main_v50, main_v51, main_cst_7, main_v52, main_v53,
    main_v54, main_cst_8, main_v55, main_cst_9, main_v56, main_v57, main_v58, main_cst_10, main_v59, main_v60, main_v61, main_v62,
    main_v63]
set_option maxRecDepth 8192 in
theorem wr5 : (seg5 : List (HloOp τ sig (Elt F))).Forall fun op => op.writes ⊆ (written5.map (Proc.devRef (τ := τ) .tc)).toFinset :=
  ⟨sub_of (y := main_c_5) rfl (by decide), sub_of (y := main_v45) rfl (by decide), sub_of (y := main_v46) rfl (by decide), sub_of (y := main_c_6) rfl (by decide),
    sub_of (y := main_v47) rfl (by decide), sub_of (y := main_v48) rfl (by decide), sub_of (y := main_v49) rfl (by decide), sub_of (y := main_v50) rfl (by decide),
    sub_of (y := main_v51) rfl (by decide), sub_of (y := main_cst_7) rfl (by decide), sub_of (y := main_v52) rfl (by decide), sub_of (y := main_v53) rfl (by decide),
    sub_of (y := main_v54) rfl (by decide), sub_of (y := main_cst_8) rfl (by decide), sub_of (y := main_v55) rfl (by decide), sub_of (y := main_cst_9) rfl (by decide),
    sub_of (y := main_v56) rfl (by decide), sub_of (y := main_v57) rfl (by decide), sub_of (y := main_v58) rfl (by decide), sub_of (y := main_cst_10) rfl (by decide),
    sub_of (y := main_v59) rfl (by decide), sub_of (y := main_v60) rfl (by decide), sub_of (y := main_v61) rfl (by decide), sub_of (y := main_v62) rfl (by decide),
    sub_of (y := main_v63) rfl (by decide)⟩
/-- A buffer segment 5 does not write keeps its contents. -/
theorem keep5 (V : Valuation τ sig (Elt F)) (r : Ref sig .tc) (hr : r ∉ written5) :
    after (seg5 (F := F)) V (no_index (Proc.devRef .tc r)) = V (Proc.devRef .tc r) :=
  after_of_writes_sub seg5 V wr5 hr

abbrev written6 : List (Ref sig .tc) := [main_v64, main_v65, main_v66, main_v67, main_v68, main_call5_cst, main_call5_v0, main_v69, main_call6_v0, main_call6_cst, main_call6_v1, main_call6_v2,
    main_v70, main_cst_11, main_v71, main_v72, main_v73, main_v74, main_call7_cst, main_call7_v0, main_v75]
set_option maxRecDepth 8192 in
theorem wr6 : (seg6 : List (HloOp τ sig (Elt F))).Forall fun op => op.writes ⊆ (written6.map (Proc.devRef (τ := τ) .tc)).toFinset :=
  ⟨sub_of (y := main_v64) rfl (by decide), sub_of (y := main_v65) rfl (by decide), sub_of (y := main_v66) rfl (by decide), sub_of (y := main_v67) rfl (by decide),
    sub_of (y := main_v68) rfl (by decide), sub_of (y := main_call5_cst) rfl (by decide), sub_of (y := main_call5_v0) rfl (by decide), sub_of (y := main_v69) rfl (by decide),
    sub_of (y := main_call6_v0) rfl (by decide), sub_of (y := main_call6_cst) rfl (by decide), sub_of (y := main_call6_v1) rfl (by decide), sub_of (y := main_call6_v2) rfl (by decide),
    sub_of (y := main_v70) rfl (by decide), sub_of (y := main_cst_11) rfl (by decide), sub_of (y := main_v71) rfl (by decide), sub_of (y := main_v72) rfl (by decide),
    sub_of (y := main_v73) rfl (by decide), sub_of (y := main_v74) rfl (by decide), sub_of (y := main_call7_cst) rfl (by decide), sub_of (y := main_call7_v0) rfl (by decide),
    sub_of (y := main_v75) rfl (by decide)⟩
/-- A buffer segment 6 does not write keeps its contents. -/
theorem keep6 (V : Valuation τ sig (Elt F)) (r : Ref sig .tc) (hr : r ∉ written6) :
    after (seg6 (F := F)) V (no_index (Proc.devRef .tc r)) = V (Proc.devRef .tc r) :=
  after_of_writes_sub seg6 V wr6 hr

abbrev written7 : List (Ref sig .tc) := [main_v76, main_v77, main_v78, main_v79, main_call8_cst, main_call8_v0, main_v80]
set_option maxRecDepth 8192 in
theorem wr7 : (seg7 : List (HloOp τ sig (Elt F))).Forall fun op => op.writes ⊆ (written7.map (Proc.devRef (τ := τ) .tc)).toFinset :=
  ⟨sub_of (y := main_v76) rfl (by decide), sub_of (y := main_v77) rfl (by decide), sub_of (y := main_v78) rfl (by decide), sub_of (y := main_v79) rfl (by decide),
    sub_of (y := main_call8_cst) rfl (by decide), sub_of (y := main_call8_v0) rfl (by decide), sub_of (y := main_v80) rfl (by decide)⟩
/-- A buffer segment 7 does not write keeps its contents. -/
theorem keep7 (V : Valuation τ sig (Elt F)) (r : Ref sig .tc) (hr : r ∉ written7) :
    after (seg7 (F := F)) V (no_index (Proc.devRef .tc r)) = V (Proc.devRef .tc r) :=
  after_of_writes_sub seg7 V wr7 hr

abbrev written8 : List (Ref sig .tc) := [main_c_12, main_v81, main_v82, main_c_13, main_v83, main_v84, main_v85, main_v86, main_v87, main_cst_14, main_v88, main_v89,
    main_v90, main_cst_15, main_v91, main_cst_16, main_v92, main_v93, main_v94, main_cst_17, main_v95, main_v96, main_v97, main_v98,
    main_v99]
set_option maxRecDepth 8192 in
theorem wr8 : (seg8 : List (HloOp τ sig (Elt F))).Forall fun op => op.writes ⊆ (written8.map (Proc.devRef (τ := τ) .tc)).toFinset :=
  ⟨sub_of (y := main_c_12) rfl (by decide), sub_of (y := main_v81) rfl (by decide), sub_of (y := main_v82) rfl (by decide), sub_of (y := main_c_13) rfl (by decide),
    sub_of (y := main_v83) rfl (by decide), sub_of (y := main_v84) rfl (by decide), sub_of (y := main_v85) rfl (by decide), sub_of (y := main_v86) rfl (by decide),
    sub_of (y := main_v87) rfl (by decide), sub_of (y := main_cst_14) rfl (by decide), sub_of (y := main_v88) rfl (by decide), sub_of (y := main_v89) rfl (by decide),
    sub_of (y := main_v90) rfl (by decide), sub_of (y := main_cst_15) rfl (by decide), sub_of (y := main_v91) rfl (by decide), sub_of (y := main_cst_16) rfl (by decide),
    sub_of (y := main_v92) rfl (by decide), sub_of (y := main_v93) rfl (by decide), sub_of (y := main_v94) rfl (by decide), sub_of (y := main_cst_17) rfl (by decide),
    sub_of (y := main_v95) rfl (by decide), sub_of (y := main_v96) rfl (by decide), sub_of (y := main_v97) rfl (by decide), sub_of (y := main_v98) rfl (by decide),
    sub_of (y := main_v99) rfl (by decide)⟩
/-- A buffer segment 8 does not write keeps its contents. -/
theorem keep8 (V : Valuation τ sig (Elt F)) (r : Ref sig .tc) (hr : r ∉ written8) :
    after (seg8 (F := F)) V (no_index (Proc.devRef .tc r)) = V (Proc.devRef .tc r) :=
  after_of_writes_sub seg8 V wr8 hr

abbrev written9 : List (Ref sig .tc) := [main_v100, main_v101, main_v102, main_v103, main_v104, main_call9_cst, main_call9_v0, main_v105, main_call10_v0, main_call10_cst, main_call10_v1, main_call10_v2,
    main_v106, main_cst_18, main_v107, main_v108, main_v109, main_v110, main_call11_cst, main_call11_v0, main_v111]
set_option maxRecDepth 8192 in
theorem wr9 : (seg9 : List (HloOp τ sig (Elt F))).Forall fun op => op.writes ⊆ (written9.map (Proc.devRef (τ := τ) .tc)).toFinset :=
  ⟨sub_of (y := main_v100) rfl (by decide), sub_of (y := main_v101) rfl (by decide), sub_of (y := main_v102) rfl (by decide), sub_of (y := main_v103) rfl (by decide),
    sub_of (y := main_v104) rfl (by decide), sub_of (y := main_call9_cst) rfl (by decide), sub_of (y := main_call9_v0) rfl (by decide), sub_of (y := main_v105) rfl (by decide),
    sub_of (y := main_call10_v0) rfl (by decide), sub_of (y := main_call10_cst) rfl (by decide), sub_of (y := main_call10_v1) rfl (by decide), sub_of (y := main_call10_v2) rfl (by decide),
    sub_of (y := main_v106) rfl (by decide), sub_of (y := main_cst_18) rfl (by decide), sub_of (y := main_v107) rfl (by decide), sub_of (y := main_v108) rfl (by decide),
    sub_of (y := main_v109) rfl (by decide), sub_of (y := main_v110) rfl (by decide), sub_of (y := main_call11_cst) rfl (by decide), sub_of (y := main_call11_v0) rfl (by decide),
    sub_of (y := main_v111) rfl (by decide)⟩
/-- A buffer segment 9 does not write keeps its contents. -/
theorem keep9 (V : Valuation τ sig (Elt F)) (r : Ref sig .tc) (hr : r ∉ written9) :
    after (seg9 (F := F)) V (no_index (Proc.devRef .tc r)) = V (Proc.devRef .tc r) :=
  after_of_writes_sub seg9 V wr9 hr

abbrev written10 : List (Ref sig .tc) := [main_v112, main_v113, main_v114, main_v115, main_v116, main_v117, main_v118, main_v119]
set_option maxRecDepth 8192 in
theorem wr10 : (seg10 : List (HloOp τ sig (Elt F))).Forall fun op => op.writes ⊆ (written10.map (Proc.devRef (τ := τ) .tc)).toFinset :=
  ⟨sub_of (y := main_v112) rfl (by decide), sub_of (y := main_v113) rfl (by decide), sub_of (y := main_v114) rfl (by decide), sub_of (y := main_v115) rfl (by decide),
    sub_of (y := main_v116) rfl (by decide), sub_of (y := main_v117) rfl (by decide), sub_of (y := main_v118) rfl (by decide), sub_of (y := main_v119) rfl (by decide)⟩
/-- A buffer segment 10 does not write keeps its contents. -/
theorem keep10 (V : Valuation τ sig (Elt F)) (r : Ref sig .tc) (hr : r ∉ written10) :
    after (seg10 (F := F)) V (no_index (Proc.devRef .tc r)) = V (Proc.devRef .tc r) :=
  after_of_writes_sub seg10 V wr10 hr

abbrev written11 : List (Ref sig .tc) := [main_call12_cst, main_call12_v0, main_call12_cst_0, main_call12_v1, main_call12_v2, main_call12_v3, main_call12_v4, main_call12_v5]
set_option maxRecDepth 8192 in
theorem wr11 : (seg11 : List (HloOp τ sig (Elt F))).Forall fun op => op.writes ⊆ (written11.map (Proc.devRef (τ := τ) .tc)).toFinset :=
  ⟨sub_of (y := main_call12_cst) rfl (by decide), sub_of (y := main_call12_v0) rfl (by decide), sub_of (y := main_call12_cst_0) rfl (by decide), sub_of (y := main_call12_v1) rfl (by decide),
    sub_of (y := main_call12_v2) rfl (by decide), sub_of (y := main_call12_v3) rfl (by decide), sub_of (y := main_call12_v4) rfl (by decide), sub_of (y := main_call12_v5) rfl (by decide)⟩
/-- A buffer segment 11 does not write keeps its contents. -/
theorem keep11 (V : Valuation τ sig (Elt F)) (r : Ref sig .tc) (hr : r ∉ written11) :
    after (seg11 (F := F)) V (no_index (Proc.devRef .tc r)) = V (Proc.devRef .tc r) :=
  after_of_writes_sub seg11 V wr11 hr

abbrev written12 : List (Ref sig .tc) := [main_call12_v6, main_call12_cst_1, main_call12_v7, main_call12_v8, main_call12_v9, main_call12_v10, main_v120]
set_option maxRecDepth 8192 in
theorem wr12 : (seg12 : List (HloOp τ sig (Elt F))).Forall fun op => op.writes ⊆ (written12.map (Proc.devRef (τ := τ) .tc)).toFinset :=
  ⟨sub_of (y := main_call12_v6) rfl (by decide), sub_of (y := main_call12_cst_1) rfl (by decide), sub_of (y := main_call12_v7) rfl (by decide), sub_of (y := main_call12_v8) rfl (by decide),
    sub_of (y := main_call12_v9) rfl (by decide), sub_of (y := main_call12_v10) rfl (by decide), sub_of (y := main_v120) rfl (by decide)⟩
/-- A buffer segment 12 does not write keeps its contents. -/
theorem keep12 (V : Valuation τ sig (Elt F)) (r : Ref sig .tc) (hr : r ∉ written12) :
    after (seg12 (F := F)) V (no_index (Proc.devRef .tc r)) = V (Proc.devRef .tc r) :=
  after_of_writes_sub seg12 V wr12 hr

/-- The source- and target-node indices of the edges, one per edge. -/
def srcVec (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
def dstVec (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The neighbourhood mean from the two index rows. -/
def meanIx (H : (⟨S50000x128, .f32⟩ : BufTy).Contents (Elt F)) (s d : (⟨S800000, .i32⟩ : BufTy).Contents (Elt F)) : (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 d) (Host.gather gather_S50000x128_S800000x1_S800000x128_1_0_n_n_0_1_1128 H (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))) (broadcastInDim S50000 ![] bcast_S_S50000 (constant S_ .f32 0x3F800000#32)))))

theorem meanIx_eq (H : (⟨S50000x128, .f32⟩ : BufTy).Contents (Elt F)) (e : (⟨S2x800000, .i32⟩ : BufTy).Contents (Elt F)) :
    meanIx H (srcVec e) (dstVec e) = Cert.Stages.meanDiv H e := rfl

/-- Contents carried to a buffer's own type and back are unchanged. -/
theorem ofBuf_toBuf {T : BufTy} (x : TRef sig T) (v : T.Contents (Elt F)) : x.ofBuf (x.toBuf v) = v := by
  obtain ⟨r, h, h1, h2⟩ := x
  subst h
  rfl

/-- The logarithm of the softmax of rows that already had their maximum subtracted. -/
def lsTail (Z : (⟨S50000x64, .f32⟩ : BufTy).Contents (Elt F)) : (⟨S50000x64, .f32⟩ : BufTy).Contents (Elt F) :=
  subf Z (broadcastInDim S50000x64 ![0, 1] bcast_S50000x1_S50000x64_0_1 (Host.log (broadcastInDim S50000x1 ![0] bcast_S50000_S50000x1_0 (Host.reduceAdd (Host.exp Z) (constant S_ .f32 0x00000000#32) reducesTo_S50000x64_S50000_d1 h_S_))))

theorem lsTail_shifted (Y : (⟨S50000x64, .f32⟩ : BufTy).Contents (Elt F)) : lsTail (Cert.Stages.shifted Y) = Cert.Stages.logSoftmax Y := rfl

set_option maxHeartbeats 4000000 in
theorem out0a (V : Valuation τ sig (Elt F)) : after (seg0 (F := F)) V (no_index (Proc.devRef .tc main_v1)) = srcVec (V (Proc.devRef .tc main_arg17)) := by
  unfold seg0
  after_results_simp <;> (try simp only [ofBuf_toBuf]) <;> rfl

set_option maxHeartbeats 4000000 in
theorem out0b (V : Valuation τ sig (Elt F)) : after (seg0 (F := F)) V (no_index (Proc.devRef .tc main_v3)) = dstVec (V (Proc.devRef .tc main_arg17)) := by
  unfold seg0
  after_results_simp <;> (try simp only [ofBuf_toBuf]) <;> rfl

set_option maxHeartbeats 4000000 in
theorem out1 (V : Valuation τ sig (Elt F)) : after (seg1 (F := F)) V (no_index (Proc.devRef .tc main_v8)) = Cert.Stages.lin (V (Proc.devRef .tc main_arg0)) (V (Proc.devRef .tc main_arg1)) (V (Proc.devRef .tc main_arg2)) := by
  unfold seg1
  after_results_simp <;> (try simp only [ofBuf_toBuf]) <;> rfl

set_option maxHeartbeats 4000000 in
theorem out2 (V : Valuation τ sig (Elt F)) : after (seg2 (F := F)) V (no_index (Proc.devRef .tc main_v27)) = meanIx (V (Proc.devRef .tc main_v8)) (V (Proc.devRef .tc main_v1)) (V (Proc.devRef .tc main_v3)) := by
  unfold seg2
  after_results_simp <;> (try simp only [ofBuf_toBuf]) <;> rfl

set_option maxHeartbeats 4000000 in
theorem out3 (V : Valuation τ sig (Elt F)) : after (seg3 (F := F)) V (no_index (Proc.devRef .tc main_v39)) = Cert.Stages.mixUnit (V (Proc.devRef .tc main_arg0)) (V (Proc.devRef .tc main_v27)) (V (Proc.devRef .tc main_arg3)) (V (Proc.devRef .tc main_arg4)) := by
  unfold seg3
  after_results_simp <;> (try simp only [ofBuf_toBuf]) <;> rfl

set_option maxHeartbeats 4000000 in
theorem out4 (V : Valuation τ sig (Elt F)) : after (seg4 (F := F)) V (no_index (Proc.devRef .tc main_v44)) = Cert.Stages.lin (V (Proc.devRef .tc main_v39)) (V (Proc.devRef .tc main_arg5)) (V (Proc.devRef .tc main_arg6)) := by
  unfold seg4
  after_results_simp <;> (try simp only [ofBuf_toBuf]) <;> rfl

set_option maxHeartbeats 4000000 in
theorem out5 (V : Valuation τ sig (Elt F)) : after (seg5 (F := F)) V (no_index (Proc.devRef .tc main_v63)) = meanIx (V (Proc.devRef .tc main_v44)) (V (Proc.devRef .tc main_v1)) (V (Proc.devRef .tc main_v3)) := by
  unfold seg5
  after_results_simp <;> (try simp only [ofBuf_toBuf]) <;> rfl

set_option maxHeartbeats 4000000 in
theorem out6 (V : Valuation τ sig (Elt F)) : after (seg6 (F := F)) V (no_index (Proc.devRef .tc main_v75)) = Cert.Stages.mixUnit (V (Proc.devRef .tc main_v39)) (V (Proc.devRef .tc main_v63)) (V (Proc.devRef .tc main_arg7)) (V (Proc.devRef .tc main_arg8)) := by
  unfold seg6
  after_results_simp <;> (try simp only [ofBuf_toBuf]) <;> rfl

set_option maxHeartbeats 4000000 in
theorem out7 (V : Valuation τ sig (Elt F)) : after (seg7 (F := F)) V (no_index (Proc.devRef .tc main_v80)) = Cert.Stages.lin (V (Proc.devRef .tc main_v75)) (V (Proc.devRef .tc main_arg9)) (V (Proc.devRef .tc main_arg10)) := by
  unfold seg7
  after_results_simp <;> (try simp only [ofBuf_toBuf]) <;> rfl

set_option maxHeartbeats 4000000 in
theorem out8 (V : Valuation τ sig (Elt F)) : after (seg8 (F := F)) V (no_index (Proc.devRef .tc main_v99)) = meanIx (V (Proc.devRef .tc main_v80)) (V (Proc.devRef .tc main_v1)) (V (Proc.devRef .tc main_v3)) := by
  unfold seg8
  after_results_simp <;> (try simp only [ofBuf_toBuf]) <;> rfl

set_option maxHeartbeats 4000000 in
theorem out9 (V : Valuation τ sig (Elt F)) : after (seg9 (F := F)) V (no_index (Proc.devRef .tc main_v111)) = Cert.Stages.mixUnit (V (Proc.devRef .tc main_v75)) (V (Proc.devRef .tc main_v99)) (V (Proc.devRef .tc main_arg11)) (V (Proc.devRef .tc main_arg12)) := by
  unfold seg9
  after_results_simp <;> (try simp only [ofBuf_toBuf]) <;> rfl

set_option maxHeartbeats 4000000 in
theorem out10 (V : Valuation τ sig (Elt F)) : after (seg10 (F := F)) V (no_index (Proc.devRef .tc main_v119)) = Cert.Stages.logits (V (Proc.devRef .tc main_v111)) (V (Proc.devRef .tc main_arg13)) (V (Proc.devRef .tc main_arg14)) (V (Proc.devRef .tc main_arg15)) (V (Proc.devRef .tc main_arg16)) := by
  unfold seg10
  after_results_simp <;> (try simp only [ofBuf_toBuf]) <;> rfl

set_option maxHeartbeats 4000000 in
theorem out11 (V : Valuation τ sig (Elt F)) : after (seg11 (F := F)) V (no_index (Proc.devRef .tc main_call12_v5)) = Cert.Stages.shifted (V (Proc.devRef .tc main_v119)) := by
  unfold seg11
  after_results_simp <;> (try simp only [ofBuf_toBuf]) <;> rfl

set_option maxHeartbeats 4000000 in
theorem out12 (V : Valuation τ sig (Elt F)) : after (seg12 (F := F)) V (no_index (Proc.devRef .tc main_v120)) = lsTail (V (Proc.devRef .tc main_call12_v5)) := by
  unfold seg12
  after_results_simp <;> (try simp only [ofBuf_toBuf]) <;> rfl

set_option maxHeartbeats 4000000 in
/-- The result buffer after the operations is the network of the contents of the argument buffers. -/
theorem result_after (V : Valuation τ sig (Elt F)) :
    after (ops (F := F)) V (Proc.devRef .tc main_v120) = Cert.Stages.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [ops_split]
  simp only [after_append]
  simp (disch := decide) only [out12, out11, out10, out9, out8, out7, out6, out5, out4, out3, out2, out1, out0a, out0b,
    keep12, keep11, keep10, keep9, keep8, keep7, keep6, keep5, keep4, keep3, keep2, keep1, keep0, meanIx_eq, lsTail_shifted]
  rfl

/-- On every device, from any memory with zero counters: every weakly fair execution of @main terminates with the result
    buffer at the network of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v120) = Cert.Stages.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v120).trans (result_after _),
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide)),
      (h c main_arg7).trans (after_of_writes_sub ops _ ops_writes (by decide)),
      (h c main_arg8).trans (after_of_writes_sub ops _ ops_writes (by decide)),
      (h c main_arg9).trans (after_of_writes_sub ops _ ops_writes (by decide)),
      (h c main_arg10).trans (after_of_writes_sub ops _ ops_writes (by decide)),
      (h c main_arg11).trans (after_of_writes_sub ops _ ops_writes (by decide)),
      (h c main_arg12).trans (after_of_writes_sub ops _ ops_writes (by decide)),
      (h c main_arg13).trans (after_of_writes_sub ops _ ops_writes (by decide)),
      (h c main_arg14).trans (after_of_writes_sub ops _ ops_writes (by decide)),
      (h c main_arg15).trans (after_of_writes_sub ops _ ops_writes (by decide)),
      (h c main_arg16).trans (after_of_writes_sub ops _ ops_writes (by decide)),
      (h c main_arg17).trans (after_of_writes_sub ops _ ops_writes (by decide))⟩)
    (run_seq scopedRefs_eq scopedSems_eq defs main (fun _ => ops) main_eq (fun _ => ops_sub) m ρ)

end Cert.ReferenceIdeal.HandRun

end
-- ==== Proof.StageRows.lean ====
/-
  The network's stages, written with the host's array operations, read at the extended reals, are the row-wise
  functions: every dense stage acts on each row of its input independently.

  * A `dot_general` of an [n, K] array with a [K, N] array, contracting the one shared axis, is at entry (p, q) the
    plain sum ∑ k, l (p, k) * r (k, q).
  * A bias spread over the rows reads the bias entry of the column; a spread scalar reads the scalar.
  * A concatenation [X, A] along the columns, multiplied by W, splits as X times the upper half of W plus A times the
    lower half.
  * The outer rectifier of the unit-length stage changes nothing: a non-negative number divided by a positive one is
    non-negative.
  * A row maximum is the fold of `max` from the least element, and `max ⊥ y = y`.
  * Multiplying by the reciprocal of a divisor that is not zero is dividing by it.
-/
import proofs.«137334_j6425271075235_1_alg».proof.Proof.Stages
import proofs.«137334_j6425271075235_1_alg».proof.Proof.Rows
import proofs.«137334_j6425271075235_1_alg».proof.Proof.LibIdealLayout
import Idealize.ShloMosaic.Lib.ValueIdx
import Idealize.ShloMosaic.Lib.IdealHost
import Idealize.ShloMosaic.Lib.Pipeline.Value
import Idealize.ShloMosaic.PureOps.Ideal.Laws

noncomputable section

namespace Cert.StageRows

open Idealize.ShloMosaic Idealize.ShloMosaic.ValueIdx Idealize.ShloMosaic.IdealLayout Cert.ReferenceIdeal Cert.Stages
open Cert.ReferenceIdeal.Facts₀ Cert.ReferenceIdeal.Facts
open scoped BigOperators

/-! ## A matrix product at an entry -/

/-- A `dot_general` of an [n, K] array with a [K, N] array whose dimension numbers contract the left operand's columns
    with the right operand's rows, keep the left rows and the right columns and batch nothing, read at (p, q): the sum
    over the shared index of the products. The four facts `hl0` … `hr1` say which coordinate of the result index or of
    the contraction index each operand coordinate reads; at a literal record they compute. -/
theorem dot_apply_of {n K N : Nat} {φ₁ φ₂ : FTy} (D : DotDims ⟨2, ![n, K]⟩ ⟨2, ![K, N]⟩ ⟨2, ![n, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![n, K]⟩ φ₁) (r : FVec Ideal ⟨2, ![K, N]⟩ φ₂)
    (p : Fin n) (q : Fin N) :
    Host.dotGeneral D prec l r (ix2 p q) = ∑ k : Fin K, l (ix2 p k) * r (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have eL : D.lhsIdx (ix2 p q) ((contrEquiv1 D K hr hs).symm k) = ix2 p k := by
    funext a
    match a with
    | ⟨0, _⟩ => exact Fin.ext (hl0 _ _)
    | ⟨1, _⟩ => exact Fin.ext ((hl1 _ _).trans hk)
  have eR : D.rhsIdx (ix2 p q) ((contrEquiv1 D K hr hs).symm k) = ix2 k q := by
    funext a
    match a with
    | ⟨0, _⟩ => exact Fin.ext ((hr0 _ _).trans hk)
    | ⟨1, _⟩ => exact Fin.ext (hr1 _ _)
  rw [eL, eR]

/-- The [50000, 128] × [128, 128] product of the network at an entry. -/
theorem dot128_apply {φ₁ φ₂ : FTy} (prec : Option ContractPrecision) (l : FVec Ideal S50000x128 φ₁) (r : FVec Ideal S128x128 φ₂)
    (p : Fin 50000) (q : Fin 128) :
    Host.dotGeneral dot_S50000x128_S128x128_S50000x128_1_0_0_1_n_n prec l r (ix2 p q) = ∑ k : Fin 128, l (ix2 p k) * r (ix2 k q) := by
  refine dot_apply_of dot_S50000x128_S128x128_S50000x128_1_0_0_1_n_n rfl rfl ?_ ?_ ?_ ?_ prec l r p q
  · intro j k; unfold DotDims.lhsIdx
    rw [dif_neg (show ¬ _ ∈ dot_S50000x128_S128x128_S50000x128_1_0_0_1_n_n.lhsBatch by decide),
      dif_pos (show _ ∈ dot_S50000x128_S128x128_S50000x128_1_0_0_1_n_n.lhsNonContracting by decide)]; rfl
  · intro j k; exact DotDims.lhsIdx_val_of_single _ rfl j k
  · intro j k; exact DotDims.rhsIdx_val_of_single _ rfl j k
  · intro j k; unfold DotDims.rhsIdx
    rw [dif_neg (show ¬ _ ∈ dot_S50000x128_S128x128_S50000x128_1_0_0_1_n_n.rhsBatch by decide),
      dif_pos (show _ ∈ dot_S50000x128_S128x128_S50000x128_1_0_0_1_n_n.rhsNonContracting by decide)]; rfl

/-! ## Columns spread over rows, and sums along a row -/

/-- An [n, 1] column spread over the N columns reads the row's entry of the column. -/
theorem colSpread_apply {α : Type} {n N : Nat} (c : (⟨2, ![n, 1]⟩ : Shape).Idx → α)
    (h : (⟨2, ![n, 1]⟩ : Shape).BroadcastsInDim ⟨2, ![n, N]⟩ ![0, 1]) (p : Fin n) (q : Fin N) :
    broadcastInDim ⟨2, ![n, N]⟩ ![0, 1] h c (ix2 p q) = c (ix2 p (0 : Fin 1)) := by
  refine broadcastInDim_apply ![0, 1] h c (ix2 p q) (ix2 p (0 : Fin 1)) (fun ax => ?_)
  match ax with
  | ⟨0, _⟩ =>
    show p.val = if n = 1 then 0 else p.val
    split
    · have := p.isLt; omega
    · rfl
  | ⟨1, _⟩ => show 0 = if (1 : Nat) = 1 then 0 else q.val; rw [if_pos rfl]

/-- A length-n vector written as an [n, 1] column reads the vector's entry of the row. -/
theorem vecCol_apply {α : Type} {n : Nat} (d : (⟨1, ![n]⟩ : Shape).Idx → α)
    (h : (⟨1, ![n]⟩ : Shape).BroadcastsInDim ⟨2, ![n, 1]⟩ ![0]) (p : Fin n) :
    broadcastInDim ⟨2, ![n, 1]⟩ ![0] h d (ix2 p (0 : Fin 1)) = d (ix1 p) := by
  refine broadcastInDim_apply ![0] h d (ix2 p (0 : Fin 1)) (ix1 p) (fun ax => ?_)
  match ax with
  | ⟨0, _⟩ =>
    show p.val = if n = 1 then 0 else p.val
    split
    · have := p.isLt; omega
    · rfl

/-- The index over row `p` of a reduction along the columns, with column `l` put back, is (p, l). -/
theorem lift_row {n N : Nat} (h : (⟨2, ![n, N]⟩ : Shape).Reduces [1] ⟨1, ![n]⟩) (p : Fin n) (l : Fin N) :
    h.lift (ix1 p) l = ix2 p l := by
  funext c
  match c with
  | ⟨0, _⟩ => exact Fin.ext rfl
  | ⟨1, _⟩ => exact Fin.ext rfl

/-- The host's sum along the columns from the initial value zero, at row `p`: the sum of the row. -/
theorem rowSum_apply {n N : Nat} (x : FVec Ideal ⟨2, ![n, N]⟩ .f32) (h' : (⟨2, ![n, N]⟩ : Shape).ReducesTo [1] ⟨1, ![n]⟩)
    (h : (⟨2, ![n, N]⟩ : Shape).Reduces [1] ⟨1, ![n]⟩) (hu : 0 < (⟨0, ![]⟩ : Shape).numel) (p : Fin n) :
    Host.reduceAdd x (constant (F := Ideal) ⟨0, ![]⟩ .f32 0x00000000#32) h' hu (ix1 p) = ∑ l : Fin N, x (ix2 p l) := by
  rw [hostReduceAdd_apply, Ideal.hostReduceAdd_single h' h, constant_apply, Ideal.ofBits_zero_f32, zero_add]
  exact Finset.sum_congr rfl fun l _ => by rw [lift_row h p l]

/-- The host's square root at an index is the exact one of the element. -/
theorem hostSqrt_apply {s : Shape} {φ : FTy} (x : FVec Ideal s φ) (i : s.Idx) : Host.sqrt x i = Ideal.sqrt (x i) := rfl

/-! ## The linear layer with rectifier -/

/-- The bias of a 128-column stage spread over the 50000 rows reads the bias entry of the column. -/
theorem bias128_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) :=
  broadcastInDim_row_apply b bcast_S128_S1x128_1 bcast_S1x128_S50000x128_0_1 p q

/-- The zero array of a 128-column stage reads zero. -/
theorem zero128_apply (j : S50000x128.Idx) :
    broadcastInDim S50000x128 ![] bcast_S_S50000x128 (constant (F := Ideal) S_ .f32 0x00000000#32) j = 0 := by
  rw [IdealLayout.broadcastInDim_scalar_apply, constant_apply, Ideal.ofBits_zero_f32]

theorem lin_rows (X : FVec Ideal S50000x128 .f32) (W : FVec Ideal S128x128 .f32) (b : FVec Ideal S128 .f32)
    (B : Rows.Arr 1 128) (hB : ∀ j : Fin 128, B (ix2 0 j) = b (ix1 j)) :
    (Stages.lin (F := Ideal) X W b : Rows.Arr 50000 128) = Rows.linArr X W B := by
  funext i
  obtain ⟨p, q, rfl⟩ : ∃ (p : Fin 50000) (q : Fin 128), i = ix2 p q := ⟨i 0, i 1, eq_ix2 i⟩
  show Stages.lin (F := Ideal) X W b (ix2 p q) = max ((∑ k, X (ix2 p k) * W (ix2 k q)) + B (ix2 0 q)) 0
  unfold Stages.lin
  rw [maximumf_apply, addf_apply, dot128_apply, bias128_apply, zero128_apply, hB]

/-! ## The neighbourhood mean: multiplying by the reciprocal of the degree is dividing by it -/

/-- A per-node number spread over the node's row reads the node's number. -/
theorem spreadCol_apply (d : FVec Ideal S50000 .f32) (p : Fin 50000) (q : Fin 128) :
    Stages.spreadCol (F := Ideal) d (ix2 p q) = d (ix1 p) := by
  unfold Stages.spreadCol
  refine (broadcastInDim_apply ![0, 1] bcast_S50000x1_S50000x128_0_1 _ (ix2 p q) (ix2 p (0 : Fin 1)) (fun ax => ?_)).trans
    (broadcastInDim_apply ![0] bcast_S50000_S50000x1_0 d (ix2 p (0 : Fin 1)) (ix1 p) (fun ax => ?_))
  · match ax with
    | ⟨0, _⟩ => rfl
    | ⟨1, _⟩ => rfl
  · match ax with
    | ⟨0, _⟩ => rfl

/-- The bounded degree is a maximum with one, so it is not zero. -/
theorem degMax_ne_zero (e : (⟨S2x800000, .i32⟩ : BufTy).Contents (Elt Ideal)) (j : S50000.Idx) :
    Stages.degMax (F := Ideal) e j ≠ 0 := by
  unfold Stages.degMax
  rw [maximumf_apply, IdealLayout.broadcastInDim_scalar_apply _ bcast_S_S50000, constant_apply, Ideal.ofBits_one_f32]
  intro h
  have h1 : (1 : EReal) ≤ 0 := h ▸ le_max_right _ _
  exact absurd h1 (by norm_num)

theorem mean_eq (H : FVec Ideal S50000x128 .f32) (e : (⟨S2x800000, .i32⟩ : BufTy).Contents (Elt Ideal)) :
    Stages.meanMul (F := Ideal) H e = Stages.meanDiv H e := by
  funext i
  obtain ⟨p, q, rfl⟩ : ∃ (p : Fin 50000) (q : Fin 128), i = ix2 p q := ⟨i 0, i 1, eq_ix2 i⟩
  unfold Stages.meanMul Stages.meanDiv
  generalize Stages.msgSum (F := Ideal) H e = M
  rw [mulf_apply, hostDivf_apply, spreadCol_apply, spreadCol_apply, hostDivf_apply,
    IdealLayout.broadcastInDim_scalar_apply _ bcast_S_S50000, constant_apply, Ideal.ofBits_one_f32]
  exact Ideal.mul_one_div (degMax_ne_zero e _)

/-! ## The mixing layer -/

/-- The [50000, 256] × [256, 128] product of the network at an entry. -/
theorem dot256_apply {φ₁ φ₂ : FTy} (prec : Option ContractPrecision) (l : FVec Ideal S50000x256 φ₁) (r : FVec Ideal S256x128 φ₂)
    (p : Fin 50000) (q : Fin 128) :
    Host.dotGeneral dot_S50000x256_S256x128_S50000x128_1_0_0_1_n_n prec l r (ix2 p q) = ∑ k : Fin 256, l (ix2 p k) * r (ix2 k q) := by
  refine dot_apply_of dot_S50000x256_S256x128_S50000x128_1_0_0_1_n_n rfl rfl ?_ ?_ ?_ ?_ prec l r p q
  · intro j k; unfold DotDims.lhsIdx
    rw [dif_neg (show ¬ _ ∈ dot_S50000x256_S256x128_S50000x128_1_0_0_1_n_n.lhsBatch by decide),
      dif_pos (show _ ∈ dot_S50000x256_S256x128_S50000x128_1_0_0_1_n_n.lhsNonContracting by decide)]; rfl
  · intro j k; exact DotDims.lhsIdx_val_of_single _ rfl j k
  · intro j k; exact DotDims.rhsIdx_val_of_single _ rfl j k
  · intro j k; unfold DotDims.rhsIdx
    rw [dif_neg (show ¬ _ ∈ dot_S50000x256_S256x128_S50000x128_1_0_0_1_n_n.rhsBatch by decide),
      dif_pos (show _ ∈ dot_S50000x256_S256x128_S50000x128_1_0_0_1_n_n.rhsNonContracting by decide)]; rfl

/-- A sum over 256 indices is the sum over the first 128 plus the sum over the last 128. -/
theorem sum256 (f : Fin 256 → EReal) :
    ∑ k, f k = (∑ k : Fin 128, f ⟨k.val, by omega⟩) + ∑ k : Fin 128, f ⟨128 + k.val, by omega⟩ :=
  Fin.sum_univ_add (a := 128) (b := 128) (f : Fin (128 + 128) → EReal)

/-- The concatenation [X, A] along the columns, at a column of the first half, reads X. -/
theorem cat_left (X A : FVec Ideal S50000x128 .f32) (p : Fin 50000) (k : Fin 128) :
    concatenate S50000x256 1 [⟨S50000x128, X⟩, ⟨S50000x128, A⟩] concatenates_S50000x128_S50000x128_S50000x256_d1
      (ix2 p (⟨k.val, by omega⟩ : Fin 256)) = X (ix2 p k) := by
  refine concatenate_pair_apply_left (t := S50000x256) 1 X A concatenates_S50000x128_S50000x128_S50000x256_d1 _ rfl (ix2 p k) (fun b => ?_)
  match b with
  | ⟨0, _⟩ => rfl
  | ⟨1, _⟩ => rfl

/-- The concatenation [X, A] along the columns, at a column of the second half, reads A. -/
theorem cat_right (X A : FVec Ideal S50000x128 .f32) (p : Fin 50000) (k : Fin 128) :
    concatenate S50000x256 1 [⟨S50000x128, X⟩, ⟨S50000x128, A⟩] concatenates_S50000x128_S50000x128_S50000x256_d1
      (ix2 p (⟨128 + k.val, by omega⟩ : Fin 256)) = A (ix2 p k) := by
  refine concatenate_pair_apply_right (t := S50000x256) 1 X A concatenates_S50000x128_S50000x128_S50000x256_d1 _ rfl rfl (ix2 p k) (fun b => ?_) ?_
  · match b with
    | ⟨0, _⟩ => exact fun _ => rfl
    | ⟨1, _⟩ => exact fun hne => absurd rfl hne
  · show k.val + 128 = 128 + k.val
    omega

/-- The rectified mix at an entry: the two halves of the weight act on the node's features and on its mean. -/
theorem mix_apply (X A : FVec Ideal S50000x128 .f32) (W : FVec Ideal S256x128 .f32) (b : FVec Ideal S128 .f32)
    (p : Fin 50000) (q : Fin 128) :
    Stages.mix (F := Ideal) X A W b (ix2 p q)
      = max (((∑ k : Fin 128, X (ix2 p k) * W (ix2 (⟨k.val, by omega⟩ : Fin 256) q))
          + ∑ k : Fin 128, A (ix2 p k) * W (ix2 (⟨128 + k.val, by omega⟩ : Fin 256) q)) + b (ix1 q)) 0 := by
  unfold Stages.mix
  rw [maximumf_apply, addf_apply, dot256_apply, bias128_apply, zero128_apply, sum256]
  simp only [cat_left, cat_right]

/-- The small constant bounding the length from below is positive. -/
theorem eps_pos : (0 : EReal) < Ideal.ofBits .f32 0x2B8CBCCC#32 := by
  simp [Ideal.ofBits, Ideal.ieee, -EReal.coe_mul]

/-- A number that is not negative divided by a positive one is not negative. -/
theorem div_nonneg_of_pos {y d : EReal} (hy : 0 ≤ y) (hd : 0 < d) : 0 ≤ Ideal.div y d := by
  unfold Ideal.div
  rw [if_neg hd.ne']
  exact mul_nonneg hy (EReal.inv_nonneg_of_nonneg hd.le)

/-- The unit-length stage at an entry, for rows without negative entries: the outer rectifier changes nothing. -/
theorem unit_apply (Y : FVec Ideal S50000x128 .f32) (hY : ∀ j, 0 ≤ Y j) (p : Fin 50000) (q : Fin 128) :
    Stages.unit (F := Ideal) Y (ix2 p q)
      = Ideal.div (Y (ix2 p q)) (max (Ideal.sqrt (∑ l : Fin 128, Y (ix2 p l) * Y (ix2 p l))) (Ideal.ofBits .f32 0x2B8CBCCC#32)) := by
  unfold Stages.unit
  rw [maximumf_apply, hostDivf_apply, zero128_apply, colSpread_apply, maximumf_apply, hostSqrt_apply, vecCol_apply,
    rowSum_apply _ _ (by decide), IdealLayout.broadcastInDim_scalar_apply, constant_apply]
  simp only [mulf_apply]
  exact max_eq_left (div_nonneg_of_pos (hY _) (lt_max_of_lt_right eps_pos))

theorem mixUnit_rows (X A : FVec Ideal S50000x128 .f32) (W : FVec Ideal S256x128 .f32) (b : FVec Ideal S128 .f32)
    (Wx Wa : Rows.Arr 128 128) (B : Rows.Arr 1 128)
    (hWx : ∀ k j : Fin 128, Wx (ix2 k j) = W (ix2 (⟨k.val, by omega⟩ : Fin 256) j))
    (hWa : ∀ k j : Fin 128, Wa (ix2 k j) = W (ix2 (⟨128 + k.val, by omega⟩ : Fin 256) j))
    (hB : ∀ j : Fin 128, B (ix2 0 j) = b (ix1 j)) :
    (Stages.mixUnit (F := Ideal) X A W b : Rows.Arr 50000 128)
      = Rows.mixUnitArr X A Wx Wa B (Ideal.ofBits .f32 0x2B8CBCCC#32) := by
  have hM : ∀ (p : Fin 50000) (l : Fin 128), Stages.mix (F := Ideal) X A W b (ix2 p l)
      = Rows.mixRow (Rows.rowOf X p) (Rows.rowOf A p) (Rows.matOf Wx) (Rows.matOf Wa) (Rows.rowOf B 0) l := by
    intro p l
    rw [mix_apply]
    show _ = max (((∑ k, X (ix2 p k) * Wx (ix2 k l)) + ∑ k, A (ix2 p k) * Wa (ix2 k l)) + B (ix2 0 l)) 0
    simp only [hWx, hWa, hB]
  have hY : ∀ j, 0 ≤ Stages.mix (F := Ideal) X A W b j := by
    intro j
    obtain ⟨p, l, rfl⟩ : ∃ (p : Fin 50000) (l : Fin 128), j = ix2 p l := ⟨j 0, j 1, eq_ix2 j⟩
    rw [mix_apply]
    exact le_max_right _ _
  funext i
  obtain ⟨p, q, rfl⟩ : ∃ (p : Fin 50000) (q : Fin 128), i = ix2 p q := ⟨i 0, i 1, eq_ix2 i⟩
  show Stages.unit (Stages.mix (F := Ideal) X A W b) (ix2 p q)
    = Rows.unitRow (Rows.mixRow (Rows.rowOf X p) (Rows.rowOf A p) (Rows.matOf Wx) (Rows.matOf Wa) (Rows.rowOf B 0))
        (Ideal.ofBits .f32 0x2B8CBCCC#32) q
  rw [unit_apply _ hY]
  simp only [hM]
  rfl

/-! ## The head: two affine maps and the logarithm of the softmax of every row -/

/-- The [50000, 128] × [128, 64] product of the network at an entry. -/
theorem dot64_apply {φ₁ φ₂ : FTy} (prec : Option ContractPrecision) (l : FVec Ideal S50000x128 φ₁) (r : FVec Ideal S128x64 φ₂)
    (p : Fin 50000) (q : Fin 64) :
    Host.dotGeneral dot_S50000x128_S128x64_S50000x64_1_0_0_1_n_n prec l r (ix2 p q) = ∑ k : Fin 128, l (ix2 p k) * r (ix2 k q) := by
  refine dot_apply_of dot_S50000x128_S128x64_S50000x64_1_0_0_1_n_n rfl rfl ?_ ?_ ?_ ?_ prec l r p q
  · intro j k; unfold DotDims.lhsIdx
    rw [dif_neg (show ¬ _ ∈ dot_S50000x128_S128x64_S50000x64_1_0_0_1_n_n.lhsBatch by decide),
      dif_pos (show _ ∈ dot_S50000x128_S128x64_S50000x64_1_0_0_1_n_n.lhsNonContracting by decide)]; rfl
  · intro j k; exact DotDims.lhsIdx_val_of_single _ rfl j k
  · intro j k; exact DotDims.rhsIdx_val_of_single _ rfl j k
  · intro j k; unfold DotDims.rhsIdx
    rw [dif_neg (show ¬ _ ∈ dot_S50000x128_S128x64_S50000x64_1_0_0_1_n_n.rhsBatch by decide),
      dif_pos (show _ ∈ dot_S50000x128_S128x64_S50000x64_1_0_0_1_n_n.rhsNonContracting by decide)]; rfl

/-- The bias of the 64-column stage spread over the 50000 rows reads the bias entry of the column. -/
theorem bias64_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) :=
  broadcastInDim_row_apply b bcast_S64_S1x64_1 bcast_S1x64_S50000x64_0_1 p q

/-- The first affine map, as a function of the index. -/
theorem aff128_eq (H : FVec Ideal S50000x128 .f32) (W1 : FVec Ideal S128x128 .f32) (b1 : FVec Ideal S128 .f32) :
    addf (Host.dotGeneral dot_S50000x128_S128x128_S50000x128_1_0_0_1_n_n none H W1)
        (broadcastInDim S50000x128 ![0, 1] bcast_S1x128_S50000x128_0_1 (broadcastInDim S1x128 ![1] bcast_S128_S1x128_1 b1))
      = fun i => Rows.affRow (Rows.rowOf (n := 50000) (d := 128) H (i 0)) (Rows.matOf (a := 128) (b := 128) W1) (fun j => b1 (ix1 j)) (i 1) := by
  funext i
  obtain ⟨p, k, rfl⟩ : ∃ (p : Fin 50000) (k : Fin 128), i = ix2 p k := ⟨i 0, i 1, eq_ix2 i⟩
  rw [addf_apply, dot128_apply, bias128_apply]
  rfl

/-- The two affine maps at an entry. -/
theorem logits_apply (H : FVec Ideal S50000x128 .f32) (W1 : FVec Ideal S128x128 .f32) (b1 : FVec Ideal S128 .f32)
    (W2 : FVec Ideal S128x64 .f32) (b2 : FVec Ideal S64 .f32) (p : Fin 50000) (q : Fin 64) :
    Stages.logits (F := Ideal) H W1 b1 W2 b2 (ix2 p q)
      = Rows.affRow (Rows.affRow (Rows.rowOf (n := 50000) (d := 128) H p) (Rows.matOf (a := 128) (b := 128) W1) (fun j => b1 (ix1 j)))
          (Rows.matOf (a := 128) (b := 64) W2) (fun j => b2 (ix1 j)) q := by
  unfold Stages.logits
  rw [aff128_eq, addf_apply, dot64_apply, bias64_apply]
  rfl

/-- The f32 pattern of minus infinity is the least extended real. -/
theorem ofBits_neg_inf_f32 : Ideal.ofBits .f32 0xFF800000#32 = ⊥ := by
  simp [Ideal.ofBits, Ideal.ieee]

/-- The host's maximum along the columns from minus infinity, at row `p`: the greatest entry of the row. -/
theorem rowMax_apply {n N : Nat} (x : FVec Ideal ⟨2, ![n, N]⟩ .f32) (h' : (⟨2, ![n, N]⟩ : Shape).ReducesTo [1] ⟨1, ![n]⟩)
    (h : (⟨2, ![n, N]⟩ : Shape).Reduces [1] ⟨1, ![n]⟩) (hu : 0 < (⟨0, ![]⟩ : Shape).numel) (p : Fin n) :
    Host.reduce FloatOps.maximumf x (constant (F := Ideal) ⟨0, ![]⟩ .f32 0xFF800000#32) h' hu (ix1 p)
      = Rows.rowMax (fun l : Fin N => x (ix2 p l)) := by
  rw [Host.reduce_eq_fold_single FloatOps.maximumf x _ h' h hu]
  show (Finset.univ : Finset (Fin N)).fold max (Ideal.ofBits .f32 0xFF800000#32) (x ∘ h.lift (ix1 p)) = _
  rw [ofBits_neg_inf_f32]
  have e : x ∘ h.lift (ix1 p) = fun l : Fin N => x (ix2 p l) := funext fun l => congrArg x (lift_row h p l)
  rw [e]
  rfl

/-- The host's exponential and logarithm at an index are the exact ones of the element. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- A row less its maximum, at an entry. -/
theorem shifted_apply (Y : FVec Ideal S50000x64 .f32) (p : Fin 50000) (q : Fin 64) :
    Stages.shifted (F := Ideal) Y (ix2 p q) = Y (ix2 p q) - Rows.rowMax (fun l : Fin 64 => Y (ix2 p l)) := by
  unfold Stages.shifted
  rw [subf_apply, colSpread_apply, vecCol_apply, maximumf_apply, IdealLayout.broadcastInDim_scalar_apply, constant_apply,
    ofBits_neg_inf_f32, rowMax_apply _ _ (by decide), max_bot_left]

/-- The logarithm of the softmax of every row, at an entry. -/
theorem logSoftmax_apply (Y : FVec Ideal S50000x64 .f32) (p : Fin 50000) (q : Fin 64) :
    Stages.logSoftmax (F := Ideal) Y (ix2 p q) = Rows.lsmRow (fun l : Fin 64 => Y (ix2 p l)) q := by
  unfold Stages.logSoftmax
  rw [subf_apply, colSpread_apply, hostLog_apply, vecCol_apply, rowSum_apply _ _ (by decide)]
  simp only [hostExp_apply, shifted_apply]
  rfl

theorem head_rows (H : FVec Ideal S50000x128 .f32) (W1 : FVec Ideal S128x128 .f32) (b1 : FVec Ideal S128 .f32)
    (W2 : FVec Ideal S128x64 .f32) (b2 : FVec Ideal S64 .f32) (B1 : Rows.Arr 1 128) (B2 : Rows.Arr 1 64)
    (hB1 : ∀ j : Fin 128, B1 (ix2 0 j) = b1 (ix1 j)) (hB2 : ∀ j : Fin 64, B2 (ix2 0 j) = b2 (ix1 j)) :
    (Stages.head (F := Ideal) H W1 b1 W2 b2 : Rows.Arr 50000 64) = Rows.headArr H W1 B1 W2 B2 := by
  have e1 : (fun j : Fin 128 => b1 (ix1 j)) = Rows.rowOf B1 0 := funext fun j => (hB1 j).symm
  have e2 : (fun j : Fin 64 => b2 (ix1 j)) = Rows.rowOf B2 0 := funext fun j => (hB2 j).symm
  funext i
  obtain ⟨p, q, rfl⟩ : ∃ (p : Fin 50000) (q : Fin 64), i = ix2 p q := ⟨i 0, i 1, eq_ix2 i⟩
  show Stages.logSoftmax (Stages.logits (F := Ideal) H W1 b1 W2 b2) (ix2 p q)
    = Rows.lsmRow (Rows.affRow (Rows.affRow (Rows.rowOf H p) (Rows.matOf W1) (Rows.rowOf B1 0)) (Rows.matOf W2) (Rows.rowOf B2 0)) q
  rw [logSoftmax_apply]
  simp only [logits_apply, e1, e2]

end Cert.StageRows

end
-- ==== Proof.Bridge.lean ====
/-
  The kernel program's composed value is the reference's network.

  Stage by stage both are the same row-wise function: the reference's linear layer, mixing layer and head in the host
  operations' spelling equal the row-wise stages (StageRows.lean), with the bias read as a one-row array and the mixing
  weights' two halves read out of the one [256, 128] array; and the neighbourhood mean computed by multiplying with the
  reciprocal of the bounded degree is the one computed by dividing by it.
-/
import proofs.«137334_j6425271075235_1_alg».proof.Proof.KernelNet
import proofs.«137334_j6425271075235_1_alg».proof.Proof.Stages
import proofs.«137334_j6425271075235_1_alg».proof.Proof.StageRows
import proofs.«137334_j6425271075235_1_alg».proof.Proof.Net
import Idealize.ShloMosaic.Lib.ValueLayout
import Idealize.ShloMosaic.Lib.Pipeline.Value

noncomputable section

namespace Cert.Bridge

open Idealize.ShloMosaic Idealize.ShloMosaic.TcCoe Idealize.ShloMosaic.ValueIdx Cert.KernelIdeal Cert.KernelIdeal.Facts₀ Cert.KernelIdeal.Facts

/-- A bias cast to a one-row array reads the bias. -/
theorem biasRow_apply (b : (⟨S128, .f32⟩ : BufTy).Contents (Elt Ideal)) (j : Fin 128) : KNet.biasRow b (ix2 0 j) = b (ix1 j) :=
  shapeCast_a_1a_apply b shapeCasts_S128_S1x128 0 j

theorem biasRow64_apply (b : (⟨S64, .f32⟩ : BufTy).Contents (Elt Ideal)) (j : Fin 64) : KNet.biasRow64 b (ix2 0 j) = b (ix1 j) :=
  shapeCast_a_1a_apply b shapeCasts_S64_S1x64 0 j

/-- The first 128 rows of the mixing weights. -/
theorem topHalf_apply (W : (⟨S256x128, .f32⟩ : BufTy).Contents (Elt Ideal)) (k j : Fin 128) :
    KNet.topHalf W (ix2 k j) = W (ix2 (⟨k.val, by omega⟩ : Fin 256) j) := by
  unfold KNet.topHalf
  exact extractStridedSlice_apply ![0, 0] W slices_S256x128_S128x128_0_0 (ix2 k j) (ix2 (⟨k.val, by omega⟩ : Fin 256) j) (fun a => match a with
    | ⟨0, _⟩ => by show k.val = 0 + k.val; omega
    | ⟨1, _⟩ => by show j.val = 0 + j.val; omega)

/-- The last 128 rows of the mixing weights. -/
theorem botHalf_apply (W : (⟨S256x128, .f32⟩ : BufTy).Contents (Elt Ideal)) (k j : Fin 128) :
    KNet.botHalf W (ix2 k j) = W (ix2 (⟨128 + k.val, by omega⟩ : Fin 256) j) := by
  unfold KNet.botHalf
  exact extractStridedSlice_apply ![128, 0] W slices_S256x128_S128x128_128_0 (ix2 k j) (ix2 (⟨128 + k.val, by omega⟩ : Fin 256) j) (fun a => match a with
    | ⟨0, _⟩ => by show 128 + k.val = 128 + k.val; rfl
    | ⟨1, _⟩ => by show j.val = 0 + j.val; omega)

theorem lin_bridge (X : (⟨S50000x128, .f32⟩ : BufTy).Contents (Elt Ideal)) (W : (⟨S128x128, .f32⟩ : BufTy).Contents (Elt Ideal)) (b : (⟨S128, .f32⟩ : BufTy).Contents (Elt Ideal)) :
    Rows.linArr (n := 50000) X W (KNet.biasRow b) = Stages.lin (F := Ideal) X W b :=
  (StageRows.lin_rows X W b (KNet.biasRow b) (biasRow_apply b)).symm

/-- The mean by the reciprocal is the mean by division (the two spellings of the host chain are one term). -/
theorem mean_bridge (H : (⟨S50000x128, .f32⟩ : BufTy).Contents (Elt Ideal)) (e : (⟨S2x800000, .i32⟩ : BufTy).Contents (Elt Ideal)) :
    KNet.mean H (KNet.srcV e) (KNet.dstV e) (KNet.rdeg (KNet.dstV e)) = Stages.meanDiv (F := Ideal) H e :=
  (show KNet.mean H (KNet.srcV e) (KNet.dstV e) (KNet.rdeg (KNet.dstV e)) = Stages.meanMul (F := Ideal) H e from rfl).trans (StageRows.mean_eq H e)

theorem mix_bridge (X A : (⟨S50000x128, .f32⟩ : BufTy).Contents (Elt Ideal)) (W : (⟨S256x128, .f32⟩ : BufTy).Contents (Elt Ideal)) (b : (⟨S128, .f32⟩ : BufTy).Contents (Elt Ideal)) :
    Rows.mixUnitArr (n := 50000) X A (KNet.topHalf W) (KNet.botHalf W) (KNet.biasRow b) KNet.eps = Stages.mixUnit (F := Ideal) X A W b :=
  (StageRows.mixUnit_rows X A W b (KNet.topHalf W) (KNet.botHalf W) (KNet.biasRow b) (topHalf_apply W) (botHalf_apply W) (biasRow_apply b)).symm

theorem head_bridge (H : (⟨S50000x128, .f32⟩ : BufTy).Contents (Elt Ideal)) (W1 : (⟨S128x128, .f32⟩ : BufTy).Contents (Elt Ideal)) (b1 : (⟨S128, .f32⟩ : BufTy).Contents (Elt Ideal))
    (W2 : (⟨S128x64, .f32⟩ : BufTy).Contents (Elt Ideal)) (b2 : (⟨S64, .f32⟩ : BufTy).Contents (Elt Ideal)) :
    Rows.headArr (n := 50000) H W1 (KNet.biasRow b1) W2 (KNet.biasRow64 b2) = Stages.head (F := Ideal) H W1 b1 W2 b2 :=
  (StageRows.head_rows H W1 b1 W2 b2 (KNet.biasRow b1) (KNet.biasRow64 b2) (biasRow_apply b1) (biasRow64_apply b2)).symm

variable (m : (ℓ : Loc nD τ sig) → Buf (Elt Ideal) ℓ) (c : Dev nD)

/-- The kernel program's result is the network of the launch contents of its arguments. -/
theorem out_eq : KNet.out m c = Stages.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold KNet.out KNet.h3 KNet.mean2 KNet.lin2 KNet.h2 KNet.mean1 KNet.lin1 KNet.h1 KNet.mean0 KNet.lin0 KNet.rD KNet.sV KNet.dV
  simp only [lin_bridge, mean_bridge, mix_bridge, head_bridge]
  rfl

end Cert.Bridge

end
-- ==== Proof.lean ====
/-
  A three-layer neighbourhood-mean graph network with a log-softmax head, as a tiled kernel program and as a plain
  array program: at the exact (extended-real) instance both compute the same array.

  Layer by layer the two programs differ in three places, each an identity of the extended reals that needs no
  finiteness: the neighbourhood mean is a sum divided by the in-degree bounded below by one, or that sum times the
  reciprocal (the divisor is at least one, so it is not zero and division is multiplication by the inverse); the mixing
  layer multiplies the row [x, a] with one [256, 128] matrix, or x and a with its two halves and adds (a sum over 256
  indices split in two); and the reference rectifies once more a row that is already a quotient of a nonnegative number
  by a positive one. Changes of float format are the identity, a matrix product accumulated into zeros is the host's
  product, and the gather and the scatter-add are the same operations applied to the same index arrays in both programs.
  The kernel's seven regions each write, block of rows by block of rows, a row-wise function of whole arrays
  (Regions.lean), the buffers are followed through @main (KernelChain.lean), and the composed value is the reference's
  network (Bridge.lean), which the reference's straight-line @main computes (RefRun.lean).
  The frames are the generated ones; nothing was rewritten by the idealization, so `preserves` is trivial.
-/
import proofs.«137334_j6425271075235_1_alg».proof.Defs
import proofs.«137334_j6425271075235_1_alg».proof.Proof.Gen.Kernel
import proofs.«137334_j6425271075235_1_alg».proof.Proof.Gen.Kernel.Frame
import proofs.«137334_j6425271075235_1_alg».proof.Proof.Gen.KernelIdeal
import proofs.«137334_j6425271075235_1_alg».proof.Proof.Gen.KernelIdeal.Frame
import proofs.«137334_j6425271075235_1_alg».proof.Proof.Gen.ReferenceIdeal
import proofs.«137334_j6425271075235_1_alg».proof.Proof.Gen.Pre_finite_inputs
import proofs.«137334_j6425271075235_1_alg».proof.Proof.KernelRun
import proofs.«137334_j6425271075235_1_alg».proof.Proof.KernelChain
import proofs.«137334_j6425271075235_1_alg».proof.Proof.Payloads
import proofs.«137334_j6425271075235_1_alg».proof.Proof.RefRun
import proofs.«137334_j6425271075235_1_alg».proof.Proof.Bridge
import Idealize.ShloMosaic.Adequacy
import Idealize.ShloMosaic.Init

noncomputable section

namespace Cert.Proof

open Idealize.ShloMosaic Idealize.ShloMosaic.TcCoe Idealize.SL.Sem

/-- The seven kernel bodies compute the row-wise stages. -/
theorem payloads : Cert.Regions.PayloadFacts :=
  ⟨Cert.Payloads.lin0, Cert.Payloads.mix1, Cert.Payloads.lin2, Cert.Payloads.mix3, Cert.Payloads.lin4, Cert.Payloads.mix5, Cert.Payloads.head6⟩

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

theorem preserves : Cert.preserves_Kernel_KernelIdeal := trivial

/-- From memories agreeing on the arguments both programs end with the network of the arguments in their result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' _ hagree
  refine ⟨fun c => Cert.KNet.out m c, ?_, ?_⟩
  · exact (θ_run Cert.KernelIdeal.defs _ _).mono (fun r h c => ⟨(h c).1.trans (Cert.KChain.result_value m g c payloads), (h c).2⟩)
      (Cert.KernelIdeal.RunValue.run_result m g)
  · refine (θ_run Cert.ReferenceIdeal.defs _ _).mono (fun _ h c => ⟨(h c).1.trans ?_, (h c).2⟩)
      (Cert.ReferenceIdeal.HandRun.run (F := Ideal) m' g')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
    exact (Cert.Bridge.out_eq m c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
